-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v173)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v173) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S16384x128 : Shape := ⟨2, ![16384, 128]⟩
abbrev S8192x16384 : Shape := ⟨2, ![8192, 16384]⟩
abbrev S8192 : Shape := ⟨1, ![8192]⟩
abbrev S16384 : Shape := ⟨1, ![16384]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S1x128 : Shape := ⟨2, ![1, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S8192x16384 : S_.BroadcastsInDim S8192x16384 (![] : Fin 0 → Fin S8192x16384.rank)
  reducesTo_S8192x16384_S_d0_1 : S8192x16384.ReducesTo [0, 1] S_
  bcast_S_S8192 : S_.BroadcastsInDim S8192 (![] : Fin 0 → Fin S8192.rank)
  reducesTo_S8192_S_d0 : S8192.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_

variable [Facts]

def fn_part6 {F : FTy → Type} [FloatOps F] (main_arg22 : FVec F S128 .f32) (main_arg23 : FVec F S1x128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S1x128 .f32 := Host.absf main_arg23
  let main_cst_42 : FVec F S_ .f32 := constant S_ .f32 0x7F800000#32
  let main_v110 : FVec F S1x128 .f32 := broadcastInDim S1x128 ![] bcast_S_S1x128 main_cst_42
  let main_v111 : IVec S1x128 1 := cmpf .olt main_v109 main_v110
  let main_c_43 : IVec S_ 1 := constantI S_ 1 1#1
  let main_v112 : IVec S_ 1 := (fun x v => Host.reduce IntOp.andi x v reducesTo_S1x128_S_d0_1 h_S_) main_v111 main_c_43
  let main_v113 : IVec S_ 1 := andi main_v108 main_v112
  main_v113

def fn_part5 {F : FTy → Type} [FloatOps F] (main_arg19 : FVec F S128 .f32) (main_arg20 : FVec F S128 .f32) (main_arg21 : FVec F S128 .f32) (main_arg22 : FVec F S128 .f32) (main_arg23 : FVec F S1x128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S256x128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S1x128 .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S1x128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg13
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S128 .f32) (main_arg9 : FVec F S256x256 .f32) (main_arg10 : FVec F S256 .f32) (main_arg11 : FVec F S256x128 .f32) (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S1x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x128 .f32) (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S1x128 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S8192x128 .f32) (main_arg1 : FVec F S16384x128 .f32) (main_arg2 : FVec F S8192x16384 .f32) (main_arg3 : FVec F S8192 .f32) (main_arg4 : IVec S16384 32) (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x128 .f32) (main_arg12 : FVec F S128 .f32) (main_arg13 : FVec F S128x256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S1x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S8192x16384 .f32 := Host.absf main_arg2
  let main_cst_2 : FVec F S_ .f32 := constant S_ .f32 0x7F800000#32
  let main_v10 : FVec F S8192x16384 .f32 := broadcastInDim S8192x16384 ![] bcast_S_S8192x16384 main_cst_2
  let main_v11 : IVec S8192x16384 1 := cmpf .olt main_v9 main_v10
  let main_c_3 : IVec S_ 1 := constantI S_ 1 1#1
  let main_v12 : IVec S_ 1 := (fun x v => Host.reduce IntOp.andi x v reducesTo_S8192x16384_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S8192x128 : Shape := ⟨2, ![8192, 128]⟩
abbrev S16384x128 : Shape := ⟨2, ![16384, 128]⟩
abbrev S8192x16384 : Shape := ⟨2, ![8192, 16384]⟩
abbrev S8192 : Shape := ⟨1, ![8192]⟩
abbrev S16384 : Shape := ⟨1, ![16384]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S1x128 : Shape := ⟨2, ![1, 128]⟩
abbrev S9x128 : Shape := ⟨2, ![9, 128]⟩
abbrev S2x128 : Shape := ⟨2, ![2, 128]⟩
abbrev S_ : Shape := ⟨0, ![]⟩
abbrev S16384x1 : Shape := ⟨2, ![16384, 1]⟩
abbrev S8192x1 : Shape := ⟨2, ![8192, 1]⟩
abbrev S8192x256 : Shape := ⟨2, ![8192, 256]⟩
abbrev S1x256 : Shape := ⟨2, ![1, 256]⟩
abbrev S16384x256 : Shape := ⟨2, ![16384, 256]⟩
abbrev S24576x128 : Shape := ⟨2, ![24576, 128]⟩
abbrev S1024x2048 : Shape := ⟨2, ![1024, 2048]⟩
abbrev S2048x128 : Shape := ⟨2, ![2048, 128]⟩
abbrev S1024x128 : Shape := ⟨2, ![1024, 128]⟩
abbrev S1 : Shape := ⟨1, ![1]⟩
abbrev S1x1 : Shape := ⟨2, ![1, 1]⟩

abbrev nBuf : Space → Nat
  | .hbm => 345
  | .vmem => 7
  | .smem => 0
  | _ => 0

abbrev hbmTy0_0 (i : Nat) : BufTy := match i % 128 with
  | 0 => ⟨S8192x128, .f32⟩
  | 1 => ⟨S16384x128, .f32⟩
  | 2 => ⟨S8192x16384, .f32⟩
  | 3 => ⟨S8192, .f32⟩
  | 4 => ⟨S16384, .i32⟩
  | 5 => ⟨S256x256, .f32⟩
  | 6 => ⟨S256, .f32⟩
  | 7 => ⟨S256x128, .f32⟩
  | 8 => ⟨S128, .f32⟩
  | 9 => ⟨S256x256, .f32⟩
  | 10 => ⟨S256, .f32⟩
  | 11 => ⟨S256x128, .f32⟩
  | 12 => ⟨S128, .f32⟩
  | 13 => ⟨S128x256, .f32⟩
  | 14 => ⟨S256, .f32⟩
  | 15 => ⟨S256x128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S1x128, .f32⟩
  | 24 => ⟨S9x128, .f32⟩
  | 25 => ⟨S2x128, .f32⟩
  | 26 => ⟨S1x128, .f32⟩
  | 27 => ⟨S128, .f32⟩
  | 28 => ⟨S1x128, .f32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S16384x128, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S_, .i32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S8192x128, .f32⟩
  | 52 => ⟨S8192x128, .f32⟩
  | 53 => ⟨S8192x128, .f32⟩
  | 54 => ⟨S_, .f32⟩
  | 55 => ⟨S_, .f32⟩
  | 56 => ⟨S_, .f32⟩
  | 57 => ⟨S_, .f32⟩
  | 58 => ⟨S8192, .f32⟩
  | 59 => ⟨S8192x1, .f32⟩
  | 60 => ⟨S8192x1, .f32⟩
  | 61 => ⟨S8192x1, .f32⟩
  | 62 => ⟨S_, .f32⟩
  | 63 => ⟨S_, .i1⟩
  | 64 => ⟨S_, .f32⟩
  | 65 => ⟨S_, .f32⟩
  | 66 => ⟨S8192x1, .f32⟩
  | 67 => ⟨S8192x1, .f32⟩
  | 68 => ⟨S8192x128, .f32⟩
  | 69 => ⟨S8192x128, .f32⟩
  | 70 => ⟨S_, .f32⟩
  | 71 => ⟨S8192x1, .f32⟩
  | 72 => ⟨S8192x1, .f32⟩
  | 73 => ⟨S8192x1, .f32⟩
  | 74 => ⟨S8192x128, .f32⟩
  | 75 => ⟨S8192x128, .f32⟩
  | 76 => ⟨S1x128, .f32⟩
  | 77 => ⟨S8192x128, .f32⟩
  | 78 => ⟨S8192x128, .f32⟩
  | 79 => ⟨S1x128, .f32⟩
  | 80 => ⟨S8192x128, .f32⟩
  | 81 => ⟨S8192x128, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S_, .i32⟩
  | 89 => ⟨S_, .f32⟩
  | 90 => ⟨S16384, .f32⟩
  | 91 => ⟨S16384x1, .f32⟩
  | 92 => ⟨S_, .f32⟩
  | 93 => ⟨S16384x1, .f32⟩
  | 94 => ⟨S16384x1, .f32⟩
  | 95 => ⟨S16384x128, .f32⟩
  | 96 => ⟨S16384x128, .f32⟩
  | 97 => ⟨S16384x128, .f32⟩
  | 98 => ⟨S_, .f32⟩
  | 99 => ⟨S_, .f32⟩
  | 100 => ⟨S_, .f32⟩
  | 101 => ⟨S_, .f32⟩
  | 102 => ⟨S16384, .f32⟩
  | 103 => ⟨S16384x1, .f32⟩
  | 104 => ⟨S16384x1, .f32⟩
  | 105 => ⟨S16384x1, .f32⟩
  | 106 => ⟨S_, .f32⟩
  | 107 => ⟨S_, .i1⟩
  | 108 => ⟨S_, .f32⟩
  | 109 => ⟨S_, .f32⟩
  | 110 => ⟨S16384x1, .f32⟩
  | 111 => ⟨S16384x1, .f32⟩
  | 112 => ⟨S16384x128, .f32⟩
  | 113 => ⟨S16384x128, .f32⟩
  | 114 => ⟨S_, .f32⟩
  | 115 => ⟨S16384x1, .f32⟩
  | 116 => ⟨S16384x1, .f32⟩
  | 117 => ⟨S16384x1, .f32⟩
  | 118 => ⟨S16384x128, .f32⟩
  | 119 => ⟨S16384x128, .f32⟩
  | 120 => ⟨S1x128, .f32⟩
  | 121 => ⟨S16384x128, .f32⟩
  | 122 => ⟨S16384x128, .f32⟩
  | 123 => ⟨S1x128, .f32⟩
  | 124 => ⟨S16384x128, .f32⟩
  | 125 => ⟨S16384x128, .f32⟩
  | 126 => ⟨S8192x128, .f32⟩
  | 127 => ⟨S8192x256, .f32⟩
  | _ => ⟨S8192x128, .f32⟩

abbrev hbmTy0_1 (i : Nat) : BufTy := match i % 128 with
  | 0 => ⟨S8192x256, .f32⟩
  | 1 => ⟨S1x256, .f32⟩
  | 2 => ⟨S8192x256, .f32⟩
  | 3 => ⟨S8192x256, .f32⟩
  | 4 => ⟨S_, .f32⟩
  | 5 => ⟨S8192x256, .f32⟩
  | 6 => ⟨S8192x256, .f32⟩
  | 7 => ⟨S8192x128, .f32⟩
  | 8 => ⟨S1x128, .f32⟩
  | 9 => ⟨S8192x128, .f32⟩
  | 10 => ⟨S8192x128, .f32⟩
  | 11 => ⟨S8192x128, .f32⟩
  | 12 => ⟨S16384x256, .f32⟩
  | 13 => ⟨S16384x256, .f32⟩
  | 14 => ⟨S1x256, .f32⟩
  | 15 => ⟨S16384x256, .f32⟩
  | 16 => ⟨S16384x256, .f32⟩
  | 17 => ⟨S_, .f32⟩
  | 18 => ⟨S16384x256, .f32⟩
  | 19 => ⟨S16384x256, .f32⟩
  | 20 => ⟨S16384x128, .f32⟩
  | 21 => ⟨S1x128, .f32⟩
  | 22 => ⟨S16384x128, .f32⟩
  | 23 => ⟨S16384x128, .f32⟩
  | 24 => ⟨S16384x128, .f32⟩
  | 25 => ⟨S24576x128, .f32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S8192x128, .f32⟩
  | 33 => ⟨S8192x128, .f32⟩
  | 34 => ⟨S8192x1, .f32⟩
  | 35 => ⟨S_, .f32⟩
  | 36 => ⟨S8192x1, .f32⟩
  | 37 => ⟨S8192x1, .f32⟩
  | 38 => ⟨S8192x128, .f32⟩
  | 39 => ⟨S8192x128, .f32⟩
  | 40 => ⟨S_, .f32⟩
  | 41 => ⟨S1, .f32⟩
  | 42 => ⟨S1x1, .f32⟩
  | 43 => ⟨S_, .f32⟩
  | 44 => ⟨S1x1, .f32⟩
  | 45 => ⟨S1x1, .f32⟩
  | 46 => ⟨S_, .i32⟩
  | 47 => ⟨S_, .f32⟩
  | 48 => ⟨S1, .f32⟩
  | 49 => ⟨S1x1, .f32⟩
  | 50 => ⟨S_, .f32⟩
  | 51 => ⟨S1x1, .f32⟩
  | 52 => ⟨S1x1, .f32⟩
  | 53 => ⟨S1x128, .f32⟩
  | 54 => ⟨S1x128, .f32⟩
  | 55 => ⟨S1x128, .f32⟩
  | 56 => ⟨S_, .f32⟩
  | 57 => ⟨S_, .f32⟩
  | 58 => ⟨S_, .f32⟩
  | 59 => ⟨S_, .f32⟩
  | 60 => ⟨S1, .f32⟩
  | 61 => ⟨S1x1, .f32⟩
  | 62 => ⟨S1x1, .f32⟩
  | 63 => ⟨S1x1, .f32⟩
  | 64 => ⟨S_, .f32⟩
  | 65 => ⟨S_, .i1⟩
  | 66 => ⟨S_, .f32⟩
  | 67 => ⟨S_, .f32⟩
  | 68 => ⟨S1x1, .f32⟩
  | 69 => ⟨S1x1, .f32⟩
  | 70 => ⟨S1x128, .f32⟩
  | 71 => ⟨S1x128, .f32⟩
  | 72 => ⟨S_, .f32⟩
  | 73 => ⟨S1x1, .f32⟩
  | 74 => ⟨S1x1, .f32⟩
  | 75 => ⟨S1x1, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S_, .i32⟩
  | 89 => ⟨S_, .f32⟩
  | 90 => ⟨S8192, .f32⟩
  | 91 => ⟨S8192x1, .f32⟩
  | 92 => ⟨S_, .f32⟩
  | 93 => ⟨S8192x1, .f32⟩
  | 94 => ⟨S8192x1, .f32⟩
  | 95 => ⟨S8192x128, .f32⟩
  | 96 => ⟨S8192x128, .f32⟩
  | 97 => ⟨S8192x128, .f32⟩
  | 98 => ⟨S_, .f32⟩
  | 99 => ⟨S_, .f32⟩
  | 100 => ⟨S_, .f32⟩
  | 101 => ⟨S_, .f32⟩
  | 102 => ⟨S8192, .f32⟩
  | 103 => ⟨S8192x1, .f32⟩
  | 104 => ⟨S8192x1, .f32⟩
  | 105 => ⟨S8192x1, .f32⟩
  | 106 => ⟨S_, .f32⟩
  | 107 => ⟨S_, .i1⟩
  | 108 => ⟨S_, .f32⟩
  | 109 => ⟨S_, .f32⟩
  | 110 => ⟨S8192x1, .f32⟩
  | 111 => ⟨S8192x1, .f32⟩
  | 112 => ⟨S8192x128, .f32⟩
  | 113 => ⟨S8192x128, .f32⟩
  | 114 => ⟨S_, .f32⟩
  | 115 => ⟨S8192x1, .f32⟩
  | 116 => ⟨S8192x1, .f32⟩
  | 117 => ⟨S8192x1, .f32⟩
  | 118 => ⟨S8192x128, .f32⟩
  | 119 => ⟨S8192x128, .f32⟩
  | 120 => ⟨S1x128, .f32⟩
  | 121 => ⟨S8192x128, .f32⟩
  | 122 => ⟨S8192x128, .f32⟩
  | 123 => ⟨S1x128, .f32⟩
  | 124 => ⟨S8192x128, .f32⟩
  | 125 => ⟨S8192x128, .f32⟩
  | 126 => ⟨S1x128, .f32⟩
  | 127 => ⟨S128, .f32⟩
  | _ => ⟨S8192x128, .f32⟩

abbrev hbmTy0_2 (i : Nat) : BufTy := match i % 128 with
  | 0 => ⟨S1x128, .f32⟩
  | 1 => ⟨S1x256, .f32⟩
  | 2 => ⟨S1x256, .f32⟩
  | 3 => ⟨S1x256, .f32⟩
  | 4 => ⟨S1x256, .f32⟩
  | 5 => ⟨S_, .f32⟩
  | 6 => ⟨S1x256, .f32⟩
  | 7 => ⟨S1x256, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S128, .f32⟩
  | 14 => ⟨S1x128, .f32⟩
  | 15 => ⟨S8192x128, .f32⟩
  | 16 => ⟨S8192x256, .f32⟩
  | 17 => ⟨S8192x256, .f32⟩
  | 18 => ⟨S1x256, .f32⟩
  | 19 => ⟨S8192x256, .f32⟩
  | 20 => ⟨S8192x256, .f32⟩
  | 21 => ⟨S_, .f32⟩
  | 22 => ⟨S8192x256, .f32⟩
  | 23 => ⟨S8192x256, .f32⟩
  | 24 => ⟨S8192x128, .f32⟩
  | 25 => ⟨S1x128, .f32⟩
  | 26 => ⟨S8192x128, .f32⟩
  | 27 => ⟨S8192x128, .f32⟩
  | 28 => ⟨S8192x128, .f32⟩
  | 29 => ⟨S8192x128, .f32⟩
  | 30 => ⟨S8192x128, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S_, .i32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S8192x128, .f32⟩
  | 45 => ⟨S8192x128, .f32⟩
  | 46 => ⟨S8192x128, .f32⟩
  | 47 => ⟨S_, .f32⟩
  | 48 => ⟨S_, .f32⟩
  | 49 => ⟨S_, .f32⟩
  | 50 => ⟨S_, .f32⟩
  | 51 => ⟨S8192, .f32⟩
  | 52 => ⟨S8192x1, .f32⟩
  | 53 => ⟨S8192x1, .f32⟩
  | 54 => ⟨S8192x1, .f32⟩
  | 55 => ⟨S_, .f32⟩
  | 56 => ⟨S_, .i1⟩
  | 57 => ⟨S_, .f32⟩
  | 58 => ⟨S_, .f32⟩
  | 59 => ⟨S8192x1, .f32⟩
  | 60 => ⟨S8192x1, .f32⟩
  | 61 => ⟨S8192x128, .f32⟩
  | 62 => ⟨S8192x128, .f32⟩
  | 63 => ⟨S_, .f32⟩
  | 64 => ⟨S8192x1, .f32⟩
  | 65 => ⟨S8192x1, .f32⟩
  | 66 => ⟨S8192x1, .f32⟩
  | 67 => ⟨S8192x128, .f32⟩
  | 68 => ⟨S8192x128, .f32⟩
  | 69 => ⟨S1x128, .f32⟩
  | 70 => ⟨S8192x128, .f32⟩
  | 71 => ⟨S8192x128, .f32⟩
  | 72 => ⟨S1x128, .f32⟩
  | 73 => ⟨S8192x128, .f32⟩
  | 74 => ⟨S8192x128, .f32⟩
  | 75 => ⟨S8192x256, .f32⟩
  | 76 => ⟨S1x256, .f32⟩
  | 77 => ⟨S8192x256, .f32⟩
  | 78 => ⟨S8192x256, .f32⟩
  | 79 => ⟨S_, .f32⟩
  | 80 => ⟨S8192x256, .f32⟩
  | 81 => ⟨S8192x256, .f32⟩
  | 82 => ⟨S8192x128, .f32⟩
  | 83 => ⟨S1x128, .f32⟩
  | 84 => ⟨S8192x128, .f32⟩
  | 85 => ⟨S8192x128, .f32⟩
  | 86 => ⟨S8192x128, .f32⟩
  | 87 => ⟨S8192x128, .f32⟩
  | 88 => ⟨S8192x128, .f32⟩
  | _ => ⟨S8192x128, .f32⟩

abbrev hbmTy (i : Nat) : BufTy := match i / 128 with
  | 0 => hbmTy0_0 i
  | 1 => hbmTy0_1 i
  | 2 => hbmTy0_2 i
  | _ => ⟨S8192x128, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_cst_0 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_c : Ref sig .tc := ⟨.hbm, 29, rfl⟩
abbrev main_v3 : Ref sig .tc := ⟨.hbm, 30, rfl⟩
abbrev main_v4 : Ref sig .tc := ⟨.hbm, 31, rfl⟩
abbrev main_c_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_cst_3 : Ref sig .tc := ⟨.hbm, 41, rfl⟩
abbrev main_v12 : Ref sig .tc := ⟨.hbm, 42, rfl⟩
abbrev main_v13 : Ref sig .tc := ⟨.hbm, 43, rfl⟩
abbrev main_c_4 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_cst_3 : Ref sig .tc := ⟨.hbm, 62, rfl⟩
abbrev main_call0_v13 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_cst_5 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_cst_6 : Ref sig .tc := ⟨.hbm, 82, rfl⟩
abbrev main_v28 : Ref sig .tc := ⟨.hbm, 83, rfl⟩
abbrev main_v29 : Ref sig .tc := ⟨.hbm, 84, rfl⟩
abbrev main_cst_7 : Ref sig .tc := ⟨.hbm, 85, rfl⟩
abbrev main_v30 : Ref sig .tc := ⟨.hbm, 86, rfl⟩
abbrev main_v31 : Ref sig .tc := ⟨.hbm, 87, rfl⟩
abbrev main_c_8 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_cst_1 : Ref sig .tc := ⟨.hbm, 99, rfl⟩
abbrev main_call1_v8 : Ref sig .tc := ⟨.hbm, 100, rfl⟩
abbrev main_call1_cst_2 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_v12 : Ref sig .tc := ⟨.hbm, 105, rfl⟩
abbrev main_call1_cst_3 : Ref sig .tc := ⟨.hbm, 106, rfl⟩
abbrev main_call1_v13 : Ref sig .tc := ⟨.hbm, 107, rfl⟩
abbrev main_call1_cst_4 : Ref sig .tc := ⟨.hbm, 108, rfl⟩
abbrev main_call1_call0_v0 : Ref sig .tc := ⟨.hbm, 109, rfl⟩
abbrev main_call1_call0_v1 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_cst_9 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_call2_cst : Ref sig .tc := ⟨.hbm, 132, rfl⟩
abbrev main_call2_v0 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_call3_cst : Ref sig .tc := ⟨.hbm, 145, rfl⟩
abbrev main_call3_v0 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_cst_10 : Ref sig .tc := ⟨.hbm, 154, rfl⟩
abbrev main_v70 : Ref sig .tc := ⟨.hbm, 155, rfl⟩
abbrev main_v71 : Ref sig .tc := ⟨.hbm, 156, rfl⟩
abbrev main_cst_11 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_cst_12 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_cst_13 : Ref sig .tc := ⟨.hbm, 168, rfl⟩
abbrev main_v81 : Ref sig .tc := ⟨.hbm, 169, rfl⟩
abbrev main_v82 : Ref sig .tc := ⟨.hbm, 170, rfl⟩
abbrev main_cst_14 : Ref sig .tc := ⟨.hbm, 171, rfl⟩
abbrev main_v83 : Ref sig .tc := ⟨.hbm, 172, rfl⟩
abbrev main_v84 : Ref sig .tc := ⟨.hbm, 173, rfl⟩
abbrev main_c_15 : Ref sig .tc := ⟨.hbm, 174, rfl⟩
abbrev main_call4_cst : Ref sig .tc := ⟨.hbm, 175, rfl⟩
abbrev main_call4_v0 : Ref sig .tc := ⟨.hbm, 176, rfl⟩
abbrev main_call4_v1 : Ref sig .tc := ⟨.hbm, 177, rfl⟩
abbrev main_call4_cst_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_v7 : Ref sig .tc := ⟨.hbm, 184, rfl⟩
abbrev main_call4_cst_1 : Ref sig .tc := ⟨.hbm, 185, rfl⟩
abbrev main_call4_v8 : Ref sig .tc := ⟨.hbm, 186, rfl⟩
abbrev main_call4_cst_2 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_v12 : Ref sig .tc := ⟨.hbm, 191, rfl⟩
abbrev main_call4_cst_3 : Ref sig .tc := ⟨.hbm, 192, rfl⟩
abbrev main_call4_v13 : Ref sig .tc := ⟨.hbm, 193, rfl⟩
abbrev main_call4_cst_4 : Ref sig .tc := ⟨.hbm, 194, rfl⟩
abbrev main_call4_call0_v0 : Ref sig .tc := ⟨.hbm, 195, rfl⟩
abbrev main_call4_call0_v1 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_cst_16 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_v96 : Ref sig .tc := ⟨.hbm, 209, rfl⟩
abbrev main_cst_17 : Ref sig .tc := ⟨.hbm, 210, rfl⟩
abbrev main_v97 : Ref sig .tc := ⟨.hbm, 211, rfl⟩
abbrev main_v98 : Ref sig .tc := ⟨.hbm, 212, rfl⟩
abbrev main_cst_18 : Ref sig .tc := ⟨.hbm, 213, rfl⟩
abbrev main_v99 : Ref sig .tc := ⟨.hbm, 214, rfl⟩
abbrev main_v100 : Ref sig .tc := ⟨.hbm, 215, rfl⟩
abbrev main_c_19 : Ref sig .tc := ⟨.hbm, 216, rfl⟩
abbrev main_call5_cst : Ref sig .tc := ⟨.hbm, 217, rfl⟩
abbrev main_call5_v0 : Ref sig .tc := ⟨.hbm, 218, rfl⟩
abbrev main_call5_v1 : Ref sig .tc := ⟨.hbm, 219, rfl⟩
abbrev main_call5_cst_0 : Ref sig .tc := ⟨.hbm, 220, rfl⟩
abbrev main_call5_v2 : Ref sig .tc := ⟨.hbm, 221, rfl⟩
abbrev main_call5_v3 : Ref sig .tc := ⟨.hbm, 222, rfl⟩
abbrev main_call5_v4 : Ref sig .tc := ⟨.hbm, 223, rfl⟩
abbrev main_call5_v5 : Ref sig .tc := ⟨.hbm, 224, rfl⟩
abbrev main_call5_v6 : Ref sig .tc := ⟨.hbm, 225, rfl⟩
abbrev main_call5_v7 : Ref sig .tc := ⟨.hbm, 226, rfl⟩
abbrev main_call5_cst_1 : Ref sig .tc := ⟨.hbm, 227, rfl⟩
abbrev main_call5_v8 : Ref sig .tc := ⟨.hbm, 228, rfl⟩
abbrev main_call5_cst_2 : Ref sig .tc := ⟨.hbm, 229, rfl⟩
abbrev main_call5_v9 : Ref sig .tc := ⟨.hbm, 230, rfl⟩
abbrev main_call5_v10 : Ref sig .tc := ⟨.hbm, 231, rfl⟩
abbrev main_call5_v11 : Ref sig .tc := ⟨.hbm, 232, rfl⟩
abbrev main_call5_v12 : Ref sig .tc := ⟨.hbm, 233, rfl⟩
abbrev main_call5_cst_3 : Ref sig .tc := ⟨.hbm, 234, rfl⟩
abbrev main_call5_v13 : Ref sig .tc := ⟨.hbm, 235, rfl⟩
abbrev main_call5_cst_4 : Ref sig .tc := ⟨.hbm, 236, rfl⟩
abbrev main_call5_call0_v0 : Ref sig .tc := ⟨.hbm, 237, rfl⟩
abbrev main_call5_call0_v1 : Ref sig .tc := ⟨.hbm, 238, rfl⟩
abbrev main_v101 : Ref sig .tc := ⟨.hbm, 239, rfl⟩
abbrev main_v102 : Ref sig .tc := ⟨.hbm, 240, rfl⟩
abbrev main_v103 : Ref sig .tc := ⟨.hbm, 241, rfl⟩
abbrev main_cst_20 : Ref sig .tc := ⟨.hbm, 242, rfl⟩
abbrev main_v104 : Ref sig .tc := ⟨.hbm, 243, rfl⟩
abbrev main_v105 : Ref sig .tc := ⟨.hbm, 244, rfl⟩
abbrev main_v106 : Ref sig .tc := ⟨.hbm, 245, rfl⟩
abbrev main_v107 : Ref sig .tc := ⟨.hbm, 246, rfl⟩
abbrev main_v108 : Ref sig .tc := ⟨.hbm, 247, rfl⟩
abbrev main_v109 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_v116 : Ref sig .tc := ⟨.hbm, 255, rfl⟩
abbrev main_v117 : Ref sig .tc := ⟨.hbm, 256, rfl⟩
abbrev main_v118 : Ref sig .tc := ⟨.hbm, 257, rfl⟩
abbrev main_v119 : Ref sig .tc := ⟨.hbm, 258, rfl⟩
abbrev main_v120 : Ref sig .tc := ⟨.hbm, 259, rfl⟩
abbrev main_v121 : Ref sig .tc := ⟨.hbm, 260, rfl⟩
abbrev main_call6_cst : Ref sig .tc := ⟨.hbm, 261, rfl⟩
abbrev main_call6_v0 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_v128 : Ref sig .tc := ⟨.hbm, 269, rfl⟩
abbrev main_v129 : Ref sig .tc := ⟨.hbm, 270, rfl⟩
abbrev main_v130 : Ref sig .tc := ⟨.hbm, 271, rfl⟩
abbrev main_v131 : Ref sig .tc := ⟨.hbm, 272, rfl⟩
abbrev main_v132 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_call7_cst : Ref sig .tc := ⟨.hbm, 277, rfl⟩
abbrev main_call7_v0 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_cst_21 : Ref sig .tc := ⟨.hbm, 287, rfl⟩
abbrev main_v144 : Ref sig .tc := ⟨.hbm, 288, rfl⟩
abbrev main_v145 : Ref sig .tc := ⟨.hbm, 289, rfl⟩
abbrev main_cst_22 : Ref sig .tc := ⟨.hbm, 290, rfl⟩
abbrev main_v146 : Ref sig .tc := ⟨.hbm, 291, rfl⟩
abbrev main_v147 : Ref sig .tc := ⟨.hbm, 292, rfl⟩
abbrev main_c_23 : Ref sig .tc := ⟨.hbm, 293, rfl⟩
abbrev main_call8_cst : Ref sig .tc := ⟨.hbm, 294, rfl⟩
abbrev main_call8_v0 : Ref sig .tc := ⟨.hbm, 295, rfl⟩
abbrev main_call8_v1 : Ref sig .tc := ⟨.hbm, 296, rfl⟩
abbrev main_call8_cst_0 : Ref sig .tc := ⟨.hbm, 297, rfl⟩
abbrev main_call8_v2 : Ref sig .tc := ⟨.hbm, 298, rfl⟩
abbrev main_call8_v3 : Ref sig .tc := ⟨.hbm, 299, rfl⟩
abbrev main_call8_v4 : Ref sig .tc := ⟨.hbm, 300, rfl⟩
abbrev main_call8_v5 : Ref sig .tc := ⟨.hbm, 301, rfl⟩
abbrev main_call8_v6 : Ref sig .tc := ⟨.hbm, 302, rfl⟩
abbrev main_call8_v7 : Ref sig .tc := ⟨.hbm, 303, rfl⟩
abbrev main_call8_cst_1 : Ref sig .tc := ⟨.hbm, 304, rfl⟩
abbrev main_call8_v8 : Ref sig .tc := ⟨.hbm, 305, rfl⟩
abbrev main_call8_cst_2 : Ref sig .tc := ⟨.hbm, 306, rfl⟩
abbrev main_call8_v9 : Ref sig .tc := ⟨.hbm, 307, rfl⟩
abbrev main_call8_v10 : Ref sig .tc := ⟨.hbm, 308, rfl⟩
abbrev main_call8_v11 : Ref sig .tc := ⟨.hbm, 309, rfl⟩
abbrev main_call8_v12 : Ref sig .tc := ⟨.hbm, 310, rfl⟩
abbrev main_call8_cst_3 : Ref sig .tc := ⟨.hbm, 311, rfl⟩
abbrev main_call8_v13 : Ref sig .tc := ⟨.hbm, 312, rfl⟩
abbrev main_call8_cst_4 : Ref sig .tc := ⟨.hbm, 313, rfl⟩
abbrev main_call8_call0_v0 : Ref sig .tc := ⟨.hbm, 314, rfl⟩
abbrev main_call8_call0_v1 : Ref sig .tc := ⟨.hbm, 315, rfl⟩
abbrev main_v148 : Ref sig .tc := ⟨.hbm, 316, rfl⟩
abbrev main_v149 : Ref sig .tc := ⟨.hbm, 317, rfl⟩
abbrev main_v150 : Ref sig .tc := ⟨.hbm, 318, rfl⟩
abbrev main_cst_24 : Ref sig .tc := ⟨.hbm, 319, rfl⟩
abbrev main_v151 : Ref sig .tc := ⟨.hbm, 320, rfl⟩
abbrev main_v152 : Ref sig .tc := ⟨.hbm, 321, rfl⟩
abbrev main_v153 : Ref sig .tc := ⟨.hbm, 322, rfl⟩
abbrev main_v154 : Ref sig .tc := ⟨.hbm, 323, rfl⟩
abbrev main_v155 : Ref sig .tc := ⟨.hbm, 324, rfl⟩
abbrev main_v156 : Ref sig .tc := ⟨.hbm, 325, rfl⟩
abbrev main_v157 : Ref sig .tc := ⟨.hbm, 326, rfl⟩
abbrev main_v158 : Ref sig .tc := ⟨.hbm, 327, rfl⟩
abbrev main_v159 : Ref sig .tc := ⟨.hbm, 328, rfl⟩
abbrev main_v160 : Ref sig .tc := ⟨.hbm, 329, rfl⟩
abbrev main_v161 : Ref sig .tc := ⟨.hbm, 330, rfl⟩
abbrev main_v162 : Ref sig .tc := ⟨.hbm, 331, rfl⟩
abbrev main_v163 : Ref sig .tc := ⟨.hbm, 332, rfl⟩
abbrev main_v164 : Ref sig .tc := ⟨.hbm, 333, rfl⟩
abbrev main_v165 : Ref sig .tc := ⟨.hbm, 334, rfl⟩
abbrev main_call9_cst : Ref sig .tc := ⟨.hbm, 335, rfl⟩
abbrev main_call9_v0 : Ref sig .tc := ⟨.hbm, 336, rfl⟩
abbrev main_v166 : Ref sig .tc := ⟨.hbm, 337, rfl⟩
abbrev main_v167 : Ref sig .tc := ⟨.hbm, 338, rfl⟩
abbrev main_v168 : Ref sig .tc := ⟨.hbm, 339, rfl⟩
abbrev main_v169 : Ref sig .tc := ⟨.hbm, 340, rfl⟩
abbrev main_v170 : Ref sig .tc := ⟨.hbm, 341, rfl⟩
abbrev main_v171 : Ref sig .tc := ⟨.hbm, 342, rfl⟩
abbrev main_v172 : Ref sig .tc := ⟨.hbm, 343, rfl⟩
abbrev main_v173 : Ref sig .tc := ⟨.hbm, 344, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S9x128_S1x128_1_0 : S9x128.Slices ![1, 0] S1x128
  shapeCasts_S1x128_S128 : S1x128.ShapeCasts S128
  bcast_S128_S1x128_1 : S128.BroadcastsInDim S1x128 (![1] : Fin 1 → Fin S1x128.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  reducesTo_S16384x128_S16384_d1 : S16384x128.ReducesTo [1] S16384
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S1x128_S16384x128_0_1 : S1x128.BroadcastsInDim S16384x128 (![0, 1] : Fin 2 → Fin S16384x128.rank)
  concatenates_S8192x128_S8192x128_S8192x256_d1 : Shape.Concatenates [S8192x128, S8192x128] S8192x256 1
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  concatenates_S16384x128_S16384x128_S16384x256_d1 : Shape.Concatenates [S16384x128, S16384x128] S16384x256 1
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  concatenates_S8192x128_S16384x128_S24576x128_d0 : Shape.Concatenates [S8192x128, S16384x128] S24576x128 0
  reducesTo_S24576x128_S128_d0 : S24576x128.ReducesTo [0] S128
  bcast_S_S1x128 : S_.BroadcastsInDim S1x128 (![] : Fin 0 → Fin S1x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reducesTo_S1x128_S1_d1 : S1x128.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x128_0_1 : S1x1.BroadcastsInDim S1x128 (![0, 1] : Fin 2 → Fin S1x128.rank)
  slices_S2x128_S1x128_0_0 : S2x128.Slices ![0, 0] S1x128
  concatenates_S1x128_S1x128_S1x256_d1 : Shape.Concatenates [S1x128, S1x128] S1x256 1
  bcast_S_S1x256 : S_.BroadcastsInDim S1x256 (![] : Fin 0 → Fin S1x256.rank)
  slices_S2x128_S1x128_1_0 : S2x128.Slices ![1, 0] S1x128
  gather_S9x128_S16384x1_S16384x128_1_0_n_n_0_1_1128_wf : GatherDims.WF S9x128 S16384x1 S16384x128 [1] [0] [] [0] [] 1 ![1, 128]
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S16384x256_S256x256_S16384x256_1_0_0_1_n_n_wf : DotDims.WF S16384x256 S256x256 S16384x256 [1] [0] [0] [1] [] []
  dot_S16384x256_S256x128_S16384x128_1_0_0_1_n_n_wf : DotDims.WF S16384x256 S256x128 S16384x128 [1] [0] [0] [1] [] []
  dot_S1024x2048_S2048x128_S1024x128_1_0_0_1_n_n_wf : DotDims.WF S1024x2048 S2048x128 S1024x128 [1] [0] [0] [1] [] []
  dot_S1x256_S256x256_S1x256_1_0_0_1_n_n_wf : DotDims.WF S1x256 S256x256 S1x256 [1] [0] [0] [1] [] []
  dot_S1x256_S256x128_S1x128_1_0_0_1_n_n_wf : DotDims.WF S1x256 S256x128 S1x128 [1] [0] [0] [1] [] []
  dot_S8192x128_S128x256_S8192x256_1_0_0_1_n_n_wf : DotDims.WF S8192x128 S128x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x16384.size a
  hwx0_0 : ∀ i : grid0.Coords, EltTy.bits .f32 = 32 ∨ (Rect.block (s := S8192x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)

variable [Facts₀]

def gather_S9x128_S16384x1_S16384x128_1_0_n_n_0_1_1128 : GatherDims S9x128 S16384x1 S16384x128 where
  offsetDims := [1]
  collapsedSliceDims := [0]
  operandBatchingDims := []
  startIndicesBatchingDims := []
  startIndexMap := [0]
  indexVectorDim := 1
  sliceSizes := ![1, 128]
  wf := gather_S9x128_S16384x1_S16384x128_1_0_n_n_0_1_1128_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v74) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S16384x128 : Shape := ⟨2, ![16384, 128]⟩
abbrev S8192x16384 : Shape := ⟨2, ![8192, 16384]⟩
abbrev S8192 : Shape := ⟨1, ![8192]⟩
abbrev S16384 : Shape := ⟨1, ![16384]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S1x128 : Shape := ⟨2, ![1, 128]⟩
abbrev S9x128 : Shape := ⟨2, ![9, 128]⟩
abbrev S2x128 : Shape := ⟨2, ![2, 128]⟩
abbrev S_ : Shape := ⟨0, ![]⟩
abbrev S16384x1 : Shape := ⟨2, ![16384, 1]⟩
abbrev S8192x1 : Shape := ⟨2, ![8192, 1]⟩
abbrev S8192x256 : Shape := ⟨2, ![8192, 256]⟩
abbrev S1x256 : Shape := ⟨2, ![1, 256]⟩
abbrev S16384x256 : Shape := ⟨2, ![16384, 256]⟩
abbrev S24576x128 : Shape := ⟨2, ![24576, 128]⟩
abbrev S1 : Shape := ⟨1, ![1]⟩
abbrev S1x1 : Shape := ⟨2, ![1, 1]⟩

abbrev nBuf : Space → Nat
  | .hbm => 345
  | .vmem => 0
  | .smem => 0
  | _ => 0

abbrev hbmTy0_0 (i : Nat) : BufTy := match i % 128 with
  | 0 => ⟨S8192x128, .f32⟩
  | 1 => ⟨S16384x128, .f32⟩
  | 2 => ⟨S8192x16384, .f32⟩
  | 3 => ⟨S8192, .f32⟩
  | 4 => ⟨S16384, .i32⟩
  | 5 => ⟨S256x256, .f32⟩
  | 6 => ⟨S256, .f32⟩
  | 7 => ⟨S256x128, .f32⟩
  | 8 => ⟨S128, .f32⟩
  | 9 => ⟨S256x256, .f32⟩
  | 10 => ⟨S256, .f32⟩
  | 11 => ⟨S256x128, .f32⟩
  | 12 => ⟨S128, .f32⟩
  | 13 => ⟨S128x256, .f32⟩
  | 14 => ⟨S256, .f32⟩
  | 15 => ⟨S256x128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S1x128, .f32⟩
  | 24 => ⟨S9x128, .f32⟩
  | 25 => ⟨S2x128, .f32⟩
  | 26 => ⟨S1x128, .f32⟩
  | 27 => ⟨S128, .f32⟩
  | 28 => ⟨S1x128, .f32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S16384x128, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S_, .i32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S8192x128, .f32⟩
  | 52 => ⟨S8192x128, .f32⟩
  | 53 => ⟨S8192x128, .f32⟩
  | 54 => ⟨S_, .f32⟩
  | 55 => ⟨S_, .f32⟩
  | 56 => ⟨S_, .f32⟩
  | 57 => ⟨S_, .f32⟩
  | 58 => ⟨S8192, .f32⟩
  | 59 => ⟨S8192x1, .f32⟩
  | 60 => ⟨S8192x1, .f32⟩
  | 61 => ⟨S8192x1, .f32⟩
  | 62 => ⟨S_, .f32⟩
  | 63 => ⟨S_, .i1⟩
  | 64 => ⟨S_, .f32⟩
  | 65 => ⟨S_, .f32⟩
  | 66 => ⟨S8192x1, .f32⟩
  | 67 => ⟨S8192x1, .f32⟩
  | 68 => ⟨S8192x128, .f32⟩
  | 69 => ⟨S8192x128, .f32⟩
  | 70 => ⟨S_, .f32⟩
  | 71 => ⟨S8192x1, .f32⟩
  | 72 => ⟨S8192x1, .f32⟩
  | 73 => ⟨S8192x1, .f32⟩
  | 74 => ⟨S8192x128, .f32⟩
  | 75 => ⟨S8192x128, .f32⟩
  | 76 => ⟨S1x128, .f32⟩
  | 77 => ⟨S8192x128, .f32⟩
  | 78 => ⟨S8192x128, .f32⟩
  | 79 => ⟨S1x128, .f32⟩
  | 80 => ⟨S8192x128, .f32⟩
  | 81 => ⟨S8192x128, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S_, .i32⟩
  | 89 => ⟨S_, .f32⟩
  | 90 => ⟨S16384, .f32⟩
  | 91 => ⟨S16384x1, .f32⟩
  | 92 => ⟨S_, .f32⟩
  | 93 => ⟨S16384x1, .f32⟩
  | 94 => ⟨S16384x1, .f32⟩
  | 95 => ⟨S16384x128, .f32⟩
  | 96 => ⟨S16384x128, .f32⟩
  | 97 => ⟨S16384x128, .f32⟩
  | 98 => ⟨S_, .f32⟩
  | 99 => ⟨S_, .f32⟩
  | 100 => ⟨S_, .f32⟩
  | 101 => ⟨S_, .f32⟩
  | 102 => ⟨S16384, .f32⟩
  | 103 => ⟨S16384x1, .f32⟩
  | 104 => ⟨S16384x1, .f32⟩
  | 105 => ⟨S16384x1, .f32⟩
  | 106 => ⟨S_, .f32⟩
  | 107 => ⟨S_, .i1⟩
  | 108 => ⟨S_, .f32⟩
  | 109 => ⟨S_, .f32⟩
  | 110 => ⟨S16384x1, .f32⟩
  | 111 => ⟨S16384x1, .f32⟩
  | 112 => ⟨S16384x128, .f32⟩
  | 113 => ⟨S16384x128, .f32⟩
  | 114 => ⟨S_, .f32⟩
  | 115 => ⟨S16384x1, .f32⟩
  | 116 => ⟨S16384x1, .f32⟩
  | 117 => ⟨S16384x1, .f32⟩
  | 118 => ⟨S16384x128, .f32⟩
  | 119 => ⟨S16384x128, .f32⟩
  | 120 => ⟨S1x128, .f32⟩
  | 121 => ⟨S16384x128, .f32⟩
  | 122 => ⟨S16384x128, .f32⟩
  | 123 => ⟨S1x128, .f32⟩
  | 124 => ⟨S16384x128, .f32⟩
  | 125 => ⟨S16384x128, .f32⟩
  | 126 => ⟨S8192x128, .f32⟩
  | 127 => ⟨S8192x256, .f32⟩
  | _ => ⟨S8192x128, .f32⟩

abbrev hbmTy0_1 (i : Nat) : BufTy := match i % 128 with
  | 0 => ⟨S8192x256, .f32⟩
  | 1 => ⟨S1x256, .f32⟩
  | 2 => ⟨S8192x256, .f32⟩
  | 3 => ⟨S8192x256, .f32⟩
  | 4 => ⟨S_, .f32⟩
  | 5 => ⟨S8192x256, .f32⟩
  | 6 => ⟨S8192x256, .f32⟩
  | 7 => ⟨S8192x128, .f32⟩
  | 8 => ⟨S1x128, .f32⟩
  | 9 => ⟨S8192x128, .f32⟩
  | 10 => ⟨S8192x128, .f32⟩
  | 11 => ⟨S8192x128, .f32⟩
  | 12 => ⟨S16384x256, .f32⟩
  | 13 => ⟨S16384x256, .f32⟩
  | 14 => ⟨S1x256, .f32⟩
  | 15 => ⟨S16384x256, .f32⟩
  | 16 => ⟨S16384x256, .f32⟩
  | 17 => ⟨S_, .f32⟩
  | 18 => ⟨S16384x256, .f32⟩
  | 19 => ⟨S16384x256, .f32⟩
  | 20 => ⟨S16384x128, .f32⟩
  | 21 => ⟨S1x128, .f32⟩
  | 22 => ⟨S16384x128, .f32⟩
  | 23 => ⟨S16384x128, .f32⟩
  | 24 => ⟨S16384x128, .f32⟩
  | 25 => ⟨S24576x128, .f32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S8192x128, .f32⟩
  | 33 => ⟨S8192x128, .f32⟩
  | 34 => ⟨S8192x1, .f32⟩
  | 35 => ⟨S_, .f32⟩
  | 36 => ⟨S8192x1, .f32⟩
  | 37 => ⟨S8192x1, .f32⟩
  | 38 => ⟨S8192x128, .f32⟩
  | 39 => ⟨S8192x128, .f32⟩
  | 40 => ⟨S_, .f32⟩
  | 41 => ⟨S1, .f32⟩
  | 42 => ⟨S1x1, .f32⟩
  | 43 => ⟨S_, .f32⟩
  | 44 => ⟨S1x1, .f32⟩
  | 45 => ⟨S1x1, .f32⟩
  | 46 => ⟨S_, .i32⟩
  | 47 => ⟨S_, .f32⟩
  | 48 => ⟨S1, .f32⟩
  | 49 => ⟨S1x1, .f32⟩
  | 50 => ⟨S_, .f32⟩
  | 51 => ⟨S1x1, .f32⟩
  | 52 => ⟨S1x1, .f32⟩
  | 53 => ⟨S1x128, .f32⟩
  | 54 => ⟨S1x128, .f32⟩
  | 55 => ⟨S1x128, .f32⟩
  | 56 => ⟨S_, .f32⟩
  | 57 => ⟨S_, .f32⟩
  | 58 => ⟨S_, .f32⟩
  | 59 => ⟨S_, .f32⟩
  | 60 => ⟨S1, .f32⟩
  | 61 => ⟨S1x1, .f32⟩
  | 62 => ⟨S1x1, .f32⟩
  | 63 => ⟨S1x1, .f32⟩
  | 64 => ⟨S_, .f32⟩
  | 65 => ⟨S_, .i1⟩
  | 66 => ⟨S_, .f32⟩
  | 67 => ⟨S_, .f32⟩
  | 68 => ⟨S1x1, .f32⟩
  | 69 => ⟨S1x1, .f32⟩
  | 70 => ⟨S1x128, .f32⟩
  | 71 => ⟨S1x128, .f32⟩
  | 72 => ⟨S_, .f32⟩
  | 73 => ⟨S1x1, .f32⟩
  | 74 => ⟨S1x1, .f32⟩
  | 75 => ⟨S1x1, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S_, .i32⟩
  | 89 => ⟨S_, .f32⟩
  | 90 => ⟨S8192, .f32⟩
  | 91 => ⟨S8192x1, .f32⟩
  | 92 => ⟨S_, .f32⟩
  | 93 => ⟨S8192x1, .f32⟩
  | 94 => ⟨S8192x1, .f32⟩
  | 95 => ⟨S8192x128, .f32⟩
  | 96 => ⟨S8192x128, .f32⟩
  | 97 => ⟨S8192x128, .f32⟩
  | 98 => ⟨S_, .f32⟩
  | 99 => ⟨S_, .f32⟩
  | 100 => ⟨S_, .f32⟩
  | 101 => ⟨S_, .f32⟩
  | 102 => ⟨S8192, .f32⟩
  | 103 => ⟨S8192x1, .f32⟩
  | 104 => ⟨S8192x1, .f32⟩
  | 105 => ⟨S8192x1, .f32⟩
  | 106 => ⟨S_, .f32⟩
  | 107 => ⟨S_, .i1⟩
  | 108 => ⟨S_, .f32⟩
  | 109 => ⟨S_, .f32⟩
  | 110 => ⟨S8192x1, .f32⟩
  | 111 => ⟨S8192x1, .f32⟩
  | 112 => ⟨S8192x128, .f32⟩
  | 113 => ⟨S8192x128, .f32⟩
  | 114 => ⟨S_, .f32⟩
  | 115 => ⟨S8192x1, .f32⟩
  | 116 => ⟨S8192x1, .f32⟩
  | 117 => ⟨S8192x1, .f32⟩
  | 118 => ⟨S8192x128, .f32⟩
  | 119 => ⟨S8192x128, .f32⟩
  | 120 => ⟨S1x128, .f32⟩
  | 121 => ⟨S8192x128, .f32⟩
  | 122 => ⟨S8192x128, .f32⟩
  | 123 => ⟨S1x128, .f32⟩
  | 124 => ⟨S8192x128, .f32⟩
  | 125 => ⟨S8192x128, .f32⟩
  | 126 => ⟨S1x128, .f32⟩
  | 127 => ⟨S128, .f32⟩
  | _ => ⟨S8192x128, .f32⟩

abbrev hbmTy0_2 (i : Nat) : BufTy := match i % 128 with
  | 0 => ⟨S1x128, .f32⟩
  | 1 => ⟨S1x256, .f32⟩
  | 2 => ⟨S1x256, .f32⟩
  | 3 => ⟨S1x256, .f32⟩
  | 4 => ⟨S1x256, .f32⟩
  | 5 => ⟨S_, .f32⟩
  | 6 => ⟨S1x256, .f32⟩
  | 7 => ⟨S1x256, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S128, .f32⟩
  | 14 => ⟨S1x128, .f32⟩
  | 15 => ⟨S8192x128, .f32⟩
  | 16 => ⟨S8192x256, .f32⟩
  | 17 => ⟨S8192x256, .f32⟩
  | 18 => ⟨S1x256, .f32⟩
  | 19 => ⟨S8192x256, .f32⟩
  | 20 => ⟨S8192x256, .f32⟩
  | 21 => ⟨S_, .f32⟩
  | 22 => ⟨S8192x256, .f32⟩
  | 23 => ⟨S8192x256, .f32⟩
  | 24 => ⟨S8192x128, .f32⟩
  | 25 => ⟨S1x128, .f32⟩
  | 26 => ⟨S8192x128, .f32⟩
  | 27 => ⟨S8192x128, .f32⟩
  | 28 => ⟨S8192x128, .f32⟩
  | 29 => ⟨S8192x128, .f32⟩
  | 30 => ⟨S8192x128, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S_, .i32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S8192x128, .f32⟩
  | 45 => ⟨S8192x128, .f32⟩
  | 46 => ⟨S8192x128, .f32⟩
  | 47 => ⟨S_, .f32⟩
  | 48 => ⟨S_, .f32⟩
  | 49 => ⟨S_, .f32⟩
  | 50 => ⟨S_, .f32⟩
  | 51 => ⟨S8192, .f32⟩
  | 52 => ⟨S8192x1, .f32⟩
  | 53 => ⟨S8192x1, .f32⟩
  | 54 => ⟨S8192x1, .f32⟩
  | 55 => ⟨S_, .f32⟩
  | 56 => ⟨S_, .i1⟩
  | 57 => ⟨S_, .f32⟩
  | 58 => ⟨S_, .f32⟩
  | 59 => ⟨S8192x1, .f32⟩
  | 60 => ⟨S8192x1, .f32⟩
  | 61 => ⟨S8192x128, .f32⟩
  | 62 => ⟨S8192x128, .f32⟩
  | 63 => ⟨S_, .f32⟩
  | 64 => ⟨S8192x1, .f32⟩
  | 65 => ⟨S8192x1, .f32⟩
  | 66 => ⟨S8192x1, .f32⟩
  | 67 => ⟨S8192x128, .f32⟩
  | 68 => ⟨S8192x128, .f32⟩
  | 69 => ⟨S1x128, .f32⟩
  | 70 => ⟨S8192x128, .f32⟩
  | 71 => ⟨S8192x128, .f32⟩
  | 72 => ⟨S1x128, .f32⟩
  | 73 => ⟨S8192x128, .f32⟩
  | 74 => ⟨S8192x128, .f32⟩
  | 75 => ⟨S8192x256, .f32⟩
  | 76 => ⟨S1x256, .f32⟩
  | 77 => ⟨S8192x256, .f32⟩
  | 78 => ⟨S8192x256, .f32⟩
  | 79 => ⟨S_, .f32⟩
  | 80 => ⟨S8192x256, .f32⟩
  | 81 => ⟨S8192x256, .f32⟩
  | 82 => ⟨S8192x128, .f32⟩
  | 83 => ⟨S1x128, .f32⟩
  | 84 => ⟨S8192x128, .f32⟩
  | 85 => ⟨S8192x128, .f32⟩
  | 86 => ⟨S8192x128, .f32⟩
  | 87 => ⟨S8192x128, .f32⟩
  | 88 => ⟨S8192x128, .f32⟩
  | _ => ⟨S8192x128, .f32⟩

abbrev hbmTy (i : Nat) : BufTy := match i / 128 with
  | 0 => hbmTy0_0 i
  | 1 => hbmTy0_1 i
  | 2 => hbmTy0_2 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_cst_0 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_c : Ref sig .tc := ⟨.hbm, 29, rfl⟩
abbrev main_v3 : Ref sig .tc := ⟨.hbm, 30, rfl⟩
abbrev main_v4 : Ref sig .tc := ⟨.hbm, 31, rfl⟩
abbrev main_c_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_cst_3 : Ref sig .tc := ⟨.hbm, 41, rfl⟩
abbrev main_v12 : Ref sig .tc := ⟨.hbm, 42, rfl⟩
abbrev main_v13 : Ref sig .tc := ⟨.hbm, 43, rfl⟩
abbrev main_c_4 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_cst_3 : Ref sig .tc := ⟨.hbm, 62, rfl⟩
abbrev main_call0_v13 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_cst_5 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_cst_6 : Ref sig .tc := ⟨.hbm, 82, rfl⟩
abbrev main_v28 : Ref sig .tc := ⟨.hbm, 83, rfl⟩
abbrev main_v29 : Ref sig .tc := ⟨.hbm, 84, rfl⟩
abbrev main_cst_7 : Ref sig .tc := ⟨.hbm, 85, rfl⟩
abbrev main_v30 : Ref sig .tc := ⟨.hbm, 86, rfl⟩
abbrev main_v31 : Ref sig .tc := ⟨.hbm, 87, rfl⟩
abbrev main_c_8 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_cst_1 : Ref sig .tc := ⟨.hbm, 99, rfl⟩
abbrev main_call1_v8 : Ref sig .tc := ⟨.hbm, 100, rfl⟩
abbrev main_call1_cst_2 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_v12 : Ref sig .tc := ⟨.hbm, 105, rfl⟩
abbrev main_call1_cst_3 : Ref sig .tc := ⟨.hbm, 106, rfl⟩
abbrev main_call1_v13 : Ref sig .tc := ⟨.hbm, 107, rfl⟩
abbrev main_call1_cst_4 : Ref sig .tc := ⟨.hbm, 108, rfl⟩
abbrev main_call1_call0_v0 : Ref sig .tc := ⟨.hbm, 109, rfl⟩
abbrev main_call1_call0_v1 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_cst_9 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_call2_cst : Ref sig .tc := ⟨.hbm, 132, rfl⟩
abbrev main_call2_v0 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_call3_cst : Ref sig .tc := ⟨.hbm, 145, rfl⟩
abbrev main_call3_v0 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_cst_10 : Ref sig .tc := ⟨.hbm, 154, rfl⟩
abbrev main_v70 : Ref sig .tc := ⟨.hbm, 155, rfl⟩
abbrev main_v71 : Ref sig .tc := ⟨.hbm, 156, rfl⟩
abbrev main_cst_11 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_cst_12 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_cst_13 : Ref sig .tc := ⟨.hbm, 168, rfl⟩
abbrev main_v81 : Ref sig .tc := ⟨.hbm, 169, rfl⟩
abbrev main_v82 : Ref sig .tc := ⟨.hbm, 170, rfl⟩
abbrev main_cst_14 : Ref sig .tc := ⟨.hbm, 171, rfl⟩
abbrev main_v83 : Ref sig .tc := ⟨.hbm, 172, rfl⟩
abbrev main_v84 : Ref sig .tc := ⟨.hbm, 173, rfl⟩
abbrev main_c_15 : Ref sig .tc := ⟨.hbm, 174, rfl⟩
abbrev main_call4_cst : Ref sig .tc := ⟨.hbm, 175, rfl⟩
abbrev main_call4_v0 : Ref sig .tc := ⟨.hbm, 176, rfl⟩
abbrev main_call4_v1 : Ref sig .tc := ⟨.hbm, 177, rfl⟩
abbrev main_call4_cst_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_v7 : Ref sig .tc := ⟨.hbm, 184, rfl⟩
abbrev main_call4_cst_1 : Ref sig .tc := ⟨.hbm, 185, rfl⟩
abbrev main_call4_v8 : Ref sig .tc := ⟨.hbm, 186, rfl⟩
abbrev main_call4_cst_2 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_v12 : Ref sig .tc := ⟨.hbm, 191, rfl⟩
abbrev main_call4_cst_3 : Ref sig .tc := ⟨.hbm, 192, rfl⟩
abbrev main_call4_v13 : Ref sig .tc := ⟨.hbm, 193, rfl⟩
abbrev main_call4_cst_4 : Ref sig .tc := ⟨.hbm, 194, rfl⟩
abbrev main_call4_call0_v0 : Ref sig .tc := ⟨.hbm, 195, rfl⟩
abbrev main_call4_call0_v1 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_cst_16 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_v96 : Ref sig .tc := ⟨.hbm, 209, rfl⟩
abbrev main_cst_17 : Ref sig .tc := ⟨.hbm, 210, rfl⟩
abbrev main_v97 : Ref sig .tc := ⟨.hbm, 211, rfl⟩
abbrev main_v98 : Ref sig .tc := ⟨.hbm, 212, rfl⟩
abbrev main_cst_18 : Ref sig .tc := ⟨.hbm, 213, rfl⟩
abbrev main_v99 : Ref sig .tc := ⟨.hbm, 214, rfl⟩
abbrev main_v100 : Ref sig .tc := ⟨.hbm, 215, rfl⟩
abbrev main_c_19 : Ref sig .tc := ⟨.hbm, 216, rfl⟩
abbrev main_call5_cst : Ref sig .tc := ⟨.hbm, 217, rfl⟩
abbrev main_call5_v0 : Ref sig .tc := ⟨.hbm, 218, rfl⟩
abbrev main_call5_v1 : Ref sig .tc := ⟨.hbm, 219, rfl⟩
abbrev main_call5_cst_0 : Ref sig .tc := ⟨.hbm, 220, rfl⟩
abbrev main_call5_v2 : Ref sig .tc := ⟨.hbm, 221, rfl⟩
abbrev main_call5_v3 : Ref sig .tc := ⟨.hbm, 222, rfl⟩
abbrev main_call5_v4 : Ref sig .tc := ⟨.hbm, 223, rfl⟩
abbrev main_call5_v5 : Ref sig .tc := ⟨.hbm, 224, rfl⟩
abbrev main_call5_v6 : Ref sig .tc := ⟨.hbm, 225, rfl⟩
abbrev main_call5_v7 : Ref sig .tc := ⟨.hbm, 226, rfl⟩
abbrev main_call5_cst_1 : Ref sig .tc := ⟨.hbm, 227, rfl⟩
abbrev main_call5_v8 : Ref sig .tc := ⟨.hbm, 228, rfl⟩
abbrev main_call5_cst_2 : Ref sig .tc := ⟨.hbm, 229, rfl⟩
abbrev main_call5_v9 : Ref sig .tc := ⟨.hbm, 230, rfl⟩
abbrev main_call5_v10 : Ref sig .tc := ⟨.hbm, 231, rfl⟩
abbrev main_call5_v11 : Ref sig .tc := ⟨.hbm, 232, rfl⟩
abbrev main_call5_v12 : Ref sig .tc := ⟨.hbm, 233, rfl⟩
abbrev main_call5_cst_3 : Ref sig .tc := ⟨.hbm, 234, rfl⟩
abbrev main_call5_v13 : Ref sig .tc := ⟨.hbm, 235, rfl⟩
abbrev main_call5_cst_4 : Ref sig .tc := ⟨.hbm, 236, rfl⟩
abbrev main_call5_call0_v0 : Ref sig .tc := ⟨.hbm, 237, rfl⟩
abbrev main_call5_call0_v1 : Ref sig .tc := ⟨.hbm, 238, rfl⟩
abbrev main_v101 : Ref sig .tc := ⟨.hbm, 239, rfl⟩
abbrev main_v102 : Ref sig .tc := ⟨.hbm, 240, rfl⟩
abbrev main_v103 : Ref sig .tc := ⟨.hbm, 241, rfl⟩
abbrev main_cst_20 : Ref sig .tc := ⟨.hbm, 242, rfl⟩
abbrev main_v104 : Ref sig .tc := ⟨.hbm, 243, rfl⟩
abbrev main_v105 : Ref sig .tc := ⟨.hbm, 244, rfl⟩
abbrev main_v106 : Ref sig .tc := ⟨.hbm, 245, rfl⟩
abbrev main_v107 : Ref sig .tc := ⟨.hbm, 246, rfl⟩
abbrev main_v108 : Ref sig .tc := ⟨.hbm, 247, rfl⟩
abbrev main_v109 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_v116 : Ref sig .tc := ⟨.hbm, 255, rfl⟩
abbrev main_v117 : Ref sig .tc := ⟨.hbm, 256, rfl⟩
abbrev main_v118 : Ref sig .tc := ⟨.hbm, 257, rfl⟩
abbrev main_v119 : Ref sig .tc := ⟨.hbm, 258, rfl⟩
abbrev main_v120 : Ref sig .tc := ⟨.hbm, 259, rfl⟩
abbrev main_v121 : Ref sig .tc := ⟨.hbm, 260, rfl⟩
abbrev main_call6_cst : Ref sig .tc := ⟨.hbm, 261, rfl⟩
abbrev main_call6_v0 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_v128 : Ref sig .tc := ⟨.hbm, 269, rfl⟩
abbrev main_v129 : Ref sig .tc := ⟨.hbm, 270, rfl⟩
abbrev main_v130 : Ref sig .tc := ⟨.hbm, 271, rfl⟩
abbrev main_v131 : Ref sig .tc := ⟨.hbm, 272, rfl⟩
abbrev main_v132 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_call7_cst : Ref sig .tc := ⟨.hbm, 277, rfl⟩
abbrev main_call7_v0 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_cst_21 : Ref sig .tc := ⟨.hbm, 287, rfl⟩
abbrev main_v144 : Ref sig .tc := ⟨.hbm, 288, rfl⟩
abbrev main_v145 : Ref sig .tc := ⟨.hbm, 289, rfl⟩
abbrev main_cst_22 : Ref sig .tc := ⟨.hbm, 290, rfl⟩
abbrev main_v146 : Ref sig .tc := ⟨.hbm, 291, rfl⟩
abbrev main_v147 : Ref sig .tc := ⟨.hbm, 292, rfl⟩
abbrev main_c_23 : Ref sig .tc := ⟨.hbm, 293, rfl⟩
abbrev main_call8_cst : Ref sig .tc := ⟨.hbm, 294, rfl⟩
abbrev main_call8_v0 : Ref sig .tc := ⟨.hbm, 295, rfl⟩
abbrev main_call8_v1 : Ref sig .tc := ⟨.hbm, 296, rfl⟩
abbrev main_call8_cst_0 : Ref sig .tc := ⟨.hbm, 297, rfl⟩
abbrev main_call8_v2 : Ref sig .tc := ⟨.hbm, 298, rfl⟩
abbrev main_call8_v3 : Ref sig .tc := ⟨.hbm, 299, rfl⟩
abbrev main_call8_v4 : Ref sig .tc := ⟨.hbm, 300, rfl⟩
abbrev main_call8_v5 : Ref sig .tc := ⟨.hbm, 301, rfl⟩
abbrev main_call8_v6 : Ref sig .tc := ⟨.hbm, 302, rfl⟩
abbrev main_call8_v7 : Ref sig .tc := ⟨.hbm, 303, rfl⟩
abbrev main_call8_cst_1 : Ref sig .tc := ⟨.hbm, 304, rfl⟩
abbrev main_call8_v8 : Ref sig .tc := ⟨.hbm, 305, rfl⟩
abbrev main_call8_cst_2 : Ref sig .tc := ⟨.hbm, 306, rfl⟩
abbrev main_call8_v9 : Ref sig .tc := ⟨.hbm, 307, rfl⟩
abbrev main_call8_v10 : Ref sig .tc := ⟨.hbm, 308, rfl⟩
abbrev main_call8_v11 : Ref sig .tc := ⟨.hbm, 309, rfl⟩
abbrev main_call8_v12 : Ref sig .tc := ⟨.hbm, 310, rfl⟩
abbrev main_call8_cst_3 : Ref sig .tc := ⟨.hbm, 311, rfl⟩
abbrev main_call8_v13 : Ref sig .tc := ⟨.hbm, 312, rfl⟩
abbrev main_call8_cst_4 : Ref sig .tc := ⟨.hbm, 313, rfl⟩
abbrev main_call8_call0_v0 : Ref sig .tc := ⟨.hbm, 314, rfl⟩
abbrev main_call8_call0_v1 : Ref sig .tc := ⟨.hbm, 315, rfl⟩
abbrev main_v148 : Ref sig .tc := ⟨.hbm, 316, rfl⟩
abbrev main_v149 : Ref sig .tc := ⟨.hbm, 317, rfl⟩
abbrev main_v150 : Ref sig .tc := ⟨.hbm, 318, rfl⟩
abbrev main_cst_24 : Ref sig .tc := ⟨.hbm, 319, rfl⟩
abbrev main_v151 : Ref sig .tc := ⟨.hbm, 320, rfl⟩
abbrev main_v152 : Ref sig .tc := ⟨.hbm, 321, rfl⟩
abbrev main_v153 : Ref sig .tc := ⟨.hbm, 322, rfl⟩
abbrev main_v154 : Ref sig .tc := ⟨.hbm, 323, rfl⟩
abbrev main_v155 : Ref sig .tc := ⟨.hbm, 324, rfl⟩
abbrev main_v156 : Ref sig .tc := ⟨.hbm, 325, rfl⟩
abbrev main_v157 : Ref sig .tc := ⟨.hbm, 326, rfl⟩
abbrev main_v158 : Ref sig .tc := ⟨.hbm, 327, rfl⟩
abbrev main_v159 : Ref sig .tc := ⟨.hbm, 328, rfl⟩
abbrev main_v160 : Ref sig .tc := ⟨.hbm, 329, rfl⟩
abbrev main_v161 : Ref sig .tc := ⟨.hbm, 330, rfl⟩
abbrev main_v162 : Ref sig .tc := ⟨.hbm, 331, rfl⟩
abbrev main_v163 : Ref sig .tc := ⟨.hbm, 332, rfl⟩
abbrev main_v164 : Ref sig .tc := ⟨.hbm, 333, rfl⟩
abbrev main_v165 : Ref sig .tc := ⟨.hbm, 334, rfl⟩
abbrev main_call9_cst : Ref sig .tc := ⟨.hbm, 335, rfl⟩
abbrev main_call9_v0 : Ref sig .tc := ⟨.hbm, 336, rfl⟩
abbrev main_v166 : Ref sig .tc := ⟨.hbm, 337, rfl⟩
abbrev main_v167 : Ref sig .tc := ⟨.hbm, 338, rfl⟩
abbrev main_v168 : Ref sig .tc := ⟨.hbm, 339, rfl⟩
abbrev main_v169 : Ref sig .tc := ⟨.hbm, 340, rfl⟩
abbrev main_v170 : Ref sig .tc := ⟨.hbm, 341, rfl⟩
abbrev main_v171 : Ref sig .tc := ⟨.hbm, 342, rfl⟩
abbrev main_v172 : Ref sig .tc := ⟨.hbm, 343, rfl⟩
abbrev main_v173 : Ref sig .tc := ⟨.hbm, 344, rfl⟩

abbrev nD : Nat := 1
abbrev τ : Topo := Topo.v7x

variable {F : FTy → Type} [FloatOps F]

class Facts₀ : Prop where
  slices_S9x128_S1x128_1_0 : S9x128.Slices ![1, 0] S1x128
  shapeCasts_S1x128_S128 : S1x128.ShapeCasts S128
  bcast_S128_S1x128_1 : S128.BroadcastsInDim S1x128 (![1] : Fin 1 → Fin S1x128.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  reducesTo_S16384x128_S16384_d1 : S16384x128.ReducesTo [1] S16384
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S1x128_S16384x128_0_1 : S1x128.BroadcastsInDim S16384x128 (![0, 1] : Fin 2 → Fin S16384x128.rank)
  concatenates_S8192x128_S8192x128_S8192x256_d1 : Shape.Concatenates [S8192x128, S8192x128] S8192x256 1
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  concatenates_S16384x128_S16384x128_S16384x256_d1 : Shape.Concatenates [S16384x128, S16384x128] S16384x256 1
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  concatenates_S8192x128_S16384x128_S24576x128_d0 : Shape.Concatenates [S8192x128, S16384x128] S24576x128 0
  reducesTo_S24576x128_S128_d0 : S24576x128.ReducesTo [0] S128
  bcast_S_S1x128 : S_.BroadcastsInDim S1x128 (![] : Fin 0 → Fin S1x128.rank)
  reducesTo_S1x128_S1_d1 : S1x128.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x128_0_1 : S1x1.BroadcastsInDim S1x128 (![0, 1] : Fin 2 → Fin S1x128.rank)
  slices_S2x128_S1x128_0_0 : S2x128.Slices ![0, 0] S1x128
  concatenates_S1x128_S1x128_S1x256_d1 : Shape.Concatenates [S1x128, S1x128] S1x256 1
  bcast_S_S1x256 : S_.BroadcastsInDim S1x256 (![] : Fin 0 → Fin S1x256.rank)
  slices_S2x128_S1x128_1_0 : S2x128.Slices ![1, 0] S1x128
  gather_S9x128_S16384x1_S16384x128_1_0_n_n_0_1_1128_wf : GatherDims.WF S9x128 S16384x1 S16384x128 [1] [0] [] [0] [] 1 ![1, 128]
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S16384x256_S256x256_S16384x256_1_0_0_1_n_n_wf : DotDims.WF S16384x256 S256x256 S16384x256 [1] [0] [0] [1] [] []
  dot_S16384x256_S256x128_S16384x128_1_0_0_1_n_n_wf : DotDims.WF S16384x256 S256x128 S16384x128 [1] [0] [0] [1] [] []
  dot_S8192x16384_S16384x128_S8192x128_1_0_0_1_n_n_wf : DotDims.WF S8192x16384 S16384x128 S8192x128 [1] [0] [0] [1] [] []
  dot_S1x256_S256x256_S1x256_1_0_0_1_n_n_wf : DotDims.WF S1x256 S256x256 S1x256 [1] [0] [0] [1] [] []
  dot_S1x256_S256x128_S1x128_1_0_0_1_n_n_wf : DotDims.WF S1x256 S256x128 S1x128 [1] [0] [0] [1] [] []
  dot_S8192x128_S128x256_S8192x256_1_0_0_1_n_n_wf : DotDims.WF S8192x128 S128x256 S8192x256 [1] [0] [0] [1] [] []

variable [Facts₀]

def gather_S9x128_S16384x1_S16384x128_1_0_n_n_0_1_1128 : GatherDims S9x128 S16384x1 S16384x128 where
  offsetDims := [1]
  collapsedSliceDims := [0]
  operandBatchingDims := []
  startIndicesBatchingDims := []
  startIndexMap := [0]
  indexVectorDim := 1
  sliceSizes := ![1, 128]
  wf := gather_S9x128_S16384x1_S16384x128_1_0_n_n_0_1_1128_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S8192x16384_S16384x128_S8192x128_1_0_0_1_n_n : DotDims S8192x16384 S16384x128 S8192x128 where
  lhsContracting := [1]
  rhsContracting := [0]
  lhsNonContracting := [0]
  rhsNonContracting := [1]
  lhsBatch := []
  rhsBatch := []
  wf := dot_S8192x16384_S16384x128_S8192x128_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

class Facts : Prop extends Facts₀ where

variable [Facts]
-- ==== Proof.HandBase.lean ====
/-
  The contents of core c's TensorCore buffers when the one region of @main is entered: the launch contents
  after the nine stretches of host operations that precede it (two layer norms, the positional rows'
  gather, the first MLP on both node sets), as a fold; and the thirteen stretches that follow the region.
-/
import proofs.«125620_j10290741641936_1_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- The stretches of host operations before the region, in order. -/
abbrev preOpss : List (List (HloOp τ sig (Elt F))) :=
  [hostOps0, hostOps0_1, hostOps0_2, hostOps0_3, hostOps0_4, hostOps0_5, hostOps0_6, hostOps0_7, hostOps0_8]

/-- The stretches of host operations after the region, in order. -/
abbrev tailOpss : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12]

/-- Core c's buffer contents when the region is entered, as a valuation. -/
abbrev V0 (c : Dev nD) : Valuation τ sig (Elt F) := StableHlo.after (List.flatten preOpss) (fun b => m (c, b))

/-- The same read at a TensorCore reference. -/
abbrev V (c : Dev nD) (b : Ref sig .tc) : Buf (Elt F) ((c : Thread nD τ).loc b) := V0 m c (Proc.devRef .tc b)

end Cert.KernelIdeal.Hand

end
-- ==== Proof.BodyKit.lean ====
/-
  What the three cases of the kernel body share. The grid is 8 x 8: point t has row-block t / 8 and
  reduction step t % 8. The body zeroes its accumulator at step 0, adds one 1024 x 2048 by 2048 x 128
  product to it at every step, and copies it to the output block at step 7. Here: the two branch
  conditions in closed form over the grid, where the output window is idle and where it is written back,
  the blocks of the two input windows as the region finds them, and the staging and scratch memrefs the
  body is called with.
-/
import proofs.«125620_j10290741641936_1_alg».proof.Proof.HandBase
import proofs.«125620_j10290741641936_1_alg».proof.Proof.Gen.KernelIdeal.Skeleton
import proofs.«125620_j10290741641936_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point, fetched there or not, for any
    proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The reduction step is the first one (the accumulator is zeroed). -/
abbrev cond0_0 (i : grid0.Coords) : Prop := (Scalar.cmpi .ne (Scalar.extui (Scalar.cmpi .eq (BitVec.ofNat 32 (i 1).val) 0#32)) 0#32) = 1#1
/-- It holds exactly at the points whose step t % 8 is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The reduction step is the last one (the accumulator is copied out). -/
abbrev cond0_1 (i : grid0.Coords) : Prop := k0_cond2 i = 1#1
/-- It holds exactly at the points whose step t % 8 is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first step the output window is idle and its block is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a middle step too. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a last step the body stores into the output window. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x128 .f32 := (Memref.whole cc0_stg2_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x128 .f32 := Memref.whole cc0_scratch0
abbrev VS0_0 : View sig .tc .vmem S1024x128 .f32 := scM0_0.view

/-- The region's class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.RunA.lean ====
/-
  The kernel body at a FIRST reduction step (step 0 of a row-block): it overwrites the accumulator with zeros,
  then with zeros plus the product of the two input blocks, and stores nothing into the output block. Stated on
  any whole staging memrefs: the inputs at their contents, the output block handed back untouched, the
  accumulator found at anything and left with the pieces the body stored (found by running the body).
-/
import proofs.«125620_j10290741641936_1_alg».proof.Proof.BodyKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x2048 .f32) (x1 : Vec F S2048x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__incidence_matmul_kernel i arg2 harg2 arg3 harg3 arg4 harg4 arg5 harg5) K } := by
  refine ⟨[], ?_, fun xi2 E K => ?run⟩
  case run =>
    simp only [cc0__incidence_matmul_kernel_eq_skeleton]; unfold cc0__incidence_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RunB.lean ====
/-
  The kernel body at a MIDDLE reduction step (steps 1 to 6): it adds the product of the two input blocks to
  the accumulator, which it finds at what the step before left, and stores nothing into the output block.
-/
import proofs.«125620_j10290741641936_1_alg».proof.Proof.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__incidence_matmul_kernel i arg2 harg2 arg3 harg3 arg4 harg4 arg5 harg5) K } := by
  refine ⟨[], ?_, fun xi2 E K => ?run⟩
  case run =>
    simp only [cc0__incidence_matmul_kernel_eq_skeleton]; unfold cc0__incidence_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RunC.lean ====
/-
  The kernel body at a LAST reduction step (step 7): it adds the product of the two input blocks to the
  accumulator, which it finds at what the step before left, and copies the accumulator into the output block,
  which it finds at anything.
-/
import proofs.«125620_j10290741641936_1_alg».proof.Proof.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__incidence_matmul_kernel i arg2 harg2 arg3 harg3 arg4 harg4 arg5 harg5) K } := by
  refine ⟨?_, ?_, fun E K => ?run⟩
  case run =>
    simp only [cc0__incidence_matmul_kernel_eq_skeleton]; unfold cc0__incidence_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.BodyFrame.lean ====
/-
  What the output block's staging buffer and the accumulator hold after the body at each grid point, by
  recursion on the point: at a first step (t % 8 = 0) what the zero-then-add case leaves, at a later step
  what the add case leaves over the accumulator of the point before, the last step (t % 8 = 7) also copying
  the accumulator to the output block. Then the region's invariant (the accumulator at the contents the
  point before left), the proof data, and the body obligation at every point by cases on the step.
-/
import proofs.«125620_j10290741641936_1_alg».proof.Proof.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first step stores nothing into the output block: a placeholder nothing consults. -/
def out0_A_2 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x2048 .f32) (x1 : Vec F S2048x128 .f32) : Vec F S1024x128 .f32 :=
  VO0_2.read (Elt F) (VO0_2.writes (Elt F) VO0_2.junk (kernelRun0_A c i arg2 harg2 arg3 harg3 arg4 harg4 arg5 harg5 hc0 hc1 x0 x1).1)

/-- A first step's stores into the accumulator cover it. -/
theorem scover0_A_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x2048 .f32) (x1 : Vec F S2048x128 .f32) (y : S1024x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x128.size (by sl_kernel_rfl) y

/-- What a first step leaves in the accumulator. -/
def sout0_A_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x2048 .f32) (x1 : Vec F S2048x128 .f32) : Vec F S1024x128 .f32 :=
  VS0_0.read (Elt F) (VS0_0.writes (Elt F) VS0_0.junk (kernelRun0_A c i arg2 harg2 arg3 harg3 arg4 harg4 arg5 harg5 hc0 hc1 x0 x1).2.1)

/-- A middle step stores nothing into the output block either. -/
def out0_B_2 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x2048 .f32) (x1 : Vec F S2048x128 .f32) (xs0 : Vec F S1024x128 .f32) : Vec F S1024x128 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x2048 .f32) (x1 : Vec F S2048x128 .f32) (xs0 : Vec F S1024x128 .f32) (y : S1024x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x128.size (by sl_kernel_rfl) y

/-- What a middle step leaves in the accumulator. -/
def sout0_B_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x2048 .f32) (x1 : Vec F S2048x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 hc0 hc1 x0 x1 xs0).2.1)

/-- A last step's one store into the output block covers it. -/
theorem cover0_C_2 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) (y : S1024x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x128.size (by sl_kernel_rfl) y

/-- What a last step leaves in the output block's staging buffer. -/
def out0_C_2 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) : Vec F S1024x128 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) (y : S1024x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x128.size (by sl_kernel_rfl) y

/-- What a last step leaves in the accumulator. -/
def sout0_C_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- What the output block's staging buffer (first component) and the accumulator (second) hold after the
    body at position n. -/
def outsAt0 (c : Dev nD) : (n : ℕ) → n < cfg0.N → Vec F S1024x128 .f32 × Vec F S1024x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- At a first step. -/
theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- At a middle step: over what the point before left in the accumulator. -/
theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step. -/
theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class's invariant (the accumulator at anything); afterwards the accumulator at
    what the point before left and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point t each input's buffer at its block and the
    output's at the recursion's first component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by cases on the step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
  · have hz : t.val ≠ 0 := by intro h; rw [h] at h0; exact h0 (Nat.zero_mod _)
    by_cases h1 : t.val % 8 = 7
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.HandKit.lean ====
/-
  @main around its one region: the nine stretches of host operations before it allocate nothing and touch
  TensorCore buffers only, so @main reduces to the region, entered at the contents V, continued by the
  thirteen stretches after it.
-/
import proofs.«125620_j10290741641936_1_alg».proof.Proof.HandBase
import Idealize.ShloMosaic.Lib.Pipeline.FrameSuffix

set_option maxRecDepth 4096

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg)

variable {F : FTy → Type} [FloatOps F]

variable (m : (ℓ : Loc nD τ sig) → Buf (Elt F) ℓ)

/-- No operation of this stretch allocates. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- No operation of this stretch allocates. -/
theorem hostOps0_1_fresh : (hostOps0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- No operation of this stretch allocates. -/
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- No operation of this stretch allocates. -/
theorem hostOps0_3_fresh : (hostOps0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- No operation of this stretch allocates. -/
theorem hostOps0_4_fresh : (hostOps0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- No operation of this stretch allocates. -/
theorem hostOps0_5_fresh : (hostOps0_5 : List (HloOp τ sig (Elt F))).Forall fun op => op.fresh = ∅ :=
  ⟨rfl, rfl, rfl⟩
/-- No operation of this stretch allocates. -/
theorem hostOps0_6_fresh : (hostOps0_6 : List (HloOp τ sig (Elt F))).Forall fun op => op.fresh = ∅ :=
  ⟨rfl, rfl, rfl, rfl, rfl, rfl, rfl, rfl, rfl, rfl⟩
/-- No operation of this stretch allocates. -/
theorem hostOps0_7_fresh : (hostOps0_7 : List (HloOp τ sig (Elt F))).Forall fun op => op.fresh = ∅ :=
  ⟨rfl, rfl, rfl⟩
/-- No operation of this stretch allocates. -/
theorem hostOps0_8_fresh : (hostOps0_8 : List (HloOp τ sig (Elt F))).Forall fun op => op.fresh = ∅ :=
  ⟨rfl, rfl, rfl, rfl, rfl, rfl, rfl, rfl, rfl, rfl, rfl, rfl⟩

/-- @main around the region, at any variants: the host operations before it, the region, the host operations after
    it. It reduces to the region continued by the later operations, entered at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOpss.map StableHlo.seq)) :=
  Pipeline.hmain_around cfgs 0 defs₀ 𝒱₀ m main preOpss tailOpss
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

end Cert.KernelIdeal.Hand

end
-- ==== Proof.HandTail.lean ====
/-
  The thirteen stretches of host operations that follow the region: each operation touches unscoped TensorCore
  buffers only, allocates nothing, and writes exactly one buffer, its result. The results are listed once
  (Wtail); a buffer outside that list is left alone by the whole tail, and no array of the pipeline is in it.
-/
import proofs.«125620_j10290741641936_1_alg».proof.Proof.HandBase
import Idealize.ShloMosaic.Lib.Pipeline.FrameSuffix

set_option maxRecDepth 4096

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg)

variable {F : FTy → Type} [FloatOps F]

/-! ## One written buffer per operation -/

/-- A result buffer that is listed in W lies in W read as a set of device buffers. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- An operation whose written buffers are all listed in W writes no buffer outside W. -/
theorem not_writes_of_wsub {W : List (Ref sig .tc)} {r : Ref sig .tc} (hr : r ∉ W) {op : HloOp τ sig (Elt F)}
    (h : op.writes ⊆ (W.map (Proc.devRef (τ := τ) .tc)).toFinset) : Proc.devRef .tc r ∉ op.writes := fun hb => by
  obtain ⟨y, hy, he⟩ := List.mem_map.mp (List.mem_toFinset.mp (h hb))
  exact hr (Proc.devRef_injective _ he ▸ hy)

/-- Stretches all of whose written buffers are listed in W leave a buffer outside W as it was. -/
theorem after_flatten_keeps {W : List (Ref sig .tc)} {r : Ref sig .tc} (hr : r ∉ W)
    (opss : List (List (HloOp τ sig (Elt F)))) (V : Valuation τ sig (Elt F))
    (h : ∀ ops ∈ opss, ∀ op ∈ ops, op.writes ⊆ (W.map (Proc.devRef (τ := τ) .tc)).toFinset) :
    StableHlo.after opss.flatten V (Proc.devRef .tc r) = V (Proc.devRef .tc r) :=
  StableHlo.after_of_forall_not_mem _ _ fun op hop => by
    obtain ⟨ops, hops, hop'⟩ := List.mem_flatten.mp hop
    exact not_writes_of_wsub hr (h ops hops op hop')

/-- The buffers the operations after the region write, in program order: one per operation. -/
abbrev Wtail : List (Ref sig .tc) :=
  [
    main_v75, main_v76, main_cst_12, main_v77, main_v78, main_v79, main_v80, main_cst_13,
    main_v81, main_v82, main_cst_14, main_v83, main_v84, main_c_15, main_call4_cst, main_call4_v0,
    main_call4_v1, main_call4_cst_0, main_call4_v2, main_call4_v3, main_call4_v4, main_call4_v5, main_call4_v6, main_call4_v7,
    main_call4_cst_1, main_call4_v8, main_call4_cst_2, main_call4_v9, main_call4_v10, main_call4_v11, main_call4_v12, main_call4_cst_3,
    main_call4_v13, main_call4_cst_4, main_call4_call0_v0, main_call4_call0_v1, main_v85, main_v86, main_v87, main_cst_16,
    main_v88, main_v89, main_v90, main_v91, main_v92, main_v93, main_v94, main_v95,
    main_v96, main_cst_17, main_v97, main_v98, main_cst_18, main_v99, main_v100, main_c_19,
    main_call5_cst, main_call5_v0, main_call5_v1, main_call5_cst_0, main_call5_v2, main_call5_v3, main_call5_v4, main_call5_v5,
    main_call5_v6, main_call5_v7, main_call5_cst_1, main_call5_v8, main_call5_cst_2, main_call5_v9, main_call5_v10, main_call5_v11,
    main_call5_v12, main_call5_cst_3, main_call5_v13, main_call5_cst_4, main_call5_call0_v0, main_call5_call0_v1, main_v101, main_v102,
    main_v103, main_cst_20, main_v104, main_v105, main_v106, main_v107, main_v108, main_v109,
    main_v110, main_v111, main_v112, main_v113, main_v114, main_v115, main_v116, main_v117,
    main_v118, main_v119, main_v120, main_v121, main_call6_cst, main_call6_v0, main_v122, main_v123,
    main_v124, main_v125, main_v126, main_v127, main_v128, main_v129, main_v130, main_v131,
    main_v132, main_v133, main_v134, main_v135, main_call7_cst, main_call7_v0, main_v136, main_v137,
    main_v138, main_v139, main_v140, main_v141, main_v142, main_v143, main_cst_21, main_v144,
    main_v145, main_cst_22, main_v146, main_v147, main_c_23, main_call8_cst, main_call8_v0, main_call8_v1,
    main_call8_cst_0, main_call8_v2, main_call8_v3, main_call8_v4, main_call8_v5, main_call8_v6, main_call8_v7, main_call8_cst_1,
    main_call8_v8, main_call8_cst_2, main_call8_v9, main_call8_v10, main_call8_v11, main_call8_v12, main_call8_cst_3, main_call8_v13,
    main_call8_cst_4, main_call8_call0_v0, main_call8_call0_v1, main_v148, main_v149, main_v150, main_cst_24, main_v151,
    main_v152, main_v153, main_v154, main_v155, main_v156, main_v157, main_v158, main_v159,
    main_v160, main_v161, main_v162, main_v163, main_v164, main_v165, main_call9_cst, main_call9_v0,
    main_v166, main_v167, main_v168, main_v169, main_v170, main_v171, main_v172, main_v173 ]

/-- Each operation of this stretch writes its own result buffer, which is listed. -/
theorem hostOps1_wsub : (hostOps1 : List (HloOp τ sig (Elt F))).Forall fun op => op.writes ⊆ (Wtail.map (Proc.devRef (τ := τ) .tc)).toFinset :=
  ⟨wsub (y := main_v75) (by decide),
   wsub (y := main_v76) (by decide),
   wsub (y := main_cst_12) (by decide),
   wsub (y := main_v77) (by decide),
   wsub (y := main_v78) (by decide),
   wsub (y := main_v79) (by decide),
   wsub (y := main_v80) (by decide),
   wsub (y := main_cst_13) (by decide),
   wsub (y := main_v81) (by decide),
   wsub (y := main_v82) (by decide),
   wsub (y := main_cst_14) (by decide),
   wsub (y := main_v83) (by decide),
   wsub (y := main_v84) (by decide),
   wsub (y := main_c_15) (by decide)⟩
/-- None allocates. -/
theorem hostOps1_fresh : (hostOps1 : List (HloOp τ sig (Elt F))).Forall fun op => op.fresh = ∅ :=
  ⟨rfl, rfl, rfl, rfl, rfl, rfl, rfl, rfl, rfl, rfl, rfl, rfl, rfl, rfl⟩

/-- Each operation of this stretch writes its own result buffer, which is listed. -/
theorem hostOps1_1_wsub : (hostOps1_1 : List (HloOp τ sig (Elt F))).Forall fun op => op.writes ⊆ (Wtail.map (Proc.devRef (τ := τ) .tc)).toFinset :=
  ⟨wsub (y := main_call4_cst) (by decide),
   wsub (y := main_call4_v0) (by decide),
   wsub (y := main_call4_v1) (by decide),
   wsub (y := main_call4_cst_0) (by decide),
   wsub (y := main_call4_v2) (by decide),
   wsub (y := main_call4_v3) (by decide),
   wsub (y := main_call4_v4) (by decide),
   wsub (y := main_call4_v5) (by decide),
   wsub (y := main_call4_v6) (by decide),
   wsub (y := main_call4_v7) (by decide),
   wsub (y := main_call4_cst_1) (by decide),
   wsub (y := main_call4_v8) (by decide),
   wsub (y := main_call4_cst_2) (by decide),
   wsub (y := main_call4_v9) (by decide),
   wsub (y := main_call4_v10) (by decide),
   wsub (y := main_call4_v11) (by decide),
   wsub (y := main_call4_v12) (by decide),
   wsub (y := main_call4_cst_3) (by decide),
   wsub (y := main_call4_v13) (by decide),
   wsub (y := main_call4_cst_4) (by decide),
   wsub (y := main_call4_call0_v0) (by decide),
   wsub (y := main_call4_call0_v1) (by decide),
   wsub (y := main_v85) (by decide)⟩
/-- None allocates. -/
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of this stretch writes its own result buffer, which is listed. -/
theorem hostOps1_2_wsub : (hostOps1_2 : List (HloOp τ sig (Elt F))).Forall fun op => op.writes ⊆ (Wtail.map (Proc.devRef (τ := τ) .tc)).toFinset :=
  ⟨wsub (y := main_v86) (by decide),
   wsub (y := main_v87) (by decide),
   wsub (y := main_cst_16) (by decide),
   wsub (y := main_v88) (by decide),
   wsub (y := main_v89) (by decide),
   wsub (y := main_v90) (by decide),
   wsub (y := main_v91) (by decide),
   wsub (y := main_v92) (by decide),
   wsub (y := main_v93) (by decide),
   wsub (y := main_v94) (by decide),
   wsub (y := main_v95) (by decide),
   wsub (y := main_v96) (by decide),
   wsub (y := main_cst_17) (by decide),
   wsub (y := main_v97) (by decide),
   wsub (y := main_v98) (by decide),
   wsub (y := main_cst_18) (by decide),
   wsub (y := main_v99) (by decide),
   wsub (y := main_v100) (by decide),
   wsub (y := main_c_19) (by decide)⟩
/-- None allocates. -/
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Each operation of this stretch writes its own result buffer, which is listed. -/
theorem hostOps1_3_wsub : (hostOps1_3 : List (HloOp τ sig (Elt F))).Forall fun op => op.writes ⊆ (Wtail.map (Proc.devRef (τ := τ) .tc)).toFinset :=
  ⟨wsub (y := main_call5_cst) (by decide),
   wsub (y := main_call5_v0) (by decide),
   wsub (y := main_call5_v1) (by decide),
   wsub (y := main_call5_cst_0) (by decide),
   wsub (y := main_call5_v2) (by decide),
   wsub (y := main_call5_v3) (by decide),
   wsub (y := main_call5_v4) (by decide),
   wsub (y := main_call5_v5) (by decide),
   wsub (y := main_call5_v6) (by decide),
   wsub (y := main_call5_v7) (by decide),
   wsub (y := main_call5_cst_1) (by decide),
   wsub (y := main_call5_v8) (by decide),
   wsub (y := main_call5_cst_2) (by decide),
   wsub (y := main_call5_v9) (by decide),
   wsub (y := main_call5_v10) (by decide),
   wsub (y := main_call5_v11) (by decide),
   wsub (y := main_call5_v12) (by decide),
   wsub (y := main_call5_cst_3) (by decide),
   wsub (y := main_call5_v13) (by decide),
   wsub (y := main_call5_cst_4) (by decide),
   wsub (y := main_call5_call0_v0) (by decide),
   wsub (y := main_call5_call0_v1) (by decide),
   wsub (y := main_v101) (by decide)⟩
/-- None allocates. -/
theorem hostOps1_3_fresh : (hostOps1_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of this stretch writes its own result buffer, which is listed. -/
theorem hostOps1_4_wsub : (hostOps1_4 : List (HloOp τ sig (Elt F))).Forall fun op => op.writes ⊆ (Wtail.map (Proc.devRef (τ := τ) .tc)).toFinset :=
  ⟨wsub (y := main_v102) (by decide),
   wsub (y := main_v103) (by decide),
   wsub (y := main_cst_20) (by decide),
   wsub (y := main_v104) (by decide),
   wsub (y := main_v105) (by decide),
   wsub (y := main_v106) (by decide),
   wsub (y := main_v107) (by decide),
   wsub (y := main_v108) (by decide),
   wsub (y := main_v109) (by decide),
   wsub (y := main_v110) (by decide),
   wsub (y := main_v111) (by decide),
   wsub (y := main_v112) (by decide),
   wsub (y := main_v113) (by decide),
   wsub (y := main_v114) (by decide),
   wsub (y := main_v115) (by decide),
   wsub (y := main_v116) (by decide),
   wsub (y := main_v117) (by decide),
   wsub (y := main_v118) (by decide),
   wsub (y := main_v119) (by decide),
   wsub (y := main_v120) (by decide),
   wsub (y := main_v121) (by decide)⟩
/-- None allocates. -/
theorem hostOps1_4_fresh : (hostOps1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Each operation of this stretch writes its own result buffer, which is listed. -/
theorem hostOps1_5_wsub : (hostOps1_5 : List (HloOp τ sig (Elt F))).Forall fun op => op.writes ⊆ (Wtail.map (Proc.devRef (τ := τ) .tc)).toFinset :=
  ⟨wsub (y := main_call6_cst) (by decide),
   wsub (y := main_call6_v0) (by decide),
   wsub (y := main_v122) (by decide)⟩
/-- None allocates. -/
theorem hostOps1_5_fresh : (hostOps1_5 : List (HloOp τ sig (Elt F))).Forall fun op => op.fresh = ∅ :=
  ⟨rfl, rfl, rfl⟩

/-- Each operation of this stretch writes its own result buffer, which is listed. -/
theorem hostOps1_6_wsub : (hostOps1_6 : List (HloOp τ sig (Elt F))).Forall fun op => op.writes ⊆ (Wtail.map (Proc.devRef (τ := τ) .tc)).toFinset :=
  ⟨wsub (y := main_v123) (by decide),
   wsub (y := main_v124) (by decide),
   wsub (y := main_v125) (by decide),
   wsub (y := main_v126) (by decide),
   wsub (y := main_v127) (by decide),
   wsub (y := main_v128) (by decide),
   wsub (y := main_v129) (by decide),
   wsub (y := main_v130) (by decide),
   wsub (y := main_v131) (by decide),
   wsub (y := main_v132) (by decide),
   wsub (y := main_v133) (by decide),
   wsub (y := main_v134) (by decide),
   wsub (y := main_v135) (by decide)⟩
/-- None allocates. -/
theorem hostOps1_6_fresh : (hostOps1_6 : List (HloOp τ sig (Elt F))).Forall fun op => op.fresh = ∅ :=
  ⟨rfl, rfl, rfl, rfl, rfl, rfl, rfl, rfl, rfl, rfl, rfl, rfl, rfl⟩

/-- Each operation of this stretch writes its own result buffer, which is listed. -/
theorem hostOps1_7_wsub : (hostOps1_7 : List (HloOp τ sig (Elt F))).Forall fun op => op.writes ⊆ (Wtail.map (Proc.devRef (τ := τ) .tc)).toFinset :=
  ⟨wsub (y := main_call7_cst) (by decide),
   wsub (y := main_call7_v0) (by decide),
   wsub (y := main_v136) (by decide)⟩
/-- None allocates. -/
theorem hostOps1_7_fresh : (hostOps1_7 : List (HloOp τ sig (Elt F))).Forall fun op => op.fresh = ∅ :=
  ⟨rfl, rfl, rfl⟩

/-- Each operation of this stretch writes its own result buffer, which is listed. -/
theorem hostOps1_8_wsub : (hostOps1_8 : List (HloOp τ sig (Elt F))).Forall fun op => op.writes ⊆ (Wtail.map (Proc.devRef (τ := τ) .tc)).toFinset :=
  ⟨wsub (y := main_v137) (by decide),
   wsub (y := main_v138) (by decide),
   wsub (y := main_v139) (by decide),
   wsub (y := main_v140) (by decide),
   wsub (y := main_v141) (by decide),
   wsub (y := main_v142) (by decide),
   wsub (y := main_v143) (by decide),
   wsub (y := main_cst_21) (by decide),
   wsub (y := main_v144) (by decide),
   wsub (y := main_v145) (by decide),
   wsub (y := main_cst_22) (by decide),
   wsub (y := main_v146) (by decide),
   wsub (y := main_v147) (by decide),
   wsub (y := main_c_23) (by decide)⟩
/-- None allocates. -/
theorem hostOps1_8_fresh : (hostOps1_8 : List (HloOp τ sig (Elt F))).Forall fun op => op.fresh = ∅ :=
  ⟨rfl, rfl, rfl, rfl, rfl, rfl, rfl, rfl, rfl, rfl, rfl, rfl, rfl, rfl⟩

/-- Each operation of this stretch writes its own result buffer, which is listed. -/
theorem hostOps1_9_wsub : (hostOps1_9 : List (HloOp τ sig (Elt F))).Forall fun op => op.writes ⊆ (Wtail.map (Proc.devRef (τ := τ) .tc)).toFinset :=
  ⟨wsub (y := main_call8_cst) (by decide),
   wsub (y := main_call8_v0) (by decide),
   wsub (y := main_call8_v1) (by decide),
   wsub (y := main_call8_cst_0) (by decide),
   wsub (y := main_call8_v2) (by decide),
   wsub (y := main_call8_v3) (by decide),
   wsub (y := main_call8_v4) (by decide),
   wsub (y := main_call8_v5) (by decide),
   wsub (y := main_call8_v6) (by decide),
   wsub (y := main_call8_v7) (by decide),
   wsub (y := main_call8_cst_1) (by decide),
   wsub (y := main_call8_v8) (by decide),
   wsub (y := main_call8_cst_2) (by decide),
   wsub (y := main_call8_v9) (by decide),
   wsub (y := main_call8_v10) (by decide),
   wsub (y := main_call8_v11) (by decide),
   wsub (y := main_call8_v12) (by decide),
   wsub (y := main_call8_cst_3) (by decide),
   wsub (y := main_call8_v13) (by decide),
   wsub (y := main_call8_cst_4) (by decide),
   wsub (y := main_call8_call0_v0) (by decide),
   wsub (y := main_call8_call0_v1) (by decide),
   wsub (y := main_v148) (by decide)⟩
/-- None allocates. -/
theorem hostOps1_9_fresh : (hostOps1_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of this stretch writes its own result buffer, which is listed. -/
theorem hostOps1_10_wsub : (hostOps1_10 : List (HloOp τ sig (Elt F))).Forall fun op => op.writes ⊆ (Wtail.map (Proc.devRef (τ := τ) .tc)).toFinset :=
  ⟨wsub (y := main_v149) (by decide),
   wsub (y := main_v150) (by decide),
   wsub (y := main_cst_24) (by decide),
   wsub (y := main_v151) (by decide),
   wsub (y := main_v152) (by decide),
   wsub (y := main_v153) (by decide),
   wsub (y := main_v154) (by decide),
   wsub (y := main_v155) (by decide),
   wsub (y := main_v156) (by decide),
   wsub (y := main_v157) (by decide),
   wsub (y := main_v158) (by decide),
   wsub (y := main_v159) (by decide),
   wsub (y := main_v160) (by decide),
   wsub (y := main_v161) (by decide),
   wsub (y := main_v162) (by decide),
   wsub (y := main_v163) (by decide),
   wsub (y := main_v164) (by decide),
   wsub (y := main_v165) (by decide)⟩
/-- None allocates. -/
theorem hostOps1_10_fresh : (hostOps1_10 : List (HloOp τ sig (Elt F))).Forall fun op => op.fresh = ∅ :=
  ⟨rfl, rfl, rfl, rfl, rfl, rfl, rfl, rfl, rfl, rfl, rfl, rfl, rfl, rfl, rfl, rfl, rfl, rfl⟩

/-- Each operation of this stretch writes its own result buffer, which is listed. -/
theorem hostOps1_11_wsub : (hostOps1_11 : List (HloOp τ sig (Elt F))).Forall fun op => op.writes ⊆ (Wtail.map (Proc.devRef (τ := τ) .tc)).toFinset :=
  ⟨wsub (y := main_call9_cst) (by decide),
   wsub (y := main_call9_v0) (by decide),
   wsub (y := main_v166) (by decide)⟩
/-- None allocates. -/
theorem hostOps1_11_fresh : (hostOps1_11 : List (HloOp τ sig (Elt F))).Forall fun op => op.fresh = ∅ :=
  ⟨rfl, rfl, rfl⟩

/-- Each operation of this stretch writes its own result buffer, which is listed. -/
theorem hostOps1_12_wsub : (hostOps1_12 : List (HloOp τ sig (Elt F))).Forall fun op => op.writes ⊆ (Wtail.map (Proc.devRef (τ := τ) .tc)).toFinset :=
  ⟨wsub (y := main_v167) (by decide),
   wsub (y := main_v168) (by decide),
   wsub (y := main_v169) (by decide),
   wsub (y := main_v170) (by decide),
   wsub (y := main_v171) (by decide),
   wsub (y := main_v172) (by decide),
   wsub (y := main_v173) (by decide)⟩
/-- None allocates. -/
theorem hostOps1_12_fresh : (hostOps1_12 : List (HloOp τ sig (Elt F))).Forall fun op => op.fresh = ∅ :=
  ⟨rfl, rfl, rfl, rfl, rfl, rfl, rfl⟩

/-! ## The three side conditions of the launch theorem on the tail -/

/-- Every written buffer of the tail is listed. -/
theorem tail_wsub : ∀ ops ∈ (tailOpss : List (List (HloOp τ sig (Elt F)))), ∀ op ∈ ops,
    op.writes ⊆ (Wtail.map (Proc.devRef (τ := τ) .tc)).toFinset := by
  intro ops hops op hop
  simp only [List.mem_cons, List.mem_nil_iff, or_false] at hops
  rcases hops with rfl | rfl | rfl | rfl | rfl | rfl | rfl | rfl | rfl | rfl | rfl | rfl | rfl
  · exact (List.forall_iff_forall_mem.mp hostOps1_wsub) op hop
  · exact (List.forall_iff_forall_mem.mp hostOps1_1_wsub) op hop
  · exact (List.forall_iff_forall_mem.mp hostOps1_2_wsub) op hop
  · exact (List.forall_iff_forall_mem.mp hostOps1_3_wsub) op hop
  · exact (List.forall_iff_forall_mem.mp hostOps1_4_wsub) op hop
  · exact (List.forall_iff_forall_mem.mp hostOps1_5_wsub) op hop
  · exact (List.forall_iff_forall_mem.mp hostOps1_6_wsub) op hop
  · exact (List.forall_iff_forall_mem.mp hostOps1_7_wsub) op hop
  · exact (List.forall_iff_forall_mem.mp hostOps1_8_wsub) op hop
  · exact (List.forall_iff_forall_mem.mp hostOps1_9_wsub) op hop
  · exact (List.forall_iff_forall_mem.mp hostOps1_10_wsub) op hop
  · exact (List.forall_iff_forall_mem.mp hostOps1_11_wsub) op hop
  · exact (List.forall_iff_forall_mem.mp hostOps1_12_wsub) op hop

/-- The operations after the region touch the pipeline's arrays and the bypassing buffers only: each operation's
    buffers are unscoped TensorCore references, and with nothing prefetched every such reference is one or the other. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)

/-- They allocate nothing. -/
theorem sfx_fresh : ∀ ops ∈ (tailOpss : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop

/-- No array of the pipeline is a result of the tail. -/
theorem arr_not_mem_Wtail : ∀ w, Pipeline.arrRef spec0 w ∉ Wtail := by decide

/-- And they write no array of the pipeline: each writes only its own result buffer, which is no array. -/
theorem sfx_keeps : ∀ ops ∈ (tailOpss : List (List (HloOp τ sig (Elt F)))), ∀ op ∈ ops,
    ∀ w, Proc.devRef .tc (Pipeline.arrRef spec0 w) ∉ op.writes :=
  fun ops hops op hop w => not_writes_of_wsub (arr_not_mem_Wtail w) (tail_wsub ops hops op hop)

/-- A buffer that is no result of the tail holds after it what it held before. -/
theorem tail_keeps {r : Ref sig .tc} (hr : r ∉ Wtail) (V : Valuation τ sig (Elt F)) :
    StableHlo.after (tailOpss : List (List (HloOp τ sig (Elt F)))).flatten V (Proc.devRef .tc r) = V (Proc.devRef .tc r) :=
  after_flatten_keeps hr _ V tail_wsub

end Cert.KernelIdeal.Hand

end
-- ==== Proof.HandArgs.lean ====
/-
  What the launch leaves in the program's argument buffers and in its result buffer. No host operation, before the
  region or after it, writes an argument: each writes one buffer, its result, and the results are listed (Wpre,
  Wtail). The region itself changes only its output window's array; the one argument it stages (window 0, an
  input) is never written back. So every argument ends as launched.
-/
import proofs.«125620_j10290741641936_1_alg».proof.Proof.HandBase
import proofs.«125620_j10290741641936_1_alg».proof.Proof.HandTail
import Idealize.ShloMosaic.Lib.Pipeline.FrameSuffix

set_option maxRecDepth 4096

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg)

variable {F : FTy → Type} [FloatOps F]

variable (m : (ℓ : Loc nD τ sig) → Buf (Elt F) ℓ) (ρ : Dev nD → PrngReg)

/-! ## The operations before the region -/

/-- The buffers the operations before the region write, in program order: one per operation. -/
abbrev Wpre : List (Ref sig .tc) :=
  [
    main_cst, main_cst_0, main_v0, main_v1, main_v2, main_c, main_v3, main_v4,
    main_c_1, main_v5, main_v6, main_v7, main_v8, main_v9, main_cst_2, main_v10,
    main_v11, main_cst_3, main_v12, main_v13, main_c_4, main_call0_cst, main_call0_v0, main_call0_v1,
    main_call0_cst_0, main_call0_v2, main_call0_v3, main_call0_v4, main_call0_v5, main_call0_v6, main_call0_v7, main_call0_cst_1,
    main_call0_v8, main_call0_cst_2, main_call0_v9, main_call0_v10, main_call0_v11, main_call0_v12, main_call0_cst_3, main_call0_v13,
    main_call0_cst_4, main_call0_call0_v0, main_call0_call0_v1, main_v14, main_v15, main_v16, main_cst_5, main_v17,
    main_v18, main_v19, main_v20, main_v21, main_v22, main_v23, main_v24, main_v25,
    main_v26, main_v27, main_cst_6, main_v28, main_v29, main_cst_7, main_v30, main_v31,
    main_c_8, main_call1_cst, main_call1_v0, main_call1_v1, main_call1_cst_0, main_call1_v2, main_call1_v3, main_call1_v4,
    main_call1_v5, main_call1_v6, main_call1_v7, main_call1_cst_1, main_call1_v8, main_call1_cst_2, main_call1_v9, main_call1_v10,
    main_call1_v11, main_call1_v12, main_call1_cst_3, main_call1_v13, main_call1_cst_4, main_call1_call0_v0, main_call1_call0_v1, main_v32,
    main_v33, main_v34, main_cst_9, main_v35, main_v36, main_v37, main_v38, main_v39,
    main_v40, main_v41, main_v42, main_v43, main_v44, main_v45, main_v46, main_v47,
    main_v48, main_v49, main_v50, main_v51, main_call2_cst, main_call2_v0, main_v52, main_v53,
    main_v54, main_v55, main_v56, main_v57, main_v58, main_v59, main_v60, main_v61,
    main_v62, main_call3_cst, main_call3_v0, main_v63, main_v64, main_v65, main_v66, main_v67,
    main_v68, main_v69, main_cst_10, main_v70, main_v71, main_cst_11, main_v72, main_v73 ]

/-- Each operation of this stretch writes its own result buffer, which is listed. -/
theorem hostOps0_wsub : (hostOps0 : List (HloOp τ sig (Elt F))).Forall fun op => op.writes ⊆ (Wpre.map (Proc.devRef (τ := τ) .tc)).toFinset :=
  ⟨wsub (y := main_cst) (by decide),
   wsub (y := main_cst_0) (by decide),
   wsub (y := main_v0) (by decide),
   wsub (y := main_v1) (by decide),
   wsub (y := main_v2) (by decide),
   wsub (y := main_c) (by decide),
   wsub (y := main_v3) (by decide),
   wsub (y := main_v4) (by decide),
   wsub (y := main_c_1) (by decide),
   wsub (y := main_v5) (by decide),
   wsub (y := main_v6) (by decide),
   wsub (y := main_v7) (by decide),
   wsub (y := main_v8) (by decide),
   wsub (y := main_v9) (by decide),
   wsub (y := main_cst_2) (by decide),
   wsub (y := main_v10) (by decide),
   wsub (y := main_v11) (by decide),
   wsub (y := main_cst_3) (by decide),
   wsub (y := main_v12) (by decide),
   wsub (y := main_v13) (by decide),
   wsub (y := main_c_4) (by decide)⟩

/-- Each operation of this stretch writes its own result buffer, which is listed. -/
theorem hostOps0_1_wsub : (hostOps0_1 : List (HloOp τ sig (Elt F))).Forall fun op => op.writes ⊆ (Wpre.map (Proc.devRef (τ := τ) .tc)).toFinset :=
  ⟨wsub (y := main_call0_cst) (by decide),
   wsub (y := main_call0_v0) (by decide),
   wsub (y := main_call0_v1) (by decide),
   wsub (y := main_call0_cst_0) (by decide),
   wsub (y := main_call0_v2) (by decide),
   wsub (y := main_call0_v3) (by decide),
   wsub (y := main_call0_v4) (by decide),
   wsub (y := main_call0_v5) (by decide),
   wsub (y := main_call0_v6) (by decide),
   wsub (y := main_call0_v7) (by decide),
   wsub (y := main_call0_cst_1) (by decide),
   wsub (y := main_call0_v8) (by decide),
   wsub (y := main_call0_cst_2) (by decide),
   wsub (y := main_call0_v9) (by decide),
   wsub (y := main_call0_v10) (by decide),
   wsub (y := main_call0_v11) (by decide),
   wsub (y := main_call0_v12) (by decide),
   wsub (y := main_call0_cst_3) (by decide),
   wsub (y := main_call0_v13) (by decide),
   wsub (y := main_call0_cst_4) (by decide),
   wsub (y := main_call0_call0_v0) (by decide),
   wsub (y := main_call0_call0_v1) (by decide),
   wsub (y := main_v14) (by decide)⟩

/-- Each operation of this stretch writes its own result buffer, which is listed. -/
theorem hostOps0_2_wsub : (hostOps0_2 : List (HloOp τ sig (Elt F))).Forall fun op => op.writes ⊆ (Wpre.map (Proc.devRef (τ := τ) .tc)).toFinset :=
  ⟨wsub (y := main_v15) (by decide),
   wsub (y := main_v16) (by decide),
   wsub (y := main_cst_5) (by decide),
   wsub (y := main_v17) (by decide),
   wsub (y := main_v18) (by decide),
   wsub (y := main_v19) (by decide),
   wsub (y := main_v20) (by decide),
   wsub (y := main_v21) (by decide),
   wsub (y := main_v22) (by decide),
   wsub (y := main_v23) (by decide),
   wsub (y := main_v24) (by decide),
   wsub (y := main_v25) (by decide),
   wsub (y := main_v26) (by decide),
   wsub (y := main_v27) (by decide),
   wsub (y := main_cst_6) (by decide),
   wsub (y := main_v28) (by decide),
   wsub (y := main_v29) (by decide),
   wsub (y := main_cst_7) (by decide),
   wsub (y := main_v30) (by decide),
   wsub (y := main_v31) (by decide),
   wsub (y := main_c_8) (by decide)⟩

/-- Each operation of this stretch writes its own result buffer, which is listed. -/
theorem hostOps0_3_wsub : (hostOps0_3 : List (HloOp τ sig (Elt F))).Forall fun op => op.writes ⊆ (Wpre.map (Proc.devRef (τ := τ) .tc)).toFinset :=
  ⟨wsub (y := main_call1_cst) (by decide),
   wsub (y := main_call1_v0) (by decide),
   wsub (y := main_call1_v1) (by decide),
   wsub (y := main_call1_cst_0) (by decide),
   wsub (y := main_call1_v2) (by decide),
   wsub (y := main_call1_v3) (by decide),
   wsub (y := main_call1_v4) (by decide),
   wsub (y := main_call1_v5) (by decide),
   wsub (y := main_call1_v6) (by decide),
   wsub (y := main_call1_v7) (by decide),
   wsub (y := main_call1_cst_1) (by decide),
   wsub (y := main_call1_v8) (by decide),
   wsub (y := main_call1_cst_2) (by decide),
   wsub (y := main_call1_v9) (by decide),
   wsub (y := main_call1_v10) (by decide),
   wsub (y := main_call1_v11) (by decide),
   wsub (y := main_call1_v12) (by decide),
   wsub (y := main_call1_cst_3) (by decide),
   wsub (y := main_call1_v13) (by decide),
   wsub (y := main_call1_cst_4) (by decide),
   wsub (y := main_call1_call0_v0) (by decide),
   wsub (y := main_call1_call0_v1) (by decide),
   wsub (y := main_v32) (by decide)⟩

/-- Each operation of this stretch writes its own result buffer, which is listed. -/
theorem hostOps0_4_wsub : (hostOps0_4 : List (HloOp τ sig (Elt F))).Forall fun op => op.writes ⊆ (Wpre.map (Proc.devRef (τ := τ) .tc)).toFinset :=
  ⟨wsub (y := main_v33) (by decide),
   wsub (y := main_v34) (by decide),
   wsub (y := main_cst_9) (by decide),
   wsub (y := main_v35) (by decide),
   wsub (y := main_v36) (by decide),
   wsub (y := main_v37) (by decide),
   wsub (y := main_v38) (by decide),
   wsub (y := main_v39) (by decide),
   wsub (y := main_v40) (by decide),
   wsub (y := main_v41) (by decide),
   wsub (y := main_v42) (by decide),
   wsub (y := main_v43) (by decide),
   wsub (y := main_v44) (by decide),
   wsub (y := main_v45) (by decide),
   wsub (y := main_v46) (by decide),
   wsub (y := main_v47) (by decide),
   wsub (y := main_v48) (by decide),
   wsub (y := main_v49) (by decide),
   wsub (y := main_v50) (by decide),
   wsub (y := main_v51) (by decide)⟩

/-- Each operation of this stretch writes its own result buffer, which is listed. -/
theorem hostOps0_5_wsub : (hostOps0_5 : List (HloOp τ sig (Elt F))).Forall fun op => op.writes ⊆ (Wpre.map (Proc.devRef (τ := τ) .tc)).toFinset :=
  ⟨wsub (y := main_call2_cst) (by decide),
   wsub (y := main_call2_v0) (by decide),
   wsub (y := main_v52) (by decide)⟩

/-- Each operation of this stretch writes its own result buffer, which is listed. -/
theorem hostOps0_6_wsub : (hostOps0_6 : List (HloOp τ sig (Elt F))).Forall fun op => op.writes ⊆ (Wpre.map (Proc.devRef (τ := τ) .tc)).toFinset :=
  ⟨wsub (y := main_v53) (by decide),
   wsub (y := main_v54) (by decide),
   wsub (y := main_v55) (by decide),
   wsub (y := main_v56) (by decide),
   wsub (y := main_v57) (by decide),
   wsub (y := main_v58) (by decide),
   wsub (y := main_v59) (by decide),
   wsub (y := main_v60) (by decide),
   wsub (y := main_v61) (by decide),
   wsub (y := main_v62) (by decide)⟩

/-- Each operation of this stretch writes its own result buffer, which is listed. -/
theorem hostOps0_7_wsub : (hostOps0_7 : List (HloOp τ sig (Elt F))).Forall fun op => op.writes ⊆ (Wpre.map (Proc.devRef (τ := τ) .tc)).toFinset :=
  ⟨wsub (y := main_call3_cst) (by decide),
   wsub (y := main_call3_v0) (by decide),
   wsub (y := main_v63) (by decide)⟩

/-- Each operation of this stretch writes its own result buffer, which is listed. -/
theorem hostOps0_8_wsub : (hostOps0_8 : List (HloOp τ sig (Elt F))).Forall fun op => op.writes ⊆ (Wpre.map (Proc.devRef (τ := τ) .tc)).toFinset :=
  ⟨wsub (y := main_v64) (by decide),
   wsub (y := main_v65) (by decide),
   wsub (y := main_v66) (by decide),
   wsub (y := main_v67) (by decide),
   wsub (y := main_v68) (by decide),
   wsub (y := main_v69) (by decide),
   wsub (y := main_cst_10) (by decide),
   wsub (y := main_v70) (by decide),
   wsub (y := main_v71) (by decide),
   wsub (y := main_cst_11) (by decide),
   wsub (y := main_v72) (by decide),
   wsub (y := main_v73) (by decide)⟩

/-- Every written buffer of the stretches before the region is listed. -/
theorem pre_wsub : ∀ ops ∈ (preOpss : List (List (HloOp τ sig (Elt F)))), ∀ op ∈ ops,
    op.writes ⊆ (Wpre.map (Proc.devRef (τ := τ) .tc)).toFinset := by
  intro ops hops op hop
  simp only [List.mem_cons, List.mem_nil_iff, or_false] at hops
  rcases hops with rfl | rfl | rfl | rfl | rfl | rfl | rfl | rfl | rfl
  · exact (List.forall_iff_forall_mem.mp hostOps0_wsub) op hop
  · exact (List.forall_iff_forall_mem.mp hostOps0_1_wsub) op hop
  · exact (List.forall_iff_forall_mem.mp hostOps0_2_wsub) op hop
  · exact (List.forall_iff_forall_mem.mp hostOps0_3_wsub) op hop
  · exact (List.forall_iff_forall_mem.mp hostOps0_4_wsub) op hop
  · exact (List.forall_iff_forall_mem.mp hostOps0_5_wsub) op hop
  · exact (List.forall_iff_forall_mem.mp hostOps0_6_wsub) op hop
  · exact (List.forall_iff_forall_mem.mp hostOps0_7_wsub) op hop
  · exact (List.forall_iff_forall_mem.mp hostOps0_8_wsub) op hop

/-- A buffer that is no result of an operation before the region is found by the region as launched. -/
theorem pre_keeps {r : Ref sig .tc} (hr : r ∉ Wpre) (c : Dev nD) : V m c r = m ((c : Thread nD τ).loc r) :=
  after_flatten_keeps hr _ _ pre_wsub

/-- No host operation before the region writes `main_arg0`: the region finds it as launched. -/
theorem V_main_arg0 (c : Dev nD) : V m c main_arg0 = m ((c : Thread nD τ).loc main_arg0) := pre_keeps m (by decide) c
/-- No host operation before the region writes `main_arg1`: the region finds it as launched. -/
theorem V_main_arg1 (c : Dev nD) : V m c main_arg1 = m ((c : Thread nD τ).loc main_arg1) := pre_keeps m (by decide) c
/-- No host operation before the region writes `main_arg2`: the region finds it as launched. -/
theorem V_main_arg2 (c : Dev nD) : V m c main_arg2 = m ((c : Thread nD τ).loc main_arg2) := pre_keeps m (by decide) c
/-- No host operation before the region writes `main_arg3`: the region finds it as launched. -/
theorem V_main_arg3 (c : Dev nD) : V m c main_arg3 = m ((c : Thread nD τ).loc main_arg3) := pre_keeps m (by decide) c
/-- No host operation before the region writes `main_arg4`: the region finds it as launched. -/
theorem V_main_arg4 (c : Dev nD) : V m c main_arg4 = m ((c : Thread nD τ).loc main_arg4) := pre_keeps m (by decide) c
/-- No host operation before the region writes `main_arg5`: the region finds it as launched. -/
theorem V_main_arg5 (c : Dev nD) : V m c main_arg5 = m ((c : Thread nD τ).loc main_arg5) := pre_keeps m (by decide) c
/-- No host operation before the region writes `main_arg6`: the region finds it as launched. -/
theorem V_main_arg6 (c : Dev nD) : V m c main_arg6 = m ((c : Thread nD τ).loc main_arg6) := pre_keeps m (by decide) c
/-- No host operation before the region writes `main_arg7`: the region finds it as launched. -/
theorem V_main_arg7 (c : Dev nD) : V m c main_arg7 = m ((c : Thread nD τ).loc main_arg7) := pre_keeps m (by decide) c
/-- No host operation before the region writes `main_arg8`: the region finds it as launched. -/
theorem V_main_arg8 (c : Dev nD) : V m c main_arg8 = m ((c : Thread nD τ).loc main_arg8) := pre_keeps m (by decide) c
/-- No host operation before the region writes `main_arg9`: the region finds it as launched. -/
theorem V_main_arg9 (c : Dev nD) : V m c main_arg9 = m ((c : Thread nD τ).loc main_arg9) := pre_keeps m (by decide) c
/-- No host operation before the region writes `main_arg10`: the region finds it as launched. -/
theorem V_main_arg10 (c : Dev nD) : V m c main_arg10 = m ((c : Thread nD τ).loc main_arg10) := pre_keeps m (by decide) c
/-- No host operation before the region writes `main_arg11`: the region finds it as launched. -/
theorem V_main_arg11 (c : Dev nD) : V m c main_arg11 = m ((c : Thread nD τ).loc main_arg11) := pre_keeps m (by decide) c
/-- No host operation before the region writes `main_arg12`: the region finds it as launched. -/
theorem V_main_arg12 (c : Dev nD) : V m c main_arg12 = m ((c : Thread nD τ).loc main_arg12) := pre_keeps m (by decide) c
/-- No host operation before the region writes `main_arg13`: the region finds it as launched. -/
theorem V_main_arg13 (c : Dev nD) : V m c main_arg13 = m ((c : Thread nD τ).loc main_arg13) := pre_keeps m (by decide) c
/-- No host operation before the region writes `main_arg14`: the region finds it as launched. -/
theorem V_main_arg14 (c : Dev nD) : V m c main_arg14 = m ((c : Thread nD τ).loc main_arg14) := pre_keeps m (by decide) c
/-- No host operation before the region writes `main_arg15`: the region finds it as launched. -/
theorem V_main_arg15 (c : Dev nD) : V m c main_arg15 = m ((c : Thread nD τ).loc main_arg15) := pre_keeps m (by decide) c
/-- No host operation before the region writes `main_arg16`: the region finds it as launched. -/
theorem V_main_arg16 (c : Dev nD) : V m c main_arg16 = m ((c : Thread nD τ).loc main_arg16) := pre_keeps m (by decide) c
/-- No host operation before the region writes `main_arg17`: the region finds it as launched. -/
theorem V_main_arg17 (c : Dev nD) : V m c main_arg17 = m ((c : Thread nD τ).loc main_arg17) := pre_keeps m (by decide) c
/-- No host operation before the region writes `main_arg18`: the region finds it as launched. -/
theorem V_main_arg18 (c : Dev nD) : V m c main_arg18 = m ((c : Thread nD τ).loc main_arg18) := pre_keeps m (by decide) c
/-- No host operation before the region writes `main_arg19`: the region finds it as launched. -/
theorem V_main_arg19 (c : Dev nD) : V m c main_arg19 = m ((c : Thread nD τ).loc main_arg19) := pre_keeps m (by decide) c
/-- No host operation before the region writes `main_arg20`: the region finds it as launched. -/
theorem V_main_arg20 (c : Dev nD) : V m c main_arg20 = m ((c : Thread nD τ).loc main_arg20) := pre_keeps m (by decide) c
/-- No host operation before the region writes `main_arg21`: the region finds it as launched. -/
theorem V_main_arg21 (c : Dev nD) : V m c main_arg21 = m ((c : Thread nD τ).loc main_arg21) := pre_keeps m (by decide) c
/-- No host operation before the region writes `main_arg22`: the region finds it as launched. -/
theorem V_main_arg22 (c : Dev nD) : V m c main_arg22 = m ((c : Thread nD τ).loc main_arg22) := pre_keeps m (by decide) c
/-- No host operation before the region writes `main_arg23`: the region finds it as launched. -/
theorem V_main_arg23 (c : Dev nD) : V m c main_arg23 = m ((c : Thread nD τ).loc main_arg23) := pre_keeps m (by decide) c

/-! ## The whole launch -/

/-- A buffer that no host operation writes and that is no array of the pipeline holds after the tail, started
    from the region's exit contents, what the launch gave it. -/
theorem rest_kept (dats : (p : Fin 1) → (c : Dev nD) → Dat τ (Elt F) Unit ℕ (UR sig nD τ) ℕ (cfgs p) c) (c : Dev nD)
    {b : Ref sig .tc} (hT : b ∉ Wtail) (hP : b ∉ Wpre) (ha : ∀ w, Pipeline.arrRef spec0 w ≠ b) :
    Pipeline.afterTail₀ cfgs dats 0 (V0 m) tailOpss c b = m ((c : Thread nD τ).loc b) :=
  (tail_keeps hT _).trans ((Pipeline.withArrays_of_ne _ c _ _ b ha).trans (pre_keeps m hP c))

/-- Every argument buffer ends as launched, in any final state of a frame run: window 0's array (an input) by the
    library's account of an array that is never written back, every other argument as a bypassing buffer that
    no host operation writes. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOpss) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  ⟨((h c).2 main_arg0 (Pipeline.mem_restRefs_of main_arg0 (by decide) (by decide))).trans (rest_kept m dats c (by decide) (by decide) (by decide)),
   ((h c).2 main_arg1 (Pipeline.mem_restRefs_of main_arg1 (by decide) (by decide))).trans (rest_kept m dats c (by decide) (by decide) (by decide)),
   ((h c).1 0).trans (((dats 0 c).arrAt_in 0 rfl _).trans ((hA c 0).trans (V_main_arg2 m c))),
   ((h c).2 main_arg3 (Pipeline.mem_restRefs_of main_arg3 (by decide) (by decide))).trans (rest_kept m dats c (by decide) (by decide) (by decide)),
   ((h c).2 main_arg4 (Pipeline.mem_restRefs_of main_arg4 (by decide) (by decide))).trans (rest_kept m dats c (by decide) (by decide) (by decide)),
   ((h c).2 main_arg5 (Pipeline.mem_restRefs_of main_arg5 (by decide) (by decide))).trans (rest_kept m dats c (by decide) (by decide) (by decide)),
   ((h c).2 main_arg6 (Pipeline.mem_restRefs_of main_arg6 (by decide) (by decide))).trans (rest_kept m dats c (by decide) (by decide) (by decide)),
   ((h c).2 main_arg7 (Pipeline.mem_restRefs_of main_arg7 (by decide) (by decide))).trans (rest_kept m dats c (by decide) (by decide) (by decide)),
   ((h c).2 main_arg8 (Pipeline.mem_restRefs_of main_arg8 (by decide) (by decide))).trans (rest_kept m dats c (by decide) (by decide) (by decide)),
   ((h c).2 main_arg9 (Pipeline.mem_restRefs_of main_arg9 (by decide) (by decide))).trans (rest_kept m dats c (by decide) (by decide) (by decide)),
   ((h c).2 main_arg10 (Pipeline.mem_restRefs_of main_arg10 (by decide) (by decide))).trans (rest_kept m dats c (by decide) (by decide) (by decide)),
   ((h c).2 main_arg11 (Pipeline.mem_restRefs_of main_arg11 (by decide) (by decide))).trans (rest_kept m dats c (by decide) (by decide) (by decide)),
   ((h c).2 main_arg12 (Pipeline.mem_restRefs_of main_arg12 (by decide) (by decide))).trans (rest_kept m dats c (by decide) (by decide) (by decide)),
   ((h c).2 main_arg13 (Pipeline.mem_restRefs_of main_arg13 (by decide) (by decide))).trans (rest_kept m dats c (by decide) (by decide) (by decide)),
   ((h c).2 main_arg14 (Pipeline.mem_restRefs_of main_arg14 (by decide) (by decide))).trans (rest_kept m dats c (by decide) (by decide) (by decide)),
   ((h c).2 main_arg15 (Pipeline.mem_restRefs_of main_arg15 (by decide) (by decide))).trans (rest_kept m dats c (by decide) (by decide) (by decide)),
   ((h c).2 main_arg16 (Pipeline.mem_restRefs_of main_arg16 (by decide) (by decide))).trans (rest_kept m dats c (by decide) (by decide) (by decide)),
   ((h c).2 main_arg17 (Pipeline.mem_restRefs_of main_arg17 (by decide) (by decide))).trans (rest_kept m dats c (by decide) (by decide) (by decide)),
   ((h c).2 main_arg18 (Pipeline.mem_restRefs_of main_arg18 (by decide) (by decide))).trans (rest_kept m dats c (by decide) (by decide) (by decide)),
   ((h c).2 main_arg19 (Pipeline.mem_restRefs_of main_arg19 (by decide) (by decide))).trans (rest_kept m dats c (by decide) (by decide) (by decide)),
   ((h c).2 main_arg20 (Pipeline.mem_restRefs_of main_arg20 (by decide) (by decide))).trans (rest_kept m dats c (by decide) (by decide) (by decide)),
   ((h c).2 main_arg21 (Pipeline.mem_restRefs_of main_arg21 (by decide) (by decide))).trans (rest_kept m dats c (by decide) (by decide) (by decide)),
   ((h c).2 main_arg22 (Pipeline.mem_restRefs_of main_arg22 (by decide) (by decide))).trans (rest_kept m dats c (by decide) (by decide) (by decide)),
   ((h c).2 main_arg23 (Pipeline.mem_restRefs_of main_arg23 (by decide) (by decide))).trans (rest_kept m dats c (by decide) (by decide) (by decide))⟩

/-- THE FRAME from a frame run: for any proof data whose arrays are the region-entry contents, a run to the library's
    frame post around the region is a run after which every argument buffer holds what it was launched with. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => args_kept m dats hA r h c) h

/-- The same run read at the program's result buffer as well: it is unscoped and no array of the pipeline, so it ends
    at what the tail computes from the region's exit contents. -/
theorem result_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_v173) = Pipeline.afterTail₀ cfgs dats 0 (V0 m) tailOpss c main_v173
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨(h c).2 main_v173 (Pipeline.mem_restRefs_of main_v173 (by decide) (by decide)),
    args_kept m dats hA r h c⟩) h

end Cert.KernelIdeal.Hand

end
-- ==== Proof.HandFrame.lean ====
/-
  The launch: @main runs its host operations before the region, the region at its 64 grid points (the body
  obligation at each), and the host operations after it. Every weakly fair execution terminates with each array
  of the pipeline at what the library computes from the proof data and every other unscoped buffer as the later
  operations leave it.
-/
import proofs.«125620_j10290741641936_1_alg».proof.Proof.BodyFrame
import proofs.«125620_j10290741641936_1_alg».proof.Proof.HandKit
import proofs.«125620_j10290741641936_1_alg».proof.Proof.HandTail
import proofs.«125620_j10290741641936_1_alg».proof.Proof.HandArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame run, with the output array's final contents named by the proof data. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hin := hin m) (hout := hout m)

end Cert.KernelIdeal.Hand

end
-- ==== Proof.HandBaseBits.lean ====
/-
  The contents of core c's TensorCore buffers when the one region of @main is entered: the launch contents
  after the nine stretches of host operations that precede it (two layer norms, the positional rows'
  gather, the first MLP on both node sets), as a fold; and the thirteen stretches that follow the region.
-/
import proofs.«125620_j10290741641936_1_alg».proof.Proof.Gen.Kernel.Launch
import Idealize.ShloMosaic.Lib.StableHlo.Run

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ)

/-- The stretches of host operations before the region, in order. -/
abbrev preOpss : List (List (HloOp τ sig (Elt F))) :=
  [hostOps0, hostOps0_1, hostOps0_2, hostOps0_3, hostOps0_4, hostOps0_5, hostOps0_6, hostOps0_7, hostOps0_8]

/-- The stretches of host operations after the region, in order. -/
abbrev tailOpss : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12]

/-- Core c's buffer contents when the region is entered, as a valuation. -/
abbrev V0 (c : Dev nD) : Valuation τ sig (Elt F) := StableHlo.after (List.flatten preOpss) (fun b => m (c, b))

/-- The same read at a TensorCore reference. -/
abbrev V (c : Dev nD) (b : Ref sig .tc) : Buf (Elt F) ((c : Thread nD τ).loc b) := V0 m c (Proc.devRef .tc b)

end Cert.Kernel.Hand

end
-- ==== Proof.BodyKitBits.lean ====
/-
  What the three cases of the kernel body share. The grid is 8 x 8: point t has row-block t / 8 and
  reduction step t % 8. The body zeroes its accumulator at step 0, adds one 1024 x 2048 by 2048 x 128
  product to it at every step, and copies it to the output block at step 7. Here: the two branch
  conditions in closed form over the grid, where the output window is idle and where it is written back,
  the blocks of the two input windows as the region finds them, and the staging and scratch memrefs the
  body is called with.
-/
import proofs.«125620_j10290741641936_1_alg».proof.Proof.HandBaseBits
import proofs.«125620_j10290741641936_1_alg».proof.Proof.Gen.Kernel.Skeleton
import proofs.«125620_j10290741641936_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point, fetched there or not, for any
    proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The reduction step is the first one (the accumulator is zeroed). -/
abbrev cond0_0 (i : grid0.Coords) : Prop := (Scalar.cmpi .ne (Scalar.extui (Scalar.cmpi .eq (BitVec.ofNat 32 (i 1).val) 0#32)) 0#32) = 1#1
/-- It holds exactly at the points whose step t % 8 is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The reduction step is the last one (the accumulator is copied out). -/
abbrev cond0_1 (i : grid0.Coords) : Prop := k0_cond2 i = 1#1
/-- It holds exactly at the points whose step t % 8 is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first step the output window is idle and its block is not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a middle step too. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a last step the body stores into the output window. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x128 .f32 := (Memref.whole cc0_stg2_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x128 .f32 := Memref.whole cc0_scratch0
abbrev VS0_0 : View sig .tc .vmem S1024x128 .f32 := scM0_0.view

/-- The region's class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.RunABits.lean ====
/-
  The kernel body at a FIRST reduction step (step 0 of a row-block): it overwrites the accumulator with zeros,
  then with zeros plus the product of the two input blocks, and stores nothing into the output block. Stated on
  any whole staging memrefs: the inputs at their contents, the output block handed back untouched, the
  accumulator found at anything and left with the pieces the body stored (found by running the body).
-/
import proofs.«125620_j10290741641936_1_alg».proof.Proof.BodyKitBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x2048 .f32) (x1 : Vec F S2048x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__incidence_matmul_kernel i arg2 harg2 arg3 harg3 arg4 harg4 arg5 harg5) K } := by
  refine ⟨[], ?_, fun xi2 E K => ?run⟩
  case run =>
    simp only [cc0__incidence_matmul_kernel_eq_skeleton]; unfold cc0__incidence_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RunBBits.lean ====
/-
  The kernel body at a MIDDLE reduction step (steps 1 to 6): it adds the product of the two input blocks to
  the accumulator, which it finds at what the step before left, and stores nothing into the output block.
-/
import proofs.«125620_j10290741641936_1_alg».proof.Proof.RunABits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__incidence_matmul_kernel i arg2 harg2 arg3 harg3 arg4 harg4 arg5 harg5) K } := by
  refine ⟨[], ?_, fun xi2 E K => ?run⟩
  case run =>
    simp only [cc0__incidence_matmul_kernel_eq_skeleton]; unfold cc0__incidence_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RunCBits.lean ====
/-
  The kernel body at a LAST reduction step (step 7): it adds the product of the two input blocks to the
  accumulator, which it finds at what the step before left, and copies the accumulator into the output block,
  which it finds at anything.
-/
import proofs.«125620_j10290741641936_1_alg».proof.Proof.RunBBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__incidence_matmul_kernel i arg2 harg2 arg3 harg3 arg4 harg4 arg5 harg5) K } := by
  refine ⟨?_, ?_, fun E K => ?run⟩
  case run =>
    simp only [cc0__incidence_matmul_kernel_eq_skeleton]; unfold cc0__incidence_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.BodyFrameBits.lean ====
/-
  What the output block's staging buffer and the accumulator hold after the body at each grid point, by
  recursion on the point: at a first step (t % 8 = 0) what the zero-then-add case leaves, at a later step
  what the add case leaves over the accumulator of the point before, the last step (t % 8 = 7) also copying
  the accumulator to the output block. Then the region's invariant (the accumulator at the contents the
  point before left), the proof data, and the body obligation at every point by cases on the step.
-/
import proofs.«125620_j10290741641936_1_alg».proof.Proof.RunCBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first step stores nothing into the output block: a placeholder nothing consults. -/
def out0_A_2 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x2048 .f32) (x1 : Vec F S2048x128 .f32) : Vec F S1024x128 .f32 :=
  VO0_2.read (Elt F) (VO0_2.writes (Elt F) VO0_2.junk (kernelRun0_A c i arg2 harg2 arg3 harg3 arg4 harg4 arg5 harg5 hc0 hc1 x0 x1).1)

/-- A first step's stores into the accumulator cover it. -/
theorem scover0_A_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x2048 .f32) (x1 : Vec F S2048x128 .f32) (y : S1024x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x128.size (by sl_kernel_rfl) y

/-- What a first step leaves in the accumulator. -/
def sout0_A_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x2048 .f32) (x1 : Vec F S2048x128 .f32) : Vec F S1024x128 .f32 :=
  VS0_0.read (Elt F) (VS0_0.writes (Elt F) VS0_0.junk (kernelRun0_A c i arg2 harg2 arg3 harg3 arg4 harg4 arg5 harg5 hc0 hc1 x0 x1).2.1)

/-- A middle step stores nothing into the output block either. -/
def out0_B_2 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x2048 .f32) (x1 : Vec F S2048x128 .f32) (xs0 : Vec F S1024x128 .f32) : Vec F S1024x128 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x2048 .f32) (x1 : Vec F S2048x128 .f32) (xs0 : Vec F S1024x128 .f32) (y : S1024x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x128.size (by sl_kernel_rfl) y

/-- What a middle step leaves in the accumulator. -/
def sout0_B_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x2048 .f32) (x1 : Vec F S2048x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 hc0 hc1 x0 x1 xs0).2.1)

/-- A last step's one store into the output block covers it. -/
theorem cover0_C_2 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) (y : S1024x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x128.size (by sl_kernel_rfl) y

/-- What a last step leaves in the output block's staging buffer. -/
def out0_C_2 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) : Vec F S1024x128 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) (y : S1024x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x128.size (by sl_kernel_rfl) y

/-- What a last step leaves in the accumulator. -/
def sout0_C_0 (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- What the output block's staging buffer (first component) and the accumulator (second) hold after the
    body at position n. -/
def outsAt0 (c : Dev nD) : (n : ℕ) → n < cfg0.N → Vec F S1024x128 .f32 × Vec F S1024x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- At a first step. -/
theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- At a middle step: over what the point before left in the accumulator. -/
theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step. -/
theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before the first point the class's invariant (the accumulator at anything); afterwards the accumulator at
    what the point before left and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body at point t each input's buffer at its block and the
    output's at the recursion's first component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by cases on the step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
  · have hz : t.val ≠ 0 := by intro h; rw [h] at h0; exact h0 (Nat.zero_mod _)
    by_cases h1 : t.val % 8 = 7
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.HandKitBits.lean ====
/-
  @main around its one region: the nine stretches of host operations before it allocate nothing and touch
  TensorCore buffers only, so @main reduces to the region, entered at the contents V, continued by the
  thirteen stretches after it.
-/
import proofs.«125620_j10290741641936_1_alg».proof.Proof.HandBaseBits
import Idealize.ShloMosaic.Lib.Pipeline.FrameSuffix

set_option maxRecDepth 4096

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg)

variable {F : FTy → Type} [FloatOps F]

variable (m : (ℓ : Loc nD τ sig) → Buf (Elt F) ℓ)

/-- No operation of this stretch allocates. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- No operation of this stretch allocates. -/
theorem hostOps0_1_fresh : (hostOps0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- No operation of this stretch allocates. -/
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- No operation of this stretch allocates. -/
theorem hostOps0_3_fresh : (hostOps0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- No operation of this stretch allocates. -/
theorem hostOps0_4_fresh : (hostOps0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- No operation of this stretch allocates. -/
theorem hostOps0_5_fresh : (hostOps0_5 : List (HloOp τ sig (Elt F))).Forall fun op => op.fresh = ∅ :=
  ⟨rfl, rfl, rfl⟩
/-- No operation of this stretch allocates. -/
theorem hostOps0_6_fresh : (hostOps0_6 : List (HloOp τ sig (Elt F))).Forall fun op => op.fresh = ∅ :=
  ⟨rfl, rfl, rfl, rfl, rfl, rfl, rfl, rfl, rfl, rfl⟩
/-- No operation of this stretch allocates. -/
theorem hostOps0_7_fresh : (hostOps0_7 : List (HloOp τ sig (Elt F))).Forall fun op => op.fresh = ∅ :=
  ⟨rfl, rfl, rfl⟩
/-- No operation of this stretch allocates. -/
theorem hostOps0_8_fresh : (hostOps0_8 : List (HloOp τ sig (Elt F))).Forall fun op => op.fresh = ∅ :=
  ⟨rfl, rfl, rfl, rfl, rfl, rfl, rfl, rfl, rfl, rfl, rfl, rfl⟩

/-- @main around the region, at any variants: the host operations before it, the region, the host operations after
    it. It reduces to the region continued by the later operations, entered at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOpss.map StableHlo.seq)) :=
  Pipeline.hmain_around cfgs 0 defs₀ 𝒱₀ m main preOpss tailOpss
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

end Cert.Kernel.Hand

end
-- ==== Proof.HandTailBits.lean ====
/-
  The thirteen stretches of host operations that follow the region: each operation touches unscoped TensorCore
  buffers only, allocates nothing, and writes exactly one buffer, its result. The results are listed once
  (Wtail); a buffer outside that list is left alone by the whole tail, and no array of the pipeline is in it.
-/
import proofs.«125620_j10290741641936_1_alg».proof.Proof.HandBaseBits
import Idealize.ShloMosaic.Lib.Pipeline.FrameSuffix

set_option maxRecDepth 4096

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg)

variable {F : FTy → Type} [FloatOps F]

/-! ## One written buffer per operation -/

/-- A result buffer that is listed in W lies in W read as a set of device buffers. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- An operation whose written buffers are all listed in W writes no buffer outside W. -/
theorem not_writes_of_wsub {W : List (Ref sig .tc)} {r : Ref sig .tc} (hr : r ∉ W) {op : HloOp τ sig (Elt F)}
    (h : op.writes ⊆ (W.map (Proc.devRef (τ := τ) .tc)).toFinset) : Proc.devRef .tc r ∉ op.writes := fun hb => by
  obtain ⟨y, hy, he⟩ := List.mem_map.mp (List.mem_toFinset.mp (h hb))
  exact hr (Proc.devRef_injective _ he ▸ hy)

/-- Stretches all of whose written buffers are listed in W leave a buffer outside W as it was. -/
theorem after_flatten_keeps {W : List (Ref sig .tc)} {r : Ref sig .tc} (hr : r ∉ W)
    (opss : List (List (HloOp τ sig (Elt F)))) (V : Valuation τ sig (Elt F))
    (h : ∀ ops ∈ opss, ∀ op ∈ ops, op.writes ⊆ (W.map (Proc.devRef (τ := τ) .tc)).toFinset) :
    StableHlo.after opss.flatten V (Proc.devRef .tc r) = V (Proc.devRef .tc r) :=
  StableHlo.after_of_forall_not_mem _ _ fun op hop => by
    obtain ⟨ops, hops, hop'⟩ := List.mem_flatten.mp hop
    exact not_writes_of_wsub hr (h ops hops op hop')

/-- The buffers the operations after the region write, in program order: one per operation. -/
abbrev Wtail : List (Ref sig .tc) :=
  [
    main_v75, main_v76, main_cst_12, main_v77, main_v78, main_v79, main_v80, main_cst_13,
    main_v81, main_v82, main_cst_14, main_v83, main_v84, main_c_15, main_call4_cst, main_call4_v0,
    main_call4_v1, main_call4_cst_0, main_call4_v2, main_call4_v3, main_call4_v4, main_call4_v5, main_call4_v6, main_call4_v7,
    main_call4_cst_1, main_call4_v8, main_call4_cst_2, main_call4_v9, main_call4_v10, main_call4_v11, main_call4_v12, main_call4_cst_3,
    main_call4_v13, main_call4_cst_4, main_call4_call0_v0, main_call4_call0_v1, main_v85, main_v86, main_v87, main_cst_16,
    main_v88, main_v89, main_v90, main_v91, main_v92, main_v93, main_v94, main_v95,
    main_v96, main_cst_17, main_v97, main_v98, main_cst_18, main_v99, main_v100, main_c_19,
    main_call5_cst, main_call5_v0, main_call5_v1, main_call5_cst_0, main_call5_v2, main_call5_v3, main_call5_v4, main_call5_v5,
    main_call5_v6, main_call5_v7, main_call5_cst_1, main_call5_v8, main_call5_cst_2, main_call5_v9, main_call5_v10, main_call5_v11,
    main_call5_v12, main_call5_cst_3, main_call5_v13, main_call5_cst_4, main_call5_call0_v0, main_call5_call0_v1, main_v101, main_v102,
    main_v103, main_cst_20, main_v104, main_v105, main_v106, main_v107, main_v108, main_v109,
    main_v110, main_v111, main_v112, main_v113, main_v114, main_v115, main_v116, main_v117,
    main_v118, main_v119, main_v120, main_v121, main_call6_cst, main_call6_v0, main_v122, main_v123,
    main_v124, main_v125, main_v126, main_v127, main_v128, main_v129, main_v130, main_v131,
    main_v132, main_v133, main_v134, main_v135, main_call7_cst, main_call7_v0, main_v136, main_v137,
    main_v138, main_v139, main_v140, main_v141, main_v142, main_v143, main_cst_21, main_v144,
    main_v145, main_cst_22, main_v146, main_v147, main_c_23, main_call8_cst, main_call8_v0, main_call8_v1,
    main_call8_cst_0, main_call8_v2, main_call8_v3, main_call8_v4, main_call8_v5, main_call8_v6, main_call8_v7, main_call8_cst_1,
    main_call8_v8, main_call8_cst_2, main_call8_v9, main_call8_v10, main_call8_v11, main_call8_v12, main_call8_cst_3, main_call8_v13,
    main_call8_cst_4, main_call8_call0_v0, main_call8_call0_v1, main_v148, main_v149, main_v150, main_cst_24, main_v151,
    main_v152, main_v153, main_v154, main_v155, main_v156, main_v157, main_v158, main_v159,
    main_v160, main_v161, main_v162, main_v163, main_v164, main_v165, main_call9_cst, main_call9_v0,
    main_v166, main_v167, main_v168, main_v169, main_v170, main_v171, main_v172, main_v173 ]

/-- Each operation of this stretch writes its own result buffer, which is listed. -/
theorem hostOps1_wsub : (hostOps1 : List (HloOp τ sig (Elt F))).Forall fun op => op.writes ⊆ (Wtail.map (Proc.devRef (τ := τ) .tc)).toFinset :=
  ⟨wsub (y := main_v75) (by decide),
   wsub (y := main_v76) (by decide),
   wsub (y := main_cst_12) (by decide),
   wsub (y := main_v77) (by decide),
   wsub (y := main_v78) (by decide),
   wsub (y := main_v79) (by decide),
   wsub (y := main_v80) (by decide),
   wsub (y := main_cst_13) (by decide),
   wsub (y := main_v81) (by decide),
   wsub (y := main_v82) (by decide),
   wsub (y := main_cst_14) (by decide),
   wsub (y := main_v83) (by decide),
   wsub (y := main_v84) (by decide),
   wsub (y := main_c_15) (by decide)⟩
/-- None allocates. -/
theorem hostOps1_fresh : (hostOps1 : List (HloOp τ sig (Elt F))).Forall fun op => op.fresh = ∅ :=
  ⟨rfl, rfl, rfl, rfl, rfl, rfl, rfl, rfl, rfl, rfl, rfl, rfl, rfl, rfl⟩

/-- Each operation of this stretch writes its own result buffer, which is listed. -/
theorem hostOps1_1_wsub : (hostOps1_1 : List (HloOp τ sig (Elt F))).Forall fun op => op.writes ⊆ (Wtail.map (Proc.devRef (τ := τ) .tc)).toFinset :=
  ⟨wsub (y := main_call4_cst) (by decide),
   wsub (y := main_call4_v0) (by decide),
   wsub (y := main_call4_v1) (by decide),
   wsub (y := main_call4_cst_0) (by decide),
   wsub (y := main_call4_v2) (by decide),
   wsub (y := main_call4_v3) (by decide),
   wsub (y := main_call4_v4) (by decide),
   wsub (y := main_call4_v5) (by decide),
   wsub (y := main_call4_v6) (by decide),
   wsub (y := main_call4_v7) (by decide),
   wsub (y := main_call4_cst_1) (by decide),
   wsub (y := main_call4_v8) (by decide),
   wsub (y := main_call4_cst_2) (by decide),
   wsub (y := main_call4_v9) (by decide),
   wsub (y := main_call4_v10) (by decide),
   wsub (y := main_call4_v11) (by decide),
   wsub (y := main_call4_v12) (by decide),
   wsub (y := main_call4_cst_3) (by decide),
   wsub (y := main_call4_v13) (by decide),
   wsub (y := main_call4_cst_4) (by decide),
   wsub (y := main_call4_call0_v0) (by decide),
   wsub (y := main_call4_call0_v1) (by decide),
   wsub (y := main_v85) (by decide)⟩
/-- None allocates. -/
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of this stretch writes its own result buffer, which is listed. -/
theorem hostOps1_2_wsub : (hostOps1_2 : List (HloOp τ sig (Elt F))).Forall fun op => op.writes ⊆ (Wtail.map (Proc.devRef (τ := τ) .tc)).toFinset :=
  ⟨wsub (y := main_v86) (by decide),
   wsub (y := main_v87) (by decide),
   wsub (y := main_cst_16) (by decide),
   wsub (y := main_v88) (by decide),
   wsub (y := main_v89) (by decide),
   wsub (y := main_v90) (by decide),
   wsub (y := main_v91) (by decide),
   wsub (y := main_v92) (by decide),
   wsub (y := main_v93) (by decide),
   wsub (y := main_v94) (by decide),
   wsub (y := main_v95) (by decide),
   wsub (y := main_v96) (by decide),
   wsub (y := main_cst_17) (by decide),
   wsub (y := main_v97) (by decide),
   wsub (y := main_v98) (by decide),
   wsub (y := main_cst_18) (by decide),
   wsub (y := main_v99) (by decide),
   wsub (y := main_v100) (by decide),
   wsub (y := main_c_19) (by decide)⟩
/-- None allocates. -/
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Each operation of this stretch writes its own result buffer, which is listed. -/
theorem hostOps1_3_wsub : (hostOps1_3 : List (HloOp τ sig (Elt F))).Forall fun op => op.writes ⊆ (Wtail.map (Proc.devRef (τ := τ) .tc)).toFinset :=
  ⟨wsub (y := main_call5_cst) (by decide),
   wsub (y := main_call5_v0) (by decide),
   wsub (y := main_call5_v1) (by decide),
   wsub (y := main_call5_cst_0) (by decide),
   wsub (y := main_call5_v2) (by decide),
   wsub (y := main_call5_v3) (by decide),
   wsub (y := main_call5_v4) (by decide),
   wsub (y := main_call5_v5) (by decide),
   wsub (y := main_call5_v6) (by decide),
   wsub (y := main_call5_v7) (by decide),
   wsub (y := main_call5_cst_1) (by decide),
   wsub (y := main_call5_v8) (by decide),
   wsub (y := main_call5_cst_2) (by decide),
   wsub (y := main_call5_v9) (by decide),
   wsub (y := main_call5_v10) (by decide),
   wsub (y := main_call5_v11) (by decide),
   wsub (y := main_call5_v12) (by decide),
   wsub (y := main_call5_cst_3) (by decide),
   wsub (y := main_call5_v13) (by decide),
   wsub (y := main_call5_cst_4) (by decide),
   wsub (y := main_call5_call0_v0) (by decide),
   wsub (y := main_call5_call0_v1) (by decide),
   wsub (y := main_v101) (by decide)⟩
/-- None allocates. -/
theorem hostOps1_3_fresh : (hostOps1_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of this stretch writes its own result buffer, which is listed. -/
theorem hostOps1_4_wsub : (hostOps1_4 : List (HloOp τ sig (Elt F))).Forall fun op => op.writes ⊆ (Wtail.map (Proc.devRef (τ := τ) .tc)).toFinset :=
  ⟨wsub (y := main_v102) (by decide),
   wsub (y := main_v103) (by decide),
   wsub (y := main_cst_20) (by decide),
   wsub (y := main_v104) (by decide),
   wsub (y := main_v105) (by decide),
   wsub (y := main_v106) (by decide),
   wsub (y := main_v107) (by decide),
   wsub (y := main_v108) (by decide),
   wsub (y := main_v109) (by decide),
   wsub (y := main_v110) (by decide),
   wsub (y := main_v111) (by decide),
   wsub (y := main_v112) (by decide),
   wsub (y := main_v113) (by decide),
   wsub (y := main_v114) (by decide),
   wsub (y := main_v115) (by decide),
   wsub (y := main_v116) (by decide),
   wsub (y := main_v117) (by decide),
   wsub (y := main_v118) (by decide),
   wsub (y := main_v119) (by decide),
   wsub (y := main_v120) (by decide),
   wsub (y := main_v121) (by decide)⟩
/-- None allocates. -/
theorem hostOps1_4_fresh : (hostOps1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Each operation of this stretch writes its own result buffer, which is listed. -/
theorem hostOps1_5_wsub : (hostOps1_5 : List (HloOp τ sig (Elt F))).Forall fun op => op.writes ⊆ (Wtail.map (Proc.devRef (τ := τ) .tc)).toFinset :=
  ⟨wsub (y := main_call6_cst) (by decide),
   wsub (y := main_call6_v0) (by decide),
   wsub (y := main_v122) (by decide)⟩
/-- None allocates. -/
theorem hostOps1_5_fresh : (hostOps1_5 : List (HloOp τ sig (Elt F))).Forall fun op => op.fresh = ∅ :=
  ⟨rfl, rfl, rfl⟩

/-- Each operation of this stretch writes its own result buffer, which is listed. -/
theorem hostOps1_6_wsub : (hostOps1_6 : List (HloOp τ sig (Elt F))).Forall fun op => op.writes ⊆ (Wtail.map (Proc.devRef (τ := τ) .tc)).toFinset :=
  ⟨wsub (y := main_v123) (by decide),
   wsub (y := main_v124) (by decide),
   wsub (y := main_v125) (by decide),
   wsub (y := main_v126) (by decide),
   wsub (y := main_v127) (by decide),
   wsub (y := main_v128) (by decide),
   wsub (y := main_v129) (by decide),
   wsub (y := main_v130) (by decide),
   wsub (y := main_v131) (by decide),
   wsub (y := main_v132) (by decide),
   wsub (y := main_v133) (by decide),
   wsub (y := main_v134) (by decide),
   wsub (y := main_v135) (by decide)⟩
/-- None allocates. -/
theorem hostOps1_6_fresh : (hostOps1_6 : List (HloOp τ sig (Elt F))).Forall fun op => op.fresh = ∅ :=
  ⟨rfl, rfl, rfl, rfl, rfl, rfl, rfl, rfl, rfl, rfl, rfl, rfl, rfl⟩

/-- Each operation of this stretch writes its own result buffer, which is listed. -/
theorem hostOps1_7_wsub : (hostOps1_7 : List (HloOp τ sig (Elt F))).Forall fun op => op.writes ⊆ (Wtail.map (Proc.devRef (τ := τ) .tc)).toFinset :=
  ⟨wsub (y := main_call7_cst) (by decide),
   wsub (y := main_call7_v0) (by decide),
   wsub (y := main_v136) (by decide)⟩
/-- None allocates. -/
theorem hostOps1_7_fresh : (hostOps1_7 : List (HloOp τ sig (Elt F))).Forall fun op => op.fresh = ∅ :=
  ⟨rfl, rfl, rfl⟩

/-- Each operation of this stretch writes its own result buffer, which is listed. -/
theorem hostOps1_8_wsub : (hostOps1_8 : List (HloOp τ sig (Elt F))).Forall fun op => op.writes ⊆ (Wtail.map (Proc.devRef (τ := τ) .tc)).toFinset :=
  ⟨wsub (y := main_v137) (by decide),
   wsub (y := main_v138) (by decide),
   wsub (y := main_v139) (by decide),
   wsub (y := main_v140) (by decide),
   wsub (y := main_v141) (by decide),
   wsub (y := main_v142) (by decide),
   wsub (y := main_v143) (by decide),
   wsub (y := main_cst_21) (by decide),
   wsub (y := main_v144) (by decide),
   wsub (y := main_v145) (by decide),
   wsub (y := main_cst_22) (by decide),
   wsub (y := main_v146) (by decide),
   wsub (y := main_v147) (by decide),
   wsub (y := main_c_23) (by decide)⟩
/-- None allocates. -/
theorem hostOps1_8_fresh : (hostOps1_8 : List (HloOp τ sig (Elt F))).Forall fun op => op.fresh = ∅ :=
  ⟨rfl, rfl, rfl, rfl, rfl, rfl, rfl, rfl, rfl, rfl, rfl, rfl, rfl, rfl⟩

/-- Each operation of this stretch writes its own result buffer, which is listed. -/
theorem hostOps1_9_wsub : (hostOps1_9 : List (HloOp τ sig (Elt F))).Forall fun op => op.writes ⊆ (Wtail.map (Proc.devRef (τ := τ) .tc)).toFinset :=
  ⟨wsub (y := main_call8_cst) (by decide),
   wsub (y := main_call8_v0) (by decide),
   wsub (y := main_call8_v1) (by decide),
   wsub (y := main_call8_cst_0) (by decide),
   wsub (y := main_call8_v2) (by decide),
   wsub (y := main_call8_v3) (by decide),
   wsub (y := main_call8_v4) (by decide),
   wsub (y := main_call8_v5) (by decide),
   wsub (y := main_call8_v6) (by decide),
   wsub (y := main_call8_v7) (by decide),
   wsub (y := main_call8_cst_1) (by decide),
   wsub (y := main_call8_v8) (by decide),
   wsub (y := main_call8_cst_2) (by decide),
   wsub (y := main_call8_v9) (by decide),
   wsub (y := main_call8_v10) (by decide),
   wsub (y := main_call8_v11) (by decide),
   wsub (y := main_call8_v12) (by decide),
   wsub (y := main_call8_cst_3) (by decide),
   wsub (y := main_call8_v13) (by decide),
   wsub (y := main_call8_cst_4) (by decide),
   wsub (y := main_call8_call0_v0) (by decide),
   wsub (y := main_call8_call0_v1) (by decide),
   wsub (y := main_v148) (by decide)⟩
/-- None allocates. -/
theorem hostOps1_9_fresh : (hostOps1_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Each operation of this stretch writes its own result buffer, which is listed. -/
theorem hostOps1_10_wsub : (hostOps1_10 : List (HloOp τ sig (Elt F))).Forall fun op => op.writes ⊆ (Wtail.map (Proc.devRef (τ := τ) .tc)).toFinset :=
  ⟨wsub (y := main_v149) (by decide),
   wsub (y := main_v150) (by decide),
   wsub (y := main_cst_24) (by decide),
   wsub (y := main_v151) (by decide),
   wsub (y := main_v152) (by decide),
   wsub (y := main_v153) (by decide),
   wsub (y := main_v154) (by decide),
   wsub (y := main_v155) (by decide),
   wsub (y := main_v156) (by decide),
   wsub (y := main_v157) (by decide),
   wsub (y := main_v158) (by decide),
   wsub (y := main_v159) (by decide),
   wsub (y := main_v160) (by decide),
   wsub (y := main_v161) (by decide),
   wsub (y := main_v162) (by decide),
   wsub (y := main_v163) (by decide),
   wsub (y := main_v164) (by decide),
   wsub (y := main_v165) (by decide)⟩
/-- None allocates. -/
theorem hostOps1_10_fresh : (hostOps1_10 : List (HloOp τ sig (Elt F))).Forall fun op => op.fresh = ∅ :=
  ⟨rfl, rfl, rfl, rfl, rfl, rfl, rfl, rfl, rfl, rfl, rfl, rfl, rfl, rfl, rfl, rfl, rfl, rfl⟩

/-- Each operation of this stretch writes its own result buffer, which is listed. -/
theorem hostOps1_11_wsub : (hostOps1_11 : List (HloOp τ sig (Elt F))).Forall fun op => op.writes ⊆ (Wtail.map (Proc.devRef (τ := τ) .tc)).toFinset :=
  ⟨wsub (y := main_call9_cst) (by decide),
   wsub (y := main_call9_v0) (by decide),
   wsub (y := main_v166) (by decide)⟩
/-- None allocates. -/
theorem hostOps1_11_fresh : (hostOps1_11 : List (HloOp τ sig (Elt F))).Forall fun op => op.fresh = ∅ :=
  ⟨rfl, rfl, rfl⟩

/-- Each operation of this stretch writes its own result buffer, which is listed. -/
theorem hostOps1_12_wsub : (hostOps1_12 : List (HloOp τ sig (Elt F))).Forall fun op => op.writes ⊆ (Wtail.map (Proc.devRef (τ := τ) .tc)).toFinset :=
  ⟨wsub (y := main_v167) (by decide),
   wsub (y := main_v168) (by decide),
   wsub (y := main_v169) (by decide),
   wsub (y := main_v170) (by decide),
   wsub (y := main_v171) (by decide),
   wsub (y := main_v172) (by decide),
   wsub (y := main_v173) (by decide)⟩
/-- None allocates. -/
theorem hostOps1_12_fresh : (hostOps1_12 : List (HloOp τ sig (Elt F))).Forall fun op => op.fresh = ∅ :=
  ⟨rfl, rfl, rfl, rfl, rfl, rfl, rfl⟩

/-! ## The three side conditions of the launch theorem on the tail -/

/-- Every written buffer of the tail is listed. -/
theorem tail_wsub : ∀ ops ∈ (tailOpss : List (List (HloOp τ sig (Elt F)))), ∀ op ∈ ops,
    op.writes ⊆ (Wtail.map (Proc.devRef (τ := τ) .tc)).toFinset := by
  intro ops hops op hop
  simp only [List.mem_cons, List.mem_nil_iff, or_false] at hops
  rcases hops with rfl | rfl | rfl | rfl | rfl | rfl | rfl | rfl | rfl | rfl | rfl | rfl | rfl
  · exact (List.forall_iff_forall_mem.mp hostOps1_wsub) op hop
  · exact (List.forall_iff_forall_mem.mp hostOps1_1_wsub) op hop
  · exact (List.forall_iff_forall_mem.mp hostOps1_2_wsub) op hop
  · exact (List.forall_iff_forall_mem.mp hostOps1_3_wsub) op hop
  · exact (List.forall_iff_forall_mem.mp hostOps1_4_wsub) op hop
  · exact (List.forall_iff_forall_mem.mp hostOps1_5_wsub) op hop
  · exact (List.forall_iff_forall_mem.mp hostOps1_6_wsub) op hop
  · exact (List.forall_iff_forall_mem.mp hostOps1_7_wsub) op hop
  · exact (List.forall_iff_forall_mem.mp hostOps1_8_wsub) op hop
  · exact (List.forall_iff_forall_mem.mp hostOps1_9_wsub) op hop
  · exact (List.forall_iff_forall_mem.mp hostOps1_10_wsub) op hop
  · exact (List.forall_iff_forall_mem.mp hostOps1_11_wsub) op hop
  · exact (List.forall_iff_forall_mem.mp hostOps1_12_wsub) op hop

/-- The operations after the region touch the pipeline's arrays and the bypassing buffers only: each operation's
    buffers are unscoped TensorCore references, and with nothing prefetched every such reference is one or the other. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)

/-- They allocate nothing. -/
theorem sfx_fresh : ∀ ops ∈ (tailOpss : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop

/-- No array of the pipeline is a result of the tail. -/
theorem arr_not_mem_Wtail : ∀ w, Pipeline.arrRef spec0 w ∉ Wtail := by decide

/-- And they write no array of the pipeline: each writes only its own result buffer, which is no array. -/
theorem sfx_keeps : ∀ ops ∈ (tailOpss : List (List (HloOp τ sig (Elt F)))), ∀ op ∈ ops,
    ∀ w, Proc.devRef .tc (Pipeline.arrRef spec0 w) ∉ op.writes :=
  fun ops hops op hop w => not_writes_of_wsub (arr_not_mem_Wtail w) (tail_wsub ops hops op hop)

/-- A buffer that is no result of the tail holds after it what it held before. -/
theorem tail_keeps {r : Ref sig .tc} (hr : r ∉ Wtail) (V : Valuation τ sig (Elt F)) :
    StableHlo.after (tailOpss : List (List (HloOp τ sig (Elt F)))).flatten V (Proc.devRef .tc r) = V (Proc.devRef .tc r) :=
  after_flatten_keeps hr _ V tail_wsub

end Cert.Kernel.Hand

end
-- ==== Proof.HandArgsBits.lean ====
/-
  What the launch leaves in the program's argument buffers. No host operation, before the
  region or after it, writes an argument: each writes one buffer, its result, and the results are listed (Wpre,
  Wtail). The region itself changes only its output window's array; the one argument it stages (window 0, an
  input) is never written back. So every argument ends as launched.
-/
import proofs.«125620_j10290741641936_1_alg».proof.Proof.HandBaseBits
import proofs.«125620_j10290741641936_1_alg».proof.Proof.HandTailBits
import Idealize.ShloMosaic.Lib.Pipeline.FrameSuffix

set_option maxRecDepth 4096

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg)

variable {F : FTy → Type} [FloatOps F]

variable (m : (ℓ : Loc nD τ sig) → Buf (Elt F) ℓ) (ρ : Dev nD → PrngReg)

/-! ## The operations before the region -/

/-- The buffers the operations before the region write, in program order: one per operation. -/
abbrev Wpre : List (Ref sig .tc) :=
  [
    main_cst, main_cst_0, main_v0, main_v1, main_v2, main_c, main_v3, main_v4,
    main_c_1, main_v5, main_v6, main_v7, main_v8, main_v9, main_cst_2, main_v10,
    main_v11, main_cst_3, main_v12, main_v13, main_c_4, main_call0_cst, main_call0_v0, main_call0_v1,
    main_call0_cst_0, main_call0_v2, main_call0_v3, main_call0_v4, main_call0_v5, main_call0_v6, main_call0_v7, main_call0_cst_1,
    main_call0_v8, main_call0_cst_2, main_call0_v9, main_call0_v10, main_call0_v11, main_call0_v12, main_call0_cst_3, main_call0_v13,
    main_call0_cst_4, main_call0_call0_v0, main_call0_call0_v1, main_v14, main_v15, main_v16, main_cst_5, main_v17,
    main_v18, main_v19, main_v20, main_v21, main_v22, main_v23, main_v24, main_v25,
    main_v26, main_v27, main_cst_6, main_v28, main_v29, main_cst_7, main_v30, main_v31,
    main_c_8, main_call1_cst, main_call1_v0, main_call1_v1, main_call1_cst_0, main_call1_v2, main_call1_v3, main_call1_v4,
    main_call1_v5, main_call1_v6, main_call1_v7, main_call1_cst_1, main_call1_v8, main_call1_cst_2, main_call1_v9, main_call1_v10,
    main_call1_v11, main_call1_v12, main_call1_cst_3, main_call1_v13, main_call1_cst_4, main_call1_call0_v0, main_call1_call0_v1, main_v32,
    main_v33, main_v34, main_cst_9, main_v35, main_v36, main_v37, main_v38, main_v39,
    main_v40, main_v41, main_v42, main_v43, main_v44, main_v45, main_v46, main_v47,
    main_v48, main_v49, main_v50, main_v51, main_call2_cst, main_call2_v0, main_v52, main_v53,
    main_v54, main_v55, main_v56, main_v57, main_v58, main_v59, main_v60, main_v61,
    main_v62, main_call3_cst, main_call3_v0, main_v63, main_v64, main_v65, main_v66, main_v67,
    main_v68, main_v69, main_cst_10, main_v70, main_v71, main_cst_11, main_v72, main_v73 ]

/-- Each operation of this stretch writes its own result buffer, which is listed. -/
theorem hostOps0_wsub : (hostOps0 : List (HloOp τ sig (Elt F))).Forall fun op => op.writes ⊆ (Wpre.map (Proc.devRef (τ := τ) .tc)).toFinset :=
  ⟨wsub (y := main_cst) (by decide),
   wsub (y := main_cst_0) (by decide),
   wsub (y := main_v0) (by decide),
   wsub (y := main_v1) (by decide),
   wsub (y := main_v2) (by decide),
   wsub (y := main_c) (by decide),
   wsub (y := main_v3) (by decide),
   wsub (y := main_v4) (by decide),
   wsub (y := main_c_1) (by decide),
   wsub (y := main_v5) (by decide),
   wsub (y := main_v6) (by decide),
   wsub (y := main_v7) (by decide),
   wsub (y := main_v8) (by decide),
   wsub (y := main_v9) (by decide),
   wsub (y := main_cst_2) (by decide),
   wsub (y := main_v10) (by decide),
   wsub (y := main_v11) (by decide),
   wsub (y := main_cst_3) (by decide),
   wsub (y := main_v12) (by decide),
   wsub (y := main_v13) (by decide),
   wsub (y := main_c_4) (by decide)⟩

/-- Each operation of this stretch writes its own result buffer, which is listed. -/
theorem hostOps0_1_wsub : (hostOps0_1 : List (HloOp τ sig (Elt F))).Forall fun op => op.writes ⊆ (Wpre.map (Proc.devRef (τ := τ) .tc)).toFinset :=
  ⟨wsub (y := main_call0_cst) (by decide),
   wsub (y := main_call0_v0) (by decide),
   wsub (y := main_call0_v1) (by decide),
   wsub (y := main_call0_cst_0) (by decide),
   wsub (y := main_call0_v2) (by decide),
   wsub (y := main_call0_v3) (by decide),
   wsub (y := main_call0_v4) (by decide),
   wsub (y := main_call0_v5) (by decide),
   wsub (y := main_call0_v6) (by decide),
   wsub (y := main_call0_v7) (by decide),
   wsub (y := main_call0_cst_1) (by decide),
   wsub (y := main_call0_v8) (by decide),
   wsub (y := main_call0_cst_2) (by decide),
   wsub (y := main_call0_v9) (by decide),
   wsub (y := main_call0_v10) (by decide),
   wsub (y := main_call0_v11) (by decide),
   wsub (y := main_call0_v12) (by decide),
   wsub (y := main_call0_cst_3) (by decide),
   wsub (y := main_call0_v13) (by decide),
   wsub (y := main_call0_cst_4) (by decide),
   wsub (y := main_call0_call0_v0) (by decide),
   wsub (y := main_call0_call0_v1) (by decide),
   wsub (y := main_v14) (by decide)⟩

/-- Each operation of this stretch writes its own result buffer, which is listed. -/
theorem hostOps0_2_wsub : (hostOps0_2 : List (HloOp τ sig (Elt F))).Forall fun op => op.writes ⊆ (Wpre.map (Proc.devRef (τ := τ) .tc)).toFinset :=
  ⟨wsub (y := main_v15) (by decide),
   wsub (y := main_v16) (by decide),
   wsub (y := main_cst_5) (by decide),
   wsub (y := main_v17) (by decide),
   wsub (y := main_v18) (by decide),
   wsub (y := main_v19) (by decide),
   wsub (y := main_v20) (by decide),
   wsub (y := main_v21) (by decide),
   wsub (y := main_v22) (by decide),
   wsub (y := main_v23) (by decide),
   wsub (y := main_v24) (by decide),
   wsub (y := main_v25) (by decide),
   wsub (y := main_v26) (by decide),
   wsub (y := main_v27) (by decide),
   wsub (y := main_cst_6) (by decide),
   wsub (y := main_v28) (by decide),
   wsub (y := main_v29) (by decide),
   wsub (y := main_cst_7) (by decide),
   wsub (y := main_v30) (by decide),
   wsub (y := main_v31) (by decide),
   wsub (y := main_c_8) (by decide)⟩

/-- Each operation of this stretch writes its own result buffer, which is listed. -/
theorem hostOps0_3_wsub : (hostOps0_3 : List (HloOp τ sig (Elt F))).Forall fun op => op.writes ⊆ (Wpre.map (Proc.devRef (τ := τ) .tc)).toFinset :=
  ⟨wsub (y := main_call1_cst) (by decide),
   wsub (y := main_call1_v0) (by decide),
   wsub (y := main_call1_v1) (by decide),
   wsub (y := main_call1_cst_0) (by decide),
   wsub (y := main_call1_v2) (by decide),
   wsub (y := main_call1_v3) (by decide),
   wsub (y := main_call1_v4) (by decide),
   wsub (y := main_call1_v5) (by decide),
   wsub (y := main_call1_v6) (by decide),
   wsub (y := main_call1_v7) (by decide),
   wsub (y := main_call1_cst_1) (by decide),
   wsub (y := main_call1_v8) (by decide),
   wsub (y := main_call1_cst_2) (by decide),
   wsub (y := main_call1_v9) (by decide),
   wsub (y := main_call1_v10) (by decide),
   wsub (y := main_call1_v11) (by decide),
   wsub (y := main_call1_v12) (by decide),
   wsub (y := main_call1_cst_3) (by decide),
   wsub (y := main_call1_v13) (by decide),
   wsub (y := main_call1_cst_4) (by decide),
   wsub (y := main_call1_call0_v0) (by decide),
   wsub (y := main_call1_call0_v1) (by decide),
   wsub (y := main_v32) (by decide)⟩

/-- Each operation of this stretch writes its own result buffer, which is listed. -/
theorem hostOps0_4_wsub : (hostOps0_4 : List (HloOp τ sig (Elt F))).Forall fun op => op.writes ⊆ (Wpre.map (Proc.devRef (τ := τ) .tc)).toFinset :=
  ⟨wsub (y := main_v33) (by decide),
   wsub (y := main_v34) (by decide),
   wsub (y := main_cst_9) (by decide),
   wsub (y := main_v35) (by decide),
   wsub (y := main_v36) (by decide),
   wsub (y := main_v37) (by decide),
   wsub (y := main_v38) (by decide),
   wsub (y := main_v39) (by decide),
   wsub (y := main_v40) (by decide),
   wsub (y := main_v41) (by decide),
   wsub (y := main_v42) (by decide),
   wsub (y := main_v43) (by decide),
   wsub (y := main_v44) (by decide),
   wsub (y := main_v45) (by decide),
   wsub (y := main_v46) (by decide),
   wsub (y := main_v47) (by decide),
   wsub (y := main_v48) (by decide),
   wsub (y := main_v49) (by decide),
   wsub (y := main_v50) (by decide),
   wsub (y := main_v51) (by decide)⟩

/-- Each operation of this stretch writes its own result buffer, which is listed. -/
theorem hostOps0_5_wsub : (hostOps0_5 : List (HloOp τ sig (Elt F))).Forall fun op => op.writes ⊆ (Wpre.map (Proc.devRef (τ := τ) .tc)).toFinset :=
  ⟨wsub (y := main_call2_cst) (by decide),
   wsub (y := main_call2_v0) (by decide),
   wsub (y := main_v52) (by decide)⟩

/-- Each operation of this stretch writes its own result buffer, which is listed. -/
theorem hostOps0_6_wsub : (hostOps0_6 : List (HloOp τ sig (Elt F))).Forall fun op => op.writes ⊆ (Wpre.map (Proc.devRef (τ := τ) .tc)).toFinset :=
  ⟨wsub (y := main_v53) (by decide),
   wsub (y := main_v54) (by decide),
   wsub (y := main_v55) (by decide),
   wsub (y := main_v56) (by decide),
   wsub (y := main_v57) (by decide),
   wsub (y := main_v58) (by decide),
   wsub (y := main_v59) (by decide),
   wsub (y := main_v60) (by decide),
   wsub (y := main_v61) (by decide),
   wsub (y := main_v62) (by decide)⟩

/-- Each operation of this stretch writes its own result buffer, which is listed. -/
theorem hostOps0_7_wsub : (hostOps0_7 : List (HloOp τ sig (Elt F))).Forall fun op => op.writes ⊆ (Wpre.map (Proc.devRef (τ := τ) .tc)).toFinset :=
  ⟨wsub (y := main_call3_cst) (by decide),
   wsub (y := main_call3_v0) (by decide),
   wsub (y := main_v63) (by decide)⟩

/-- Each operation of this stretch writes its own result buffer, which is listed. -/
theorem hostOps0_8_wsub : (hostOps0_8 : List (HloOp τ sig (Elt F))).Forall fun op => op.writes ⊆ (Wpre.map (Proc.devRef (τ := τ) .tc)).toFinset :=
  ⟨wsub (y := main_v64) (by decide),
   wsub (y := main_v65) (by decide),
   wsub (y := main_v66) (by decide),
   wsub (y := main_v67) (by decide),
   wsub (y := main_v68) (by decide),
   wsub (y := main_v69) (by decide),
   wsub (y := main_cst_10) (by decide),
   wsub (y := main_v70) (by decide),
   wsub (y := main_v71) (by decide),
   wsub (y := main_cst_11) (by decide),
   wsub (y := main_v72) (by decide),
   wsub (y := main_v73) (by decide)⟩

/-- Every written buffer of the stretches before the region is listed. -/
theorem pre_wsub : ∀ ops ∈ (preOpss : List (List (HloOp τ sig (Elt F)))), ∀ op ∈ ops,
    op.writes ⊆ (Wpre.map (Proc.devRef (τ := τ) .tc)).toFinset := by
  intro ops hops op hop
  simp only [List.mem_cons, List.mem_nil_iff, or_false] at hops
  rcases hops with rfl | rfl | rfl | rfl | rfl | rfl | rfl | rfl | rfl
  · exact (List.forall_iff_forall_mem.mp hostOps0_wsub) op hop
  · exact (List.forall_iff_forall_mem.mp hostOps0_1_wsub) op hop
  · exact (List.forall_iff_forall_mem.mp hostOps0_2_wsub) op hop
  · exact (List.forall_iff_forall_mem.mp hostOps0_3_wsub) op hop
  · exact (List.forall_iff_forall_mem.mp hostOps0_4_wsub) op hop
  · exact (List.forall_iff_forall_mem.mp hostOps0_5_wsub) op hop
  · exact (List.forall_iff_forall_mem.mp hostOps0_6_wsub) op hop
  · exact (List.forall_iff_forall_mem.mp hostOps0_7_wsub) op hop
  · exact (List.forall_iff_forall_mem.mp hostOps0_8_wsub) op hop

/-- A buffer that is no result of an operation before the region is found by the region as launched. -/
theorem pre_keeps {r : Ref sig .tc} (hr : r ∉ Wpre) (c : Dev nD) : V m c r = m ((c : Thread nD τ).loc r) :=
  after_flatten_keeps hr _ _ pre_wsub

/-- No host operation before the region writes `main_arg0`: the region finds it as launched. -/
theorem V_main_arg0 (c : Dev nD) : V m c main_arg0 = m ((c : Thread nD τ).loc main_arg0) := pre_keeps m (by decide) c
/-- No host operation before the region writes `main_arg1`: the region finds it as launched. -/
theorem V_main_arg1 (c : Dev nD) : V m c main_arg1 = m ((c : Thread nD τ).loc main_arg1) := pre_keeps m (by decide) c
/-- No host operation before the region writes `main_arg2`: the region finds it as launched. -/
theorem V_main_arg2 (c : Dev nD) : V m c main_arg2 = m ((c : Thread nD τ).loc main_arg2) := pre_keeps m (by decide) c
/-- No host operation before the region writes `main_arg3`: the region finds it as launched. -/
theorem V_main_arg3 (c : Dev nD) : V m c main_arg3 = m ((c : Thread nD τ).loc main_arg3) := pre_keeps m (by decide) c
/-- No host operation before the region writes `main_arg4`: the region finds it as launched. -/
theorem V_main_arg4 (c : Dev nD) : V m c main_arg4 = m ((c : Thread nD τ).loc main_arg4) := pre_keeps m (by decide) c
/-- No host operation before the region writes `main_arg5`: the region finds it as launched. -/
theorem V_main_arg5 (c : Dev nD) : V m c main_arg5 = m ((c : Thread nD τ).loc main_arg5) := pre_keeps m (by decide) c
/-- No host operation before the region writes `main_arg6`: the region finds it as launched. -/
theorem V_main_arg6 (c : Dev nD) : V m c main_arg6 = m ((c : Thread nD τ).loc main_arg6) := pre_keeps m (by decide) c
/-- No host operation before the region writes `main_arg7`: the region finds it as launched. -/
theorem V_main_arg7 (c : Dev nD) : V m c main_arg7 = m ((c : Thread nD τ).loc main_arg7) := pre_keeps m (by decide) c
/-- No host operation before the region writes `main_arg8`: the region finds it as launched. -/
theorem V_main_arg8 (c : Dev nD) : V m c main_arg8 = m ((c : Thread nD τ).loc main_arg8) := pre_keeps m (by decide) c
/-- No host operation before the region writes `main_arg9`: the region finds it as launched. -/
theorem V_main_arg9 (c : Dev nD) : V m c main_arg9 = m ((c : Thread nD τ).loc main_arg9) := pre_keeps m (by decide) c
/-- No host operation before the region writes `main_arg10`: the region finds it as launched. -/
theorem V_main_arg10 (c : Dev nD) : V m c main_arg10 = m ((c : Thread nD τ).loc main_arg10) := pre_keeps m (by decide) c
/-- No host operation before the region writes `main_arg11`: the region finds it as launched. -/
theorem V_main_arg11 (c : Dev nD) : V m c main_arg11 = m ((c : Thread nD τ).loc main_arg11) := pre_keeps m (by decide) c
/-- No host operation before the region writes `main_arg12`: the region finds it as launched. -/
theorem V_main_arg12 (c : Dev nD) : V m c main_arg12 = m ((c : Thread nD τ).loc main_arg12) := pre_keeps m (by decide) c
/-- No host operation before the region writes `main_arg13`: the region finds it as launched. -/
theorem V_main_arg13 (c : Dev nD) : V m c main_arg13 = m ((c : Thread nD τ).loc main_arg13) := pre_keeps m (by decide) c
/-- No host operation before the region writes `main_arg14`: the region finds it as launched. -/
theorem V_main_arg14 (c : Dev nD) : V m c main_arg14 = m ((c : Thread nD τ).loc main_arg14) := pre_keeps m (by decide) c
/-- No host operation before the region writes `main_arg15`: the region finds it as launched. -/
theorem V_main_arg15 (c : Dev nD) : V m c main_arg15 = m ((c : Thread nD τ).loc main_arg15) := pre_keeps m (by decide) c
/-- No host operation before the region writes `main_arg16`: the region finds it as launched. -/
theorem V_main_arg16 (c : Dev nD) : V m c main_arg16 = m ((c : Thread nD τ).loc main_arg16) := pre_keeps m (by decide) c
/-- No host operation before the region writes `main_arg17`: the region finds it as launched. -/
theorem V_main_arg17 (c : Dev nD) : V m c main_arg17 = m ((c : Thread nD τ).loc main_arg17) := pre_keeps m (by decide) c
/-- No host operation before the region writes `main_arg18`: the region finds it as launched. -/
theorem V_main_arg18 (c : Dev nD) : V m c main_arg18 = m ((c : Thread nD τ).loc main_arg18) := pre_keeps m (by decide) c
/-- No host operation before the region writes `main_arg19`: the region finds it as launched. -/
theorem V_main_arg19 (c : Dev nD) : V m c main_arg19 = m ((c : Thread nD τ).loc main_arg19) := pre_keeps m (by decide) c
/-- No host operation before the region writes `main_arg20`: the region finds it as launched. -/
theorem V_main_arg20 (c : Dev nD) : V m c main_arg20 = m ((c : Thread nD τ).loc main_arg20) := pre_keeps m (by decide) c
/-- No host operation before the region writes `main_arg21`: the region finds it as launched. -/
theorem V_main_arg21 (c : Dev nD) : V m c main_arg21 = m ((c : Thread nD τ).loc main_arg21) := pre_keeps m (by decide) c
/-- No host operation before the region writes `main_arg22`: the region finds it as launched. -/
theorem V_main_arg22 (c : Dev nD) : V m c main_arg22 = m ((c : Thread nD τ).loc main_arg22) := pre_keeps m (by decide) c
/-- No host operation before the region writes `main_arg23`: the region finds it as launched. -/
theorem V_main_arg23 (c : Dev nD) : V m c main_arg23 = m ((c : Thread nD τ).loc main_arg23) := pre_keeps m (by decide) c

/-! ## The whole launch -/

/-- A buffer that no host operation writes and that is no array of the pipeline holds after the tail, started
    from the region's exit contents, what the launch gave it. -/
theorem rest_kept (dats : (p : Fin 1) → (c : Dev nD) → Dat τ (Elt F) Unit ℕ (UR sig nD τ) ℕ (cfgs p) c) (c : Dev nD)
    {b : Ref sig .tc} (hT : b ∉ Wtail) (hP : b ∉ Wpre) (ha : ∀ w, Pipeline.arrRef spec0 w ≠ b) :
    Pipeline.afterTail₀ cfgs dats 0 (V0 m) tailOpss c b = m ((c : Thread nD τ).loc b) :=
  (tail_keeps hT _).trans ((Pipeline.withArrays_of_ne _ c _ _ b ha).trans (pre_keeps m hP c))

/-- Every argument buffer ends as launched, in any final state of a frame run: window 0's array (an input) by the
    library's account of an array that is never written back, every other argument as a bypassing buffer that
    no host operation writes. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOpss) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  ⟨((h c).2 main_arg0 (Pipeline.mem_restRefs_of main_arg0 (by decide) (by decide))).trans (rest_kept m dats c (by decide) (by decide) (by decide)),
   ((h c).2 main_arg1 (Pipeline.mem_restRefs_of main_arg1 (by decide) (by decide))).trans (rest_kept m dats c (by decide) (by decide) (by decide)),
   ((h c).1 0).trans (((dats 0 c).arrAt_in 0 rfl _).trans ((hA c 0).trans (V_main_arg2 m c))),
   ((h c).2 main_arg3 (Pipeline.mem_restRefs_of main_arg3 (by decide) (by decide))).trans (rest_kept m dats c (by decide) (by decide) (by decide)),
   ((h c).2 main_arg4 (Pipeline.mem_restRefs_of main_arg4 (by decide) (by decide))).trans (rest_kept m dats c (by decide) (by decide) (by decide)),
   ((h c).2 main_arg5 (Pipeline.mem_restRefs_of main_arg5 (by decide) (by decide))).trans (rest_kept m dats c (by decide) (by decide) (by decide)),
   ((h c).2 main_arg6 (Pipeline.mem_restRefs_of main_arg6 (by decide) (by decide))).trans (rest_kept m dats c (by decide) (by decide) (by decide)),
   ((h c).2 main_arg7 (Pipeline.mem_restRefs_of main_arg7 (by decide) (by decide))).trans (rest_kept m dats c (by decide) (by decide) (by decide)),
   ((h c).2 main_arg8 (Pipeline.mem_restRefs_of main_arg8 (by decide) (by decide))).trans (rest_kept m dats c (by decide) (by decide) (by decide)),
   ((h c).2 main_arg9 (Pipeline.mem_restRefs_of main_arg9 (by decide) (by decide))).trans (rest_kept m dats c (by decide) (by decide) (by decide)),
   ((h c).2 main_arg10 (Pipeline.mem_restRefs_of main_arg10 (by decide) (by decide))).trans (rest_kept m dats c (by decide) (by decide) (by decide)),
   ((h c).2 main_arg11 (Pipeline.mem_restRefs_of main_arg11 (by decide) (by decide))).trans (rest_kept m dats c (by decide) (by decide) (by decide)),
   ((h c).2 main_arg12 (Pipeline.mem_restRefs_of main_arg12 (by decide) (by decide))).trans (rest_kept m dats c (by decide) (by decide) (by decide)),
   ((h c).2 main_arg13 (Pipeline.mem_restRefs_of main_arg13 (by decide) (by decide))).trans (rest_kept m dats c (by decide) (by decide) (by decide)),
   ((h c).2 main_arg14 (Pipeline.mem_restRefs_of main_arg14 (by decide) (by decide))).trans (rest_kept m dats c (by decide) (by decide) (by decide)),
   ((h c).2 main_arg15 (Pipeline.mem_restRefs_of main_arg15 (by decide) (by decide))).trans (rest_kept m dats c (by decide) (by decide) (by decide)),
   ((h c).2 main_arg16 (Pipeline.mem_restRefs_of main_arg16 (by decide) (by decide))).trans (rest_kept m dats c (by decide) (by decide) (by decide)),
   ((h c).2 main_arg17 (Pipeline.mem_restRefs_of main_arg17 (by decide) (by decide))).trans (rest_kept m dats c (by decide) (by decide) (by decide)),
   ((h c).2 main_arg18 (Pipeline.mem_restRefs_of main_arg18 (by decide) (by decide))).trans (rest_kept m dats c (by decide) (by decide) (by decide)),
   ((h c).2 main_arg19 (Pipeline.mem_restRefs_of main_arg19 (by decide) (by decide))).trans (rest_kept m dats c (by decide) (by decide) (by decide)),
   ((h c).2 main_arg20 (Pipeline.mem_restRefs_of main_arg20 (by decide) (by decide))).trans (rest_kept m dats c (by decide) (by decide) (by decide)),
   ((h c).2 main_arg21 (Pipeline.mem_restRefs_of main_arg21 (by decide) (by decide))).trans (rest_kept m dats c (by decide) (by decide) (by decide)),
   ((h c).2 main_arg22 (Pipeline.mem_restRefs_of main_arg22 (by decide) (by decide))).trans (rest_kept m dats c (by decide) (by decide) (by decide)),
   ((h c).2 main_arg23 (Pipeline.mem_restRefs_of main_arg23 (by decide) (by decide))).trans (rest_kept m dats c (by decide) (by decide) (by decide))⟩

/-- THE FRAME from a frame run: for any proof data whose arrays are the region-entry contents, a run to the library's
    frame post around the region is a run after which every argument buffer holds what it was launched with. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => args_kept m dats hA r h c) h

end Cert.Kernel.Hand

end
-- ==== Proof.HandFrameBits.lean ====
/-
  The launch: @main runs its host operations before the region, the region at its 64 grid points (the body
  obligation at each), and the host operations after it. Every weakly fair execution terminates with each array
  of the pipeline at what the library computes from the proof data and every other unscoped buffer as the later
  operations leave it.
-/
import proofs.«125620_j10290741641936_1_alg».proof.Proof.BodyFrameBits
import proofs.«125620_j10290741641936_1_alg».proof.Proof.HandKitBits
import proofs.«125620_j10290741641936_1_alg».proof.Proof.HandTailBits
import proofs.«125620_j10290741641936_1_alg».proof.Proof.HandArgsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame run, with the output array's final contents named by the proof data. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hin := hin m) (hout := hout m)

end Cert.Kernel.Hand

end
-- ==== Proof.RefBase.lean ====
/- What the reference program's run is built from, stated once for any signature: the chain of several straight
   lines of host operations is the one line of their concatenation; a property of every operation of two lists
   holds of their concatenation; and an operation that writes one buffer, at index `n` or later among the
   TensorCore's references, leaves every reference before `n` alone. -/
import proofs.«125620_j10290741641936_1_alg».proof.Proof.Gen.ReferenceIdeal
import Idealize.ShloMosaic.Lib.StableHlo.Run
import Idealize.ShloMosaic.Lib.Pipeline.Regions

noncomputable section

namespace Cert.ReferenceIdeal.RefRun

open Idealize.ShloMosaic Idealize.ShloMosaic.TcCoe Idealize.SL.Sem Idealize.ShloMosaic.StableHlo

section Generic

variable {nD : Nat} {τ : Topo} {sig : RefSig} {Val : EltTy → Type} {Λ : Labels}

/-- Straight lines run one after the other are the one line of all their operations: the chain of the lines
    `ls` is the line `ls.flatten` (each step `seq_append`). -/
theorem chain_seq : ∀ ls : List (List (HloOp τ sig Val)),
    Pipeline.chain (ls.map fun l => (seq l : Prog (TpuEff nD τ sig Val Λ .tc) PUnit)) = seq ls.flatten
  | [] => rfl
  | l :: ls => by rw [List.map_cons, Pipeline.chain_cons, chain_seq ls, List.flatten_cons, seq_append]

/-- What holds of every element of two lists holds of every element of their concatenation. -/
theorem forall_mem_append {α : Type} {p : α → Prop} {l₁ l₂ : List α} (h₁ : ∀ a ∈ l₁, p a) (h₂ : ∀ a ∈ l₂, p a) :
    ∀ a ∈ l₁ ++ l₂, p a :=
  fun a h => (List.mem_append.mp h).elim (h₁ a) (h₂ a)

/-- What holds of `a` and of every element of `l` holds of every element of `a :: l`. -/
theorem forall_mem_cons' {α : Type} {p : α → Prop} {a : α} {l : List α} (h₁ : p a) (h₂ : ∀ b ∈ l, p b) :
    ∀ b ∈ a :: l, p b :=
  fun b h => (List.mem_cons.mp h).elim (fun e => e ▸ h₁) (h₂ b)

/-- The contents after two lines run in turn: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Every buffer the operation writes sits at index `n` or later among the TensorCore's references: a reference
    before `n` is none of them. -/
def WritesFrom (n : Nat) (op : HloOp τ sig Val) : Prop :=
  ∀ r : Ref sig .tc, r.idx.val < n → (Proc.devRef .tc r : DevRef τ sig) ∉ op.writes

/-- An operation writing the one buffer `y`, at index `n` or later: a reference before `n` is not `y` (distinct
    indices), and distinct references are distinct buffers of the device. -/
theorem writesFrom_of_eq {n : Nat} {op : HloOp τ sig Val} {y : Ref sig .tc}
    (hw : op.writes = {(Proc.devRef .tc y : DevRef τ sig)}) (hy : n ≤ y.idx.val) : WritesFrom n op := by
  intro r hr hmem
  rw [hw, Finset.mem_singleton] at hmem
  have h : r = y := Proc.devRef_injective _ hmem
  subst h
  exact absurd hr (Nat.not_lt.mpr hy)

variable {x a b c y : Ref sig .tc} {n : Nat}

theorem nullary_from {v : y.ty.Contents Val} {hy} (h : n ≤ y.idx.val) :
    WritesFrom n (nullary (τ := τ) y v hy) := writesFrom_of_eq (nullary_writes ..) h
theorem unary_from {f : x.ty.Contents Val → y.ty.Contents Val} {hx hy} (h : n ≤ y.idx.val) :
    WritesFrom n (unary (τ := τ) x y f hx hy) := writesFrom_of_eq (unary_writes ..) h
theorem binary_from {f : a.ty.Contents Val → b.ty.Contents Val → y.ty.Contents Val} {ha hb hy} (h : n ≤ y.idx.val) :
    WritesFrom n (binary (τ := τ) a b y f ha hb hy) := writesFrom_of_eq (binary_writes ..) h
theorem ternary_from {f : c.ty.Contents Val → a.ty.Contents Val → b.ty.Contents Val → y.ty.Contents Val} {hc ha hb hy}
    (h : n ≤ y.idx.val) : WritesFrom n (ternary (τ := τ) c a b y f hc ha hb hy) := writesFrom_of_eq (ternary_writes ..) h
theorem reshape_from {he hn hx hy} (h : n ≤ y.idx.val) :
    WritesFrom n (reshape (τ := τ) (Val := Val) x y he hn hx hy) := writesFrom_of_eq (reshape_writes ..) h

/-- A reference before `n` keeps its contents through a line whose operations all write from `n` on. -/
theorem after_of_writesFrom {n : Nat} (ops : List (HloOp τ sig Val)) (V : Valuation τ sig Val)
    (h : ∀ op ∈ ops, WritesFrom n op) (r : Ref sig .tc) (hr : r.idx.val < n) :
    after ops V (Proc.devRef .tc r) = V (Proc.devRef .tc r) :=
  after_of_forall_not_mem ops V fun op hop => h op hop r hr

end Generic

end Cert.ReferenceIdeal.RefRun

end
-- ==== Proof.RefOpsPre.lean ====
/- The reference program's host operations BEFORE and AT the product of the incidence matrix with the updated
   edge features, listed in order with every outlined function's operations written at its call site over the
   call's own buffers; beside each list, that its operations touch TensorCore references only, determine their
   results, and write no buffer among the first 24 references (the arguments). -/
import proofs.«125620_j10290741641936_1_alg».proof.Proof.RefBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 21 operations of the program, in order (main_cst … main_c_4). -/
abbrev pre0 : List (HloOp τ sig (Elt F)) :=
  [ StableHlo.nullary main_cst (fun i => FloatOps.ofBits .f32 (lit0 (S9x128.rowMajor i))),
    StableHlo.nullary main_cst_0 (fun i => FloatOps.ofBits .f32 (lit1 (S2x128.rowMajor i))),
    StableHlo.unary main_cst main_v0 ((extractStridedSlice S1x128 ![1, 0] · slices_S9x128_S1x128_1_0) : (⟨S9x128, .f32⟩ : BufTy).Contents (Elt F) → (⟨S1x128, .f32⟩ : BufTy).Contents (Elt F)),
    StableHlo.reshape main_v0 main_v1 rfl shapeCasts_S1x128_S128,
    StableHlo.unary main_v1 main_v2 (broadcastInDim S1x128 ![1] bcast_S128_S1x128_1 : (⟨S128, .f32⟩ : BufTy).Contents (Elt F) → (⟨S1x128, .f32⟩ : BufTy).Contents (Elt F)),
    StableHlo.nullary main_c (constantI S_ 32 0#32),
    StableHlo.unary main_c main_v3 (broadcastInDim S16384 ![] bcast_S_S16384 : (⟨S_, .i32⟩ : BufTy).Contents (Elt F) → (⟨S16384, .i32⟩ : BufTy).Contents (Elt F)),
    StableHlo.binary main_arg4 main_v3 main_v4 (cmpi .slt : (⟨S16384, .i32⟩ : BufTy).Contents (Elt F) → (⟨S16384, .i32⟩ : BufTy).Contents (Elt F) → (⟨S16384, .i1⟩ : BufTy).Contents (Elt F)),
    StableHlo.nullary main_c_1 (constantI S_ 32 9#32),
    StableHlo.unary main_c_1 main_v5 (broadcastInDim S16384 ![] bcast_S_S16384 : (⟨S_, .i32⟩ : BufTy).Contents (Elt F) → (⟨S16384, .i32⟩ : BufTy).Contents (Elt F)),
    StableHlo.binary main_arg4 main_v5 main_v6 (addi : (⟨S16384, .i32⟩ : BufTy).Contents (Elt F) → (⟨S16384, .i32⟩ : BufTy).Contents (Elt F) → (⟨S16384, .i32⟩ : BufTy).Contents (Elt F)),
    StableHlo.ternary main_v4 main_v6 main_arg4 main_v7 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v7 main_v8 (broadcastInDim S16384x1 ![0] bcast_S16384_S16384x1_0 : (⟨S16384, .i32⟩ : BufTy).Contents (Elt F) → (⟨S16384x1, .i32⟩ : BufTy).Contents (Elt F)),
    StableHlo.binary main_cst main_v8 main_v9 ((fun x i => Host.gather gather_S9x128_S16384x1_S16384x128_1_0_n_n_0_1_1128 x i) : (⟨S9x128, .f32⟩ : BufTy).Contents (Elt F) → (⟨S16384x1, .i32⟩ : BufTy).Contents (Elt F) → (⟨S16384x128, .f32⟩ : BufTy).Contents (Elt F)),
    StableHlo.nullary main_cst_2 (constant S_ .f32 0x00000000#32),
    StableHlo.binary main_arg0 main_cst_2 main_v10 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.unary main_v10 main_v11 (broadcastInDim S8192x1 ![0] bcast_S8192_S8192x1_0 : (⟨S8192, .f32⟩ : BufTy).Contents (Elt F) → (⟨S8192x1, .f32⟩ : BufTy).Contents (Elt F)),
    StableHlo.nullary main_cst_3 (constant S_ .f32 0x43000000#32),
    StableHlo.unary main_cst_3 main_v12 (broadcastInDim S8192x1 ![] bcast_S_S8192x1 : (⟨S_, .f32⟩ : BufTy).Contents (Elt F) → (⟨S8192x1, .f32⟩ : BufTy).Contents (Elt F)),
    StableHlo.binary main_v11 main_v12 main_v13 (Host.divf : (⟨S8192x1, .f32⟩ : BufTy).Contents (Elt F) → (⟨S8192x1, .f32⟩ : BufTy).Contents (Elt F) → (⟨S8192x1, .f32⟩ : BufTy).Contents (Elt F)),
    StableHlo.nullary main_c_4 (constantI S_ 32 0#32) ]
theorem pre0_sub : (pre0 : List (HloOp τ sig (Elt F))).Forall fun op => op.bufs ⊆ tcRefs τ sig :=
  ⟨nullary_bufs_sub .., nullary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., nullary_bufs_sub .., unary_bufs_sub .., binary_bufs_sub .., nullary_bufs_sub ..⟩
theorem pre0_fresh : (pre0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pre0_from : (pre0 : List (HloOp τ sig (Elt F))).Forall (WritesFrom 24) :=
  ⟨nullary_from (by decide), nullary_from (by decide), unary_from (by decide), reshape_from (by decide), unary_from (by decide), nullary_from (by decide), unary_from (by decide), binary_from (by decide), nullary_from (by decide), unary_from (by decide), binary_from (by decide), ternary_from (by decide), unary_from (by decide), binary_from (by decide), nullary_from (by decide), binary_from (by decide), unary_from (by decide), nullary_from (by decide), unary_from (by decide), binary_from (by decide), nullary_from (by decide)⟩

/-- 23 operations of the program, in order (main_call0_cst … main_v14). -/
abbrev pre1 : List (HloOp τ sig (Elt F)) :=
  [ StableHlo.TRef.nullary (.of main_call0_cst : StableHlo.TRef sig ⟨S_, .f32⟩) (constant S_ .f32 0x00000000#32),
    StableHlo.TRef.binary (.of main_arg0 : StableHlo.TRef sig ⟨S8192x128, .f32⟩) (.of main_call0_cst : StableHlo.TRef sig ⟨S_, .f32⟩) (.of main_call0_v0 : StableHlo.TRef sig ⟨S8192, .f32⟩) (fun x v => Host.reduceAdd x v reducesTo_S8192x128_S8192_d1 h_S_),
    StableHlo.TRef.unary (.of main_call0_v0 : StableHlo.TRef sig ⟨S8192, .f32⟩) (.of main_call0_v1 : StableHlo.TRef sig ⟨S8192x1, .f32⟩) (broadcastInDim S8192x1 ![0] bcast_S8192_S8192x1_0),
    StableHlo.TRef.nullary (.of main_call0_cst_0 : StableHlo.TRef sig ⟨S_, .f32⟩) (constant S_ .f32 0x43000000#32),
    StableHlo.TRef.unary (.of main_call0_cst_0 : StableHlo.TRef sig ⟨S_, .f32⟩) (.of main_call0_v2 : StableHlo.TRef sig ⟨S8192x1, .f32⟩) (broadcastInDim S8192x1 ![] bcast_S_S8192x1),
    StableHlo.TRef.binary (.of main_call0_v1 : StableHlo.TRef sig ⟨S8192x1, .f32⟩) (.of main_call0_v2 : StableHlo.TRef sig ⟨S8192x1, .f32⟩) (.of main_call0_v3 : StableHlo.TRef sig ⟨S8192x1, .f32⟩) Host.divf,
    StableHlo.TRef.unary (.of main_call0_v3 : StableHlo.TRef sig ⟨S8192x1, .f32⟩) (.of main_call0_v4 : StableHlo.TRef sig ⟨S8192x128, .f32⟩) (broadcastInDim S8192x128 ![0, 1] bcast_S8192x1_S8192x128_0_1),
    StableHlo.TRef.binary (.of main_arg0 : StableHlo.TRef sig ⟨S8192x128, .f32⟩) (.of main_call0_v4 : StableHlo.TRef sig ⟨S8192x128, .f32⟩) (.of main_call0_v5 : StableHlo.TRef sig ⟨S8192x128, .f32⟩) subf,
    StableHlo.TRef.binary (.of main_call0_v5 : StableHlo.TRef sig ⟨S8192x128, .f32⟩) (.of main_call0_v5 : StableHlo.TRef sig ⟨S8192x128, .f32⟩) (.of main_call0_v6 : StableHlo.TRef sig ⟨S8192x128, .f32⟩) mulf,
    StableHlo.TRef.unary (.of main_c_4 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x43000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8192x128, .f32⟩) (.of main_call0_cst_2 : StableHlo.TRef sig ⟨S_, .f32⟩) (.of main_call0_v9 : StableHlo.TRef sig ⟨S8192, .f32⟩) (fun x v => Host.reduceAdd x v reducesTo_S8192x128_S8192_d1 h_S_),
    StableHlo.TRef.unary (.of main_call0_v9 : StableHlo.TRef sig ⟨S8192, .f32⟩) (.of main_call0_v10 : StableHlo.TRef sig ⟨S8192x1, .f32⟩) (broadcastInDim S8192x1 ![0] bcast_S8192_S8192x1_0),
    StableHlo.TRef.unary (.of main_call0_v8 : StableHlo.TRef sig ⟨S_, .f32⟩) (.of main_call0_v11 : StableHlo.TRef sig ⟨S8192x1, .f32⟩) (broadcastInDim S8192x1 ![] bcast_S_S8192x1),
    StableHlo.TRef.binary (.of main_call0_v10 : StableHlo.TRef sig ⟨S8192x1, .f32⟩) (.of main_call0_v11 : StableHlo.TRef sig ⟨S8192x1, .f32⟩) (.of main_call0_v12 : StableHlo.TRef sig ⟨S8192x1, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S8192x1, .f32⟩) (broadcastInDim S8192x1 ![] bcast_S_S8192x1),
    StableHlo.TRef.ternary (.of main_call0_v13 : StableHlo.TRef sig ⟨S_, .i1⟩) (.of main_call0_v12 : StableHlo.TRef sig ⟨S8192x1, .f32⟩) (.of main_call0_call0_v1 : StableHlo.TRef sig ⟨S8192x1, .f32⟩) (.of main_v14 : StableHlo.TRef sig ⟨S8192x1, .f32⟩) (fun p a b => select (broadcastInDim S8192x1 ![] bcast_S_S8192x1 p) a b) ]
theorem pre1_sub : (pre1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem pre1_fresh : (pre1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem pre1_from : (pre1 : List (HloOp τ sig (Elt F))).Forall (WritesFrom 24) :=
  ⟨nullary_from (by decide), binary_from (by decide), unary_from (by decide), nullary_from (by decide), unary_from (by decide), binary_from (by decide), unary_from (by decide), binary_from (by decide), binary_from (by decide), unary_from (by decide), nullary_from (by decide), binary_from (by decide), nullary_from (by decide), binary_from (by decide), unary_from (by decide), unary_from (by decide), binary_from (by decide), nullary_from (by decide), binary_from (by decide), nullary_from (by decide), unary_from (by decide), unary_from (by decide), ternary_from (by decide)⟩

/-- 21 operations of the program, in order (main_v15 … main_c_8). -/
abbrev pre2 : List (HloOp τ sig (Elt F)) :=
  [ StableHlo.unary main_v13 main_v15 (broadcastInDim S8192x128 ![0, 1] bcast_S8192x1_S8192x128_0_1 : (⟨S8192x1, .f32⟩ : BufTy).Contents (Elt F) → (⟨S8192x128, .f32⟩ : BufTy).Contents (Elt F)),
    StableHlo.binary main_arg0 main_v15 main_v16 (subf : (⟨S8192x128, .f32⟩ : BufTy).Contents (Elt F) → (⟨S8192x128, .f32⟩ : BufTy).Contents (Elt F) → (⟨S8192x128, .f32⟩ : BufTy).Contents (Elt F)),
    StableHlo.nullary main_cst_5 (constant S_ .f32 0x3727C5AC#32),
    StableHlo.unary main_cst_5 main_v17 (broadcastInDim S8192x1 ![] bcast_S_S8192x1 : (⟨S_, .f32⟩ : BufTy).Contents (Elt F) → (⟨S8192x1, .f32⟩ : BufTy).Contents (Elt F)),
    StableHlo.binary main_v14 main_v17 main_v18 (addf : (⟨S8192x1, .f32⟩ : BufTy).Contents (Elt F) → (⟨S8192x1, .f32⟩ : BufTy).Contents (Elt F) → (⟨S8192x1, .f32⟩ : BufTy).Contents (Elt F)),
    StableHlo.unary main_v18 main_v19 (Host.rsqrt : (⟨S8192x1, .f32⟩ : BufTy).Contents (Elt F) → (⟨S8192x1, .f32⟩ : BufTy).Contents (Elt F)),
    StableHlo.unary main_v19 main_v20 (broadcastInDim S8192x128 ![0, 1] bcast_S8192x1_S8192x128_0_1 : (⟨S8192x1, .f32⟩ : BufTy).Contents (Elt F) → (⟨S8192x128, .f32⟩ : BufTy).Contents (Elt F)),
    StableHlo.binary main_v16 main_v20 main_v21 (mulf : (⟨S8192x128, .f32⟩ : BufTy).Contents (Elt F) → (⟨S8192x128, .f32⟩ : BufTy).Contents (Elt F) → (⟨S8192x128, .f32⟩ : BufTy).Contents (Elt F)),
    StableHlo.unary main_arg17 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S8192x128 ![0, 1] bcast_S1x128_S8192x128_0_1 : (⟨S1x128, .f32⟩ : BufTy).Contents (Elt F) → (⟨S8192x128, .f32⟩ : BufTy).Contents (Elt F)),
    StableHlo.binary main_v21 main_v23 main_v24 (mulf : (⟨S8192x128, .f32⟩ : BufTy).Contents (Elt F) → (⟨S8192x128, .f32⟩ : BufTy).Contents (Elt F) → (⟨S8192x128, .f32⟩ : BufTy).Contents (Elt F)),
    StableHlo.unary main_arg18 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S8192x128 ![0, 1] bcast_S1x128_S8192x128_0_1 : (⟨S1x128, .f32⟩ : BufTy).Contents (Elt F) → (⟨S8192x128, .f32⟩ : BufTy).Contents (Elt F)),
    StableHlo.binary main_v24 main_v26 main_v27 (addf : (⟨S8192x128, .f32⟩ : BufTy).Contents (Elt F) → (⟨S8192x128, .f32⟩ : BufTy).Contents (Elt F) → (⟨S8192x128, .f32⟩ : BufTy).Contents (Elt F)),
    StableHlo.nullary main_cst_6 (constant S_ .f32 0x00000000#32),
    StableHlo.binary main_arg1 main_cst_6 main_v28 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v28 main_v29 (broadcastInDim S16384x1 ![0] bcast_S16384_S16384x1_0 : (⟨S16384, .f32⟩ : BufTy).Contents (Elt F) → (⟨S16384x1, .f32⟩ : BufTy).Contents (Elt F)),
    StableHlo.nullary main_cst_7 (constant S_ .f32 0x43000000#32),
    StableHlo.unary main_cst_7 main_v30 (broadcastInDim S16384x1 ![] bcast_S_S16384x1 : (⟨S_, .f32⟩ : BufTy).Contents (Elt F) → (⟨S16384x1, .f32⟩ : BufTy).Contents (Elt F)),
    StableHlo.binary main_v29 main_v30 main_v31 (Host.divf : (⟨S16384x1, .f32⟩ : BufTy).Contents (Elt F) → (⟨S16384x1, .f32⟩ : BufTy).Contents (Elt F) → (⟨S16384x1, .f32⟩ : BufTy).Contents (Elt F)),
    StableHlo.nullary main_c_8 (constantI S_ 32 0#32) ]
theorem pre2_sub : (pre2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub ..⟩
theorem pre2_fresh : (pre2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem pre2_from : (pre2 : List (HloOp τ sig (Elt F))).Forall (WritesFrom 24) :=
  ⟨unary_from (by decide), binary_from (by decide), nullary_from (by decide), unary_from (by decide), binary_from (by decide), unary_from (by decide), unary_from (by decide), binary_from (by decide), unary_from (by decide), unary_from (by decide), binary_from (by decide), unary_from (by decide), unary_from (by decide), binary_from (by decide), nullary_from (by decide), binary_from (by decide), unary_from (by decide), nullary_from (by decide), unary_from (by decide), binary_from (by decide), nullary_from (by decide)⟩

/-- 23 operations of the program, in order (main_call1_cst … main_v32). -/
abbrev pre3 : List (HloOp τ sig (Elt F)) :=
  [ StableHlo.TRef.nullary (.of main_call1_cst : StableHlo.TRef sig ⟨S_, .f32⟩) (constant S_ .f32 0x00000000#32),
    StableHlo.TRef.binary (.of main_arg1 : StableHlo.TRef sig ⟨S16384x128, .f32⟩) (.of main_call1_cst : StableHlo.TRef sig ⟨S_, .f32⟩) (.of main_call1_v0 : StableHlo.TRef sig ⟨S16384, .f32⟩) (fun x v => Host.reduceAdd x v reducesTo_S16384x128_S16384_d1 h_S_),
    StableHlo.TRef.unary (.of main_call1_v0 : StableHlo.TRef sig ⟨S16384, .f32⟩) (.of main_call1_v1 : StableHlo.TRef sig ⟨S16384x1, .f32⟩) (broadcastInDim S16384x1 ![0] bcast_S16384_S16384x1_0),
    StableHlo.TRef.nullary (.of main_call1_cst_0 : StableHlo.TRef sig ⟨S_, .f32⟩) (constant S_ .f32 0x43000000#32),
    StableHlo.TRef.unary (.of main_call1_cst_0 : StableHlo.TRef sig ⟨S_, .f32⟩) (.of main_call1_v2 : StableHlo.TRef sig ⟨S16384x1, .f32⟩) (broadcastInDim S16384x1 ![] bcast_S_S16384x1),
    StableHlo.TRef.binary (.of main_call1_v1 : StableHlo.TRef sig ⟨S16384x1, .f32⟩) (.of main_call1_v2 : StableHlo.TRef sig ⟨S16384x1, .f32⟩) (.of main_call1_v3 : StableHlo.TRef sig ⟨S16384x1, .f32⟩) Host.divf,
    StableHlo.TRef.unary (.of main_call1_v3 : StableHlo.TRef sig ⟨S16384x1, .f32⟩) (.of main_call1_v4 : StableHlo.TRef sig ⟨S16384x128, .f32⟩) (broadcastInDim S16384x128 ![0, 1] bcast_S16384x1_S16384x128_0_1),
    StableHlo.TRef.binary (.of main_arg1 : StableHlo.TRef sig ⟨S16384x128, .f32⟩) (.of main_call1_v4 : StableHlo.TRef sig ⟨S16384x128, .f32⟩) (.of main_call1_v5 : StableHlo.TRef sig ⟨S16384x128, .f32⟩) subf,
    StableHlo.TRef.binary (.of main_call1_v5 : StableHlo.TRef sig ⟨S16384x128, .f32⟩) (.of main_call1_v5 : StableHlo.TRef sig ⟨S16384x128, .f32⟩) (.of main_call1_v6 : StableHlo.TRef sig ⟨S16384x128, .f32⟩) mulf,
    StableHlo.TRef.unary (.of main_c_8 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x43000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S16384x128, .f32⟩) (.of main_call1_cst_2 : StableHlo.TRef sig ⟨S_, .f32⟩) (.of main_call1_v9 : StableHlo.TRef sig ⟨S16384, .f32⟩) (fun x v => Host.reduceAdd x v reducesTo_S16384x128_S16384_d1 h_S_),
    StableHlo.TRef.unary (.of main_call1_v9 : StableHlo.TRef sig ⟨S16384, .f32⟩) (.of main_call1_v10 : StableHlo.TRef sig ⟨S16384x1, .f32⟩) (broadcastInDim S16384x1 ![0] bcast_S16384_S16384x1_0),
    StableHlo.TRef.unary (.of main_call1_v8 : StableHlo.TRef sig ⟨S_, .f32⟩) (.of main_call1_v11 : StableHlo.TRef sig ⟨S16384x1, .f32⟩) (broadcastInDim S16384x1 ![] bcast_S_S16384x1),
    StableHlo.TRef.binary (.of main_call1_v10 : StableHlo.TRef sig ⟨S16384x1, .f32⟩) (.of main_call1_v11 : StableHlo.TRef sig ⟨S16384x1, .f32⟩) (.of main_call1_v12 : StableHlo.TRef sig ⟨S16384x1, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v13 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S16384x1, .f32⟩) (broadcastInDim S16384x1 ![] bcast_S_S16384x1),
    StableHlo.TRef.ternary (.of main_call1_v13 : StableHlo.TRef sig ⟨S_, .i1⟩) (.of main_call1_v12 : StableHlo.TRef sig ⟨S16384x1, .f32⟩) (.of main_call1_call0_v1 : StableHlo.TRef sig ⟨S16384x1, .f32⟩) (.of main_v32 : StableHlo.TRef sig ⟨S16384x1, .f32⟩) (fun p a b => select (broadcastInDim S16384x1 ![] bcast_S_S16384x1 p) a b) ]
theorem pre3_sub : (pre3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem pre3_fresh : (pre3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem pre3_from : (pre3 : List (HloOp τ sig (Elt F))).Forall (WritesFrom 24) :=
  ⟨nullary_from (by decide), binary_from (by decide), unary_from (by decide), nullary_from (by decide), unary_from (by decide), binary_from (by decide), unary_from (by decide), binary_from (by decide), binary_from (by decide), unary_from (by decide), nullary_from (by decide), binary_from (by decide), nullary_from (by decide), binary_from (by decide), unary_from (by decide), unary_from (by decide), binary_from (by decide), nullary_from (by decide), binary_from (by decide), nullary_from (by decide), unary_from (by decide), unary_from (by decide), ternary_from (by decide)⟩

/-- 16 operations of the program, in order (main_v33 … main_v47). -/
abbrev pre4 : List (HloOp τ sig (Elt F)) :=
  [ StableHlo.unary main_v31 main_v33 (broadcastInDim S16384x128 ![0, 1] bcast_S16384x1_S16384x128_0_1 : (⟨S16384x1, .f32⟩ : BufTy).Contents (Elt F) → (⟨S16384x128, .f32⟩ : BufTy).Contents (Elt F)),
    StableHlo.binary main_arg1 main_v33 main_v34 (subf : (⟨S16384x128, .f32⟩ : BufTy).Contents (Elt F) → (⟨S16384x128, .f32⟩ : BufTy).Contents (Elt F) → (⟨S16384x128, .f32⟩ : BufTy).Contents (Elt F)),
    StableHlo.nullary main_cst_9 (constant S_ .f32 0x3727C5AC#32),
    StableHlo.unary main_cst_9 main_v35 (broadcastInDim S16384x1 ![] bcast_S_S16384x1 : (⟨S_, .f32⟩ : BufTy).Contents (Elt F) → (⟨S16384x1, .f32⟩ : BufTy).Contents (Elt F)),
    StableHlo.binary main_v32 main_v35 main_v36 (addf : (⟨S16384x1, .f32⟩ : BufTy).Contents (Elt F) → (⟨S16384x1, .f32⟩ : BufTy).Contents (Elt F) → (⟨S16384x1, .f32⟩ : BufTy).Contents (Elt F)),
    StableHlo.unary main_v36 main_v37 (Host.rsqrt : (⟨S16384x1, .f32⟩ : BufTy).Contents (Elt F) → (⟨S16384x1, .f32⟩ : BufTy).Contents (Elt F)),
    StableHlo.unary main_v37 main_v38 (broadcastInDim S16384x128 ![0, 1] bcast_S16384x1_S16384x128_0_1 : (⟨S16384x1, .f32⟩ : BufTy).Contents (Elt F) → (⟨S16384x128, .f32⟩ : BufTy).Contents (Elt F)),
    StableHlo.binary main_v34 main_v38 main_v39 (mulf : (⟨S16384x128, .f32⟩ : BufTy).Contents (Elt F) → (⟨S16384x128, .f32⟩ : BufTy).Contents (Elt F) → (⟨S16384x128, .f32⟩ : BufTy).Contents (Elt F)),
    StableHlo.unary main_arg17 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S16384x128 ![0, 1] bcast_S1x128_S16384x128_0_1 : (⟨S1x128, .f32⟩ : BufTy).Contents (Elt F) → (⟨S16384x128, .f32⟩ : BufTy).Contents (Elt F)),
    StableHlo.binary main_v39 main_v41 main_v42 (mulf : (⟨S16384x128, .f32⟩ : BufTy).Contents (Elt F) → (⟨S16384x128, .f32⟩ : BufTy).Contents (Elt F) → (⟨S16384x128, .f32⟩ : BufTy).Contents (Elt F)),
    StableHlo.unary main_arg18 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S16384x128 ![0, 1] bcast_S1x128_S16384x128_0_1 : (⟨S1x128, .f32⟩ : BufTy).Contents (Elt F) → (⟨S16384x128, .f32⟩ : BufTy).Contents (Elt F)),
    StableHlo.binary main_v42 main_v44 main_v45 (addf : (⟨S16384x128, .f32⟩ : BufTy).Contents (Elt F) → (⟨S16384x128, .f32⟩ : BufTy).Contents (Elt F) → (⟨S16384x128, .f32⟩ : BufTy).Contents (Elt F)),
    StableHlo.unary main_v2 main_v46 (broadcastInDim S8192x128 ![0, 1] bcast_S1x128_S8192x128_0_1 : (⟨S1x128, .f32⟩ : BufTy).Contents (Elt F) → (⟨S8192x128, .f32⟩ : BufTy).Contents (Elt F)),
    StableHlo.binary main_v27 main_v46 main_v47 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)) ]
theorem pre4_sub : (pre4 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub ..⟩
theorem pre4_fresh : (pre4 : List (HloOp τ sig (Elt F))).Forall fun op => op.fresh = ∅ :=
  ⟨rfl, rfl, rfl, rfl, rfl, rfl, rfl, rfl, rfl, rfl, rfl, rfl, rfl, rfl, rfl, rfl⟩
theorem pre4_from : (pre4 : List (HloOp τ sig (Elt F))).Forall (WritesFrom 24) :=
  ⟨unary_from (by decide), binary_from (by decide), nullary_from (by decide), unary_from (by decide), binary_from (by decide), unary_from (by decide), unary_from (by decide), binary_from (by decide), unary_from (by decide), unary_from (by decide), binary_from (by decide), unary_from (by decide), unary_from (by decide), binary_from (by decide), unary_from (by decide), binary_from (by decide)⟩

/-- 4 operations of the program, in order (main_v48 … main_v51). -/
abbrev pre5 : List (HloOp τ sig (Elt F)) :=
  [ StableHlo.binary main_v47 main_arg5 main_v48 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg6 main_v49 (broadcastInDim S1x256 ![1] bcast_S256_S1x256_1 : (⟨S256, .f32⟩ : BufTy).Contents (Elt F) → (⟨S1x256, .f32⟩ : BufTy).Contents (Elt F)),
    StableHlo.unary main_v49 main_v50 (broadcastInDim S8192x256 ![0, 1] bcast_S1x256_S8192x256_0_1 : (⟨S1x256, .f32⟩ : BufTy).Contents (Elt F) → (⟨S8192x256, .f32⟩ : BufTy).Contents (Elt F)),
    StableHlo.binary main_v48 main_v50 main_v51 (addf : (⟨S8192x256, .f32⟩ : BufTy).Contents (Elt F) → (⟨S8192x256, .f32⟩ : BufTy).Contents (Elt F) → (⟨S8192x256, .f32⟩ : BufTy).Contents (Elt F)) ]
theorem pre5_sub : (pre5 : List (HloOp τ sig (Elt F))).Forall fun op => op.bufs ⊆ tcRefs τ sig :=
  ⟨binary_bufs_sub .., unary_bufs_sub .., unary_bufs_sub .., binary_bufs_sub ..⟩
theorem pre5_fresh : (pre5 : List (HloOp τ sig (Elt F))).Forall fun op => op.fresh = ∅ :=
  ⟨rfl, rfl, rfl, rfl⟩
theorem pre5_from : (pre5 : List (HloOp τ sig (Elt F))).Forall (WritesFrom 24) :=
  ⟨binary_from (by decide), unary_from (by decide), unary_from (by decide), binary_from (by decide)⟩

/-- 3 operations of the program, in order (main_call2_cst … main_v52). -/
abbrev pre6 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S8192x256, .f32⟩) (broadcastInDim S8192x256 ![] bcast_S_S8192x256),
    StableHlo.TRef.binary (.of main_v51 : StableHlo.TRef sig ⟨S8192x256, .f32⟩) (.of main_call2_v0 : StableHlo.TRef sig ⟨S8192x256, .f32⟩) (.of main_v52 : StableHlo.TRef sig ⟨S8192x256, .f32⟩) maximumf ]
theorem pre6_sub : (pre6 : List (HloOp τ sig (Elt F))).Forall fun op => op.bufs ⊆ tcRefs τ sig :=
  ⟨nullary_bufs_sub .., unary_bufs_sub .., binary_bufs_sub ..⟩
theorem pre6_fresh : (pre6 : List (HloOp τ sig (Elt F))).Forall fun op => op.fresh = ∅ :=
  ⟨rfl, rfl, rfl⟩
theorem pre6_from : (pre6 : List (HloOp τ sig (Elt F))).Forall (WritesFrom 24) :=
  ⟨nullary_from (by decide), unary_from (by decide), binary_from (by decide)⟩

/-- 10 operations of the program, in order (main_v53 … main_v62). -/
abbrev pre7 : List (HloOp τ sig (Elt F)) :=
  [ StableHlo.binary main_v52 main_arg7 main_v53 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg8 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S8192x128 ![0, 1] bcast_S1x128_S8192x128_0_1 : (⟨S1x128, .f32⟩ : BufTy).Contents (Elt F) → (⟨S8192x128, .f32⟩ : BufTy).Contents (Elt F)),
    StableHlo.binary main_v53 main_v55 main_v56 (addf : (⟨S8192x128, .f32⟩ : BufTy).Contents (Elt F) → (⟨S8192x128, .f32⟩ : BufTy).Contents (Elt F) → (⟨S8192x128, .f32⟩ : BufTy).Contents (Elt F)),
    StableHlo.binary main_arg0 main_v56 main_v57 (addf : (⟨S8192x128, .f32⟩ : BufTy).Contents (Elt F) → (⟨S8192x128, .f32⟩ : BufTy).Contents (Elt F) → (⟨S8192x128, .f32⟩ : BufTy).Contents (Elt F)),
    StableHlo.binary main_v45 main_v9 main_v58 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    StableHlo.binary main_v58 main_arg5 main_v59 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg6 main_v60 (broadcastInDim S1x256 ![1] bcast_S256_S1x256_1 : (⟨S256, .f32⟩ : BufTy).Contents (Elt F) → (⟨S1x256, .f32⟩ : BufTy).Contents (Elt F)),
    StableHlo.unary main_v60 main_v61 (broadcastInDim S16384x256 ![0, 1] bcast_S1x256_S16384x256_0_1 : (⟨S1x256, .f32⟩ : BufTy).Contents (Elt F) → (⟨S16384x256, .f32⟩ : BufTy).Contents (Elt F)),
    StableHlo.binary main_v59 main_v61 main_v62 (addf : (⟨S16384x256, .f32⟩ : BufTy).Contents (Elt F) → (⟨S16384x256, .f32⟩ : BufTy).Contents (Elt F) → (⟨S16384x256, .f32⟩ : BufTy).Contents (Elt F)) ]
theorem pre7_sub : (pre7 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., unary_bufs_sub .., unary_bufs_sub .., binary_bufs_sub ..⟩
theorem pre7_fresh : (pre7 : List (HloOp τ sig (Elt F))).Forall fun op => op.fresh = ∅ :=
  ⟨rfl, rfl, rfl, rfl, rfl, rfl, rfl, rfl, rfl, rfl⟩
theorem pre7_from : (pre7 : List (HloOp τ sig (Elt F))).Forall (WritesFrom 24) :=
  ⟨binary_from (by decide), unary_from (by decide), unary_from (by decide), binary_from (by decide), binary_from (by decide), binary_from (by decide), binary_from (by decide), unary_from (by decide), unary_from (by decide), binary_from (by decide)⟩

/-- 3 operations of the program, in order (main_call3_cst … main_v63). -/
abbrev pre8 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S16384x256, .f32⟩) (broadcastInDim S16384x256 ![] bcast_S_S16384x256),
    StableHlo.TRef.binary (.of main_v62 : StableHlo.TRef sig ⟨S16384x256, .f32⟩) (.of main_call3_v0 : StableHlo.TRef sig ⟨S16384x256, .f32⟩) (.of main_v63 : StableHlo.TRef sig ⟨S16384x256, .f32⟩) maximumf ]
theorem pre8_sub : (pre8 : List (HloOp τ sig (Elt F))).Forall fun op => op.bufs ⊆ tcRefs τ sig :=
  ⟨nullary_bufs_sub .., unary_bufs_sub .., binary_bufs_sub ..⟩
theorem pre8_fresh : (pre8 : List (HloOp τ sig (Elt F))).Forall fun op => op.fresh = ∅ :=
  ⟨rfl, rfl, rfl⟩
theorem pre8_from : (pre8 : List (HloOp τ sig (Elt F))).Forall (WritesFrom 24) :=
  ⟨nullary_from (by decide), unary_from (by decide), binary_from (by decide)⟩

/-- 12 operations of the program, in order (main_v64 … main_v73). -/
abbrev pre9 : List (HloOp τ sig (Elt F)) :=
  [ StableHlo.binary main_v63 main_arg7 main_v64 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    StableHlo.unary main_arg8 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S16384x128 ![0, 1] bcast_S1x128_S16384x128_0_1 : (⟨S1x128, .f32⟩ : BufTy).Contents (Elt F) → (⟨S16384x128, .f32⟩ : BufTy).Contents (Elt F)),
    StableHlo.binary main_v64 main_v66 main_v67 (addf : (⟨S16384x128, .f32⟩ : BufTy).Contents (Elt F) → (⟨S16384x128, .f32⟩ : BufTy).Contents (Elt F) → (⟨S16384x128, .f32⟩ : BufTy).Contents (Elt F)),
    StableHlo.binary main_arg1 main_v67 main_v68 (addf : (⟨S16384x128, .f32⟩ : BufTy).Contents (Elt F) → (⟨S16384x128, .f32⟩ : BufTy).Contents (Elt F) → (⟨S16384x128, .f32⟩ : BufTy).Contents (Elt F)),
    StableHlo.binary main_v57 main_v68 main_v69 ((fun a b => concatenate S24576x128 0 [⟨S8192x128, a⟩, ⟨S16384x128, b⟩] concatenates_S8192x128_S16384x128_S24576x128_d0) : (⟨S8192x128, .f32⟩ : BufTy).Contents (Elt F) → (⟨S16384x128, .f32⟩ : BufTy).Contents (Elt F) → (⟨S24576x128, .f32⟩ : BufTy).Contents (Elt F)),
    StableHlo.nullary main_cst_10 (constant S_ .f32 0x00000000#32),
    StableHlo.binary main_v69 main_cst_10 main_v70 ((fun x v => Host.reduceAdd x v reducesTo_S24576x128_S128_d0 h_S_) : (⟨S24576x128, .f32⟩ : BufTy).Contents (Elt F) → (⟨S_, .f32⟩ : BufTy).Contents (Elt F) → (⟨S128, .f32⟩ : BufTy).Contents (Elt F)),
    StableHlo.unary main_v70 main_v71 (broadcastInDim S1x128 ![1] bcast_S128_S1x128_1 : (⟨S128, .f32⟩ : BufTy).Contents (Elt F) → (⟨S1x128, .f32⟩ : BufTy).Contents (Elt F)),
    StableHlo.nullary main_cst_11 (constant S_ .f32 0x46C00000#32),
    StableHlo.unary main_cst_11 main_v72 (broadcastInDim S1x128 ![] bcast_S_S1x128 : (⟨S_, .f32⟩ : BufTy).Contents (Elt F) → (⟨S1x128, .f32⟩ : BufTy).Contents (Elt F)),
    StableHlo.binary main_v71 main_v72 main_v73 (Host.divf : (⟨S1x128, .f32⟩ : BufTy).Contents (Elt F) → (⟨S1x128, .f32⟩ : BufTy).Contents (Elt F) → (⟨S1x128, .f32⟩ : BufTy).Contents (Elt F)) ]
theorem pre9_sub : (pre9 : List (HloOp τ sig (Elt F))).Forall fun op => op.bufs ⊆ tcRefs τ sig :=
  ⟨binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub ..⟩
theorem pre9_fresh : (pre9 : List (HloOp τ sig (Elt F))).Forall fun op => op.fresh = ∅ :=
  ⟨rfl, rfl, rfl, rfl, rfl, rfl, rfl, rfl, rfl, rfl, rfl, rfl⟩
theorem pre9_from : (pre9 : List (HloOp τ sig (Elt F))).Forall (WritesFrom 24) :=
  ⟨binary_from (by decide), unary_from (by decide), unary_from (by decide), binary_from (by decide), binary_from (by decide), binary_from (by decide), nullary_from (by decide), binary_from (by decide), unary_from (by decide), nullary_from (by decide), unary_from (by decide), binary_from (by decide)⟩

/-- The product of the incidence matrix with the updated edge features: one contraction over the edges. -/
abbrev dotOp : HloOp τ sig (Elt F) :=
  StableHlo.binary main_arg2 main_v68 main_v74 ((fun l r => Host.dotGeneral dot_S8192x16384_S16384x128_S8192x128_1_0_0_1_n_n none l r) : (⟨S8192x16384, .f32⟩ : BufTy).Contents (Elt F) → (⟨S16384x128, .f32⟩ : BufTy).Contents (Elt F) → (⟨S8192x128, .f32⟩ : BufTy).Contents (Elt F))
theorem dotOp_sub : (dotOp : HloOp τ sig (Elt F)).bufs ⊆ tcRefs τ sig := binary_bufs_sub ..
theorem dotOp_fresh : (dotOp : HloOp τ sig (Elt F)).fresh = ∅ := rfl
theorem dotOp_from : WritesFrom 24 (dotOp : HloOp τ sig (Elt F)) := binary_from (by decide)

end Cert.ReferenceIdeal.RefRun

end
-- ==== Proof.RefOpsTailA.lean ====
/- The reference program's host operations AFTER the product of the incidence matrix with the updated edge
   features (first half), in order, every outlined function's operations written at its call site. -/
import proofs.«125620_j10290741641936_1_alg».proof.Proof.RefBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 14 operations of the program, in order (main_v75 … main_c_15). -/
abbrev tail0 : List (HloOp τ sig (Elt F)) :=
  [ StableHlo.binary main_v57 main_v74 main_v75 (addf : (⟨S8192x128, .f32⟩ : BufTy).Contents (Elt F) → (⟨S8192x128, .f32⟩ : BufTy).Contents (Elt F) → (⟨S8192x128, .f32⟩ : BufTy).Contents (Elt F)),
    StableHlo.unary main_arg3 main_v76 (broadcastInDim S8192x1 ![0] bcast_S8192_S8192x1_0 : (⟨S8192, .f32⟩ : BufTy).Contents (Elt F) → (⟨S8192x1, .f32⟩ : BufTy).Contents (Elt F)),
    StableHlo.nullary main_cst_12 (constant S_ .f32 0x3F800000#32),
    StableHlo.unary main_cst_12 main_v77 (broadcastInDim S8192x1 ![] bcast_S_S8192x1 : (⟨S_, .f32⟩ : BufTy).Contents (Elt F) → (⟨S8192x1, .f32⟩ : BufTy).Contents (Elt F)),
    StableHlo.binary main_v77 main_v76 main_v78 (addf : (⟨S8192x1, .f32⟩ : BufTy).Contents (Elt F) → (⟨S8192x1, .f32⟩ : BufTy).Contents (Elt F) → (⟨S8192x1, .f32⟩ : BufTy).Contents (Elt F)),
    StableHlo.unary main_v78 main_v79 (broadcastInDim S8192x128 ![0, 1] bcast_S8192x1_S8192x128_0_1 : (⟨S8192x1, .f32⟩ : BufTy).Contents (Elt F) → (⟨S8192x128, .f32⟩ : BufTy).Contents (Elt F)),
    StableHlo.binary main_v75 main_v79 main_v80 (Host.divf : (⟨S8192x128, .f32⟩ : BufTy).Contents (Elt F) → (⟨S8192x128, .f32⟩ : BufTy).Contents (Elt F) → (⟨S8192x128, .f32⟩ : BufTy).Contents (Elt F)),
    StableHlo.nullary main_cst_13 (constant S_ .f32 0x00000000#32),
    StableHlo.binary main_v73 main_cst_13 main_v81 ((fun x v => Host.reduceAdd x v reducesTo_S1x128_S1_d1 h_S_) : (⟨S1x128, .f32⟩ : BufTy).Contents (Elt F) → (⟨S_, .f32⟩ : BufTy).Contents (Elt F) → (⟨S1, .f32⟩ : BufTy).Contents (Elt F)),
    StableHlo.unary main_v81 main_v82 (broadcastInDim S1x1 ![0] bcast_S1_S1x1_0 : (⟨S1, .f32⟩ : BufTy).Contents (Elt F) → (⟨S1x1, .f32⟩ : BufTy).Contents (Elt F)),
    StableHlo.nullary main_cst_14 (constant S_ .f32 0x43000000#32),
    StableHlo.unary main_cst_14 main_v83 (broadcastInDim S1x1 ![] bcast_S_S1x1 : (⟨S_, .f32⟩ : BufTy).Contents (Elt F) → (⟨S1x1, .f32⟩ : BufTy).Contents (Elt F)),
    StableHlo.binary main_v82 main_v83 main_v84 (Host.divf : (⟨S1x1, .f32⟩ : BufTy).Contents (Elt F) → (⟨S1x1, .f32⟩ : BufTy).Contents (Elt F) → (⟨S1x1, .f32⟩ : BufTy).Contents (Elt F)),
    StableHlo.nullary main_c_15 (constantI S_ 32 0#32) ]
theorem tail0_sub : (tail0 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., nullary_bufs_sub ..⟩
theorem tail0_fresh : (tail0 : List (HloOp τ sig (Elt F))).Forall fun op => op.fresh = ∅ :=
  ⟨rfl, rfl, rfl, rfl, rfl, rfl, rfl, rfl, rfl, rfl, rfl, rfl, rfl, rfl⟩
theorem tail0_from : (tail0 : List (HloOp τ sig (Elt F))).Forall (WritesFrom 24) :=
  ⟨binary_from (by decide), unary_from (by decide), nullary_from (by decide), unary_from (by decide), binary_from (by decide), unary_from (by decide), binary_from (by decide), nullary_from (by decide), binary_from (by decide), unary_from (by decide), nullary_from (by decide), unary_from (by decide), binary_from (by decide), nullary_from (by decide)⟩

/-- 23 operations of the program, in order (main_call4_cst … main_v85). -/
abbrev tail1 : List (HloOp τ sig (Elt F)) :=
  [ StableHlo.TRef.nullary (.of main_call4_cst : StableHlo.TRef sig ⟨S_, .f32⟩) (constant S_ .f32 0x00000000#32),
    StableHlo.TRef.binary (.of main_v73 : StableHlo.TRef sig ⟨S1x128, .f32⟩) (.of main_call4_cst : StableHlo.TRef sig ⟨S_, .f32⟩) (.of main_call4_v0 : StableHlo.TRef sig ⟨S1, .f32⟩) (fun x v => Host.reduceAdd x v reducesTo_S1x128_S1_d1 h_S_),
    StableHlo.TRef.unary (.of main_call4_v0 : StableHlo.TRef sig ⟨S1, .f32⟩) (.of main_call4_v1 : StableHlo.TRef sig ⟨S1x1, .f32⟩) (broadcastInDim S1x1 ![0] bcast_S1_S1x1_0),
    StableHlo.TRef.nullary (.of main_call4_cst_0 : StableHlo.TRef sig ⟨S_, .f32⟩) (constant S_ .f32 0x43000000#32),
    StableHlo.TRef.unary (.of main_call4_cst_0 : StableHlo.TRef sig ⟨S_, .f32⟩) (.of main_call4_v2 : StableHlo.TRef sig ⟨S1x1, .f32⟩) (broadcastInDim S1x1 ![] bcast_S_S1x1),
    StableHlo.TRef.binary (.of main_call4_v1 : StableHlo.TRef sig ⟨S1x1, .f32⟩) (.of main_call4_v2 : StableHlo.TRef sig ⟨S1x1, .f32⟩) (.of main_call4_v3 : StableHlo.TRef sig ⟨S1x1, .f32⟩) Host.divf,
    StableHlo.TRef.unary (.of main_call4_v3 : StableHlo.TRef sig ⟨S1x1, .f32⟩) (.of main_call4_v4 : StableHlo.TRef sig ⟨S1x128, .f32⟩) (broadcastInDim S1x128 ![0, 1] bcast_S1x1_S1x128_0_1),
    StableHlo.TRef.binary (.of main_v73 : StableHlo.TRef sig ⟨S1x128, .f32⟩) (.of main_call4_v4 : StableHlo.TRef sig ⟨S1x128, .f32⟩) (.of main_call4_v5 : StableHlo.TRef sig ⟨S1x128, .f32⟩) subf,
    StableHlo.TRef.binary (.of main_call4_v5 : StableHlo.TRef sig ⟨S1x128, .f32⟩) (.of main_call4_v5 : StableHlo.TRef sig ⟨S1x128, .f32⟩) (.of main_call4_v6 : StableHlo.TRef sig ⟨S1x128, .f32⟩) mulf,
    StableHlo.TRef.unary (.of main_c_15 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x43000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S1x128, .f32⟩) (.of main_call4_cst_2 : StableHlo.TRef sig ⟨S_, .f32⟩) (.of main_call4_v9 : StableHlo.TRef sig ⟨S1, .f32⟩) (fun x v => Host.reduceAdd x v reducesTo_S1x128_S1_d1 h_S_),
    StableHlo.TRef.unary (.of main_call4_v9 : StableHlo.TRef sig ⟨S1, .f32⟩) (.of main_call4_v10 : StableHlo.TRef sig ⟨S1x1, .f32⟩) (broadcastInDim S1x1 ![0] bcast_S1_S1x1_0),
    StableHlo.TRef.unary (.of main_call4_v8 : StableHlo.TRef sig ⟨S_, .f32⟩) (.of main_call4_v11 : StableHlo.TRef sig ⟨S1x1, .f32⟩) (broadcastInDim S1x1 ![] bcast_S_S1x1),
    StableHlo.TRef.binary (.of main_call4_v10 : StableHlo.TRef sig ⟨S1x1, .f32⟩) (.of main_call4_v11 : StableHlo.TRef sig ⟨S1x1, .f32⟩) (.of main_call4_v12 : StableHlo.TRef sig ⟨S1x1, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S1x1, .f32⟩) (broadcastInDim S1x1 ![] bcast_S_S1x1),
    StableHlo.TRef.ternary (.of main_call4_v13 : StableHlo.TRef sig ⟨S_, .i1⟩) (.of main_call4_v12 : StableHlo.TRef sig ⟨S1x1, .f32⟩) (.of main_call4_call0_v1 : StableHlo.TRef sig ⟨S1x1, .f32⟩) (.of main_v85 : StableHlo.TRef sig ⟨S1x1, .f32⟩) (fun p a b => select (broadcastInDim S1x1 ![] bcast_S_S1x1 p) a b) ]
theorem tail1_sub : (tail1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem tail1_fresh : (tail1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem tail1_from : (tail1 : List (HloOp τ sig (Elt F))).Forall (WritesFrom 24) :=
  ⟨nullary_from (by decide), binary_from (by decide), unary_from (by decide), nullary_from (by decide), unary_from (by decide), binary_from (by decide), unary_from (by decide), binary_from (by decide), binary_from (by decide), unary_from (by decide), nullary_from (by decide), binary_from (by decide), nullary_from (by decide), binary_from (by decide), unary_from (by decide), unary_from (by decide), binary_from (by decide), nullary_from (by decide), binary_from (by decide), nullary_from (by decide), unary_from (by decide), unary_from (by decide), ternary_from (by decide)⟩

/-- 16 operations of the program, in order (main_v86 … main_cst_18). -/
abbrev tail2 : List (HloOp τ sig (Elt F)) :=
  [ StableHlo.unary main_v84 main_v86 (broadcastInDim S1x128 ![0, 1] bcast_S1x1_S1x128_0_1 : (⟨S1x1, .f32⟩ : BufTy).Contents (Elt F) → (⟨S1x128, .f32⟩ : BufTy).Contents (Elt F)),
    StableHlo.binary main_v73 main_v86 main_v87 (subf : (⟨S1x128, .f32⟩ : BufTy).Contents (Elt F) → (⟨S1x128, .f32⟩ : BufTy).Contents (Elt F) → (⟨S1x128, .f32⟩ : BufTy).Contents (Elt F)),
    StableHlo.nullary main_cst_16 (constant S_ .f32 0x3727C5AC#32),
    StableHlo.unary main_cst_16 main_v88 (broadcastInDim S1x1 ![] bcast_S_S1x1 : (⟨S_, .f32⟩ : BufTy).Contents (Elt F) → (⟨S1x1, .f32⟩ : BufTy).Contents (Elt F)),
    StableHlo.binary main_v85 main_v88 main_v89 (addf : (⟨S1x1, .f32⟩ : BufTy).Contents (Elt F) → (⟨S1x1, .f32⟩ : BufTy).Contents (Elt F) → (⟨S1x1, .f32⟩ : BufTy).Contents (Elt F)),
    StableHlo.unary main_v89 main_v90 (Host.rsqrt : (⟨S1x1, .f32⟩ : BufTy).Contents (Elt F) → (⟨S1x1, .f32⟩ : BufTy).Contents (Elt F)),
    StableHlo.unary main_v90 main_v91 (broadcastInDim S1x128 ![0, 1] bcast_S1x1_S1x128_0_1 : (⟨S1x1, .f32⟩ : BufTy).Contents (Elt F) → (⟨S1x128, .f32⟩ : BufTy).Contents (Elt F)),
    StableHlo.binary main_v87 main_v91 main_v92 (mulf : (⟨S1x128, .f32⟩ : BufTy).Contents (Elt F) → (⟨S1x128, .f32⟩ : BufTy).Contents (Elt F) → (⟨S1x128, .f32⟩ : BufTy).Contents (Elt F)),
    StableHlo.unary main_arg19 main_v93 (broadcastInDim S1x128 ![1] bcast_S128_S1x128_1 : (⟨S128, .f32⟩ : BufTy).Contents (Elt F) → (⟨S1x128, .f32⟩ : BufTy).Contents (Elt F)),
    StableHlo.binary main_v92 main_v93 main_v94 (mulf : (⟨S1x128, .f32⟩ : BufTy).Contents (Elt F) → (⟨S1x128, .f32⟩ : BufTy).Contents (Elt F) → (⟨S1x128, .f32⟩ : BufTy).Contents (Elt F)),
    StableHlo.unary main_arg20 main_v95 (broadcastInDim S1x128 ![1] bcast_S128_S1x128_1 : (⟨S128, .f32⟩ : BufTy).Contents (Elt F) → (⟨S1x128, .f32⟩ : BufTy).Contents (Elt F)),
    StableHlo.binary main_v94 main_v95 main_v96 (addf : (⟨S1x128, .f32⟩ : BufTy).Contents (Elt F) → (⟨S1x128, .f32⟩ : BufTy).Contents (Elt F) → (⟨S1x128, .f32⟩ : BufTy).Contents (Elt F)),
    StableHlo.nullary main_cst_17 (constant S_ .f32 0x00000000#32),
    StableHlo.binary main_v80 main_cst_17 main_v97 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.unary main_v97 main_v98 (broadcastInDim S8192x1 ![0] bcast_S8192_S8192x1_0 : (⟨S8192, .f32⟩ : BufTy).Contents (Elt F) → (⟨S8192x1, .f32⟩ : BufTy).Contents (Elt F)),
    StableHlo.nullary main_cst_18 (constant S_ .f32 0x43000000#32) ]
theorem tail2_sub : (tail2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., nullary_bufs_sub .., binary_bufs_sub .., unary_bufs_sub .., nullary_bufs_sub ..⟩
theorem tail2_fresh : (tail2 : List (HloOp τ sig (Elt F))).Forall fun op => op.fresh = ∅ :=
  ⟨rfl, rfl, rfl, rfl, rfl, rfl, rfl, rfl, rfl, rfl, rfl, rfl, rfl, rfl, rfl, rfl⟩
theorem tail2_from : (tail2 : List (HloOp τ sig (Elt F))).Forall (WritesFrom 24) :=
  ⟨unary_from (by decide), binary_from (by decide), nullary_from (by decide), unary_from (by decide), binary_from (by decide), unary_from (by decide), unary_from (by decide), binary_from (by decide), unary_from (by decide), binary_from (by decide), unary_from (by decide), binary_from (by decide), nullary_from (by decide), binary_from (by decide), unary_from (by decide), nullary_from (by decide)⟩

/-- 3 operations of the program, in order (main_v99 … main_c_19). -/
abbrev tail3 : List (HloOp τ sig (Elt F)) :=
  [ StableHlo.unary main_cst_18 main_v99 (broadcastInDim S8192x1 ![] bcast_S_S8192x1 : (⟨S_, .f32⟩ : BufTy).Contents (Elt F) → (⟨S8192x1, .f32⟩ : BufTy).Contents (Elt F)),
    StableHlo.binary main_v98 main_v99 main_v100 (Host.divf : (⟨S8192x1, .f32⟩ : BufTy).Contents (Elt F) → (⟨S8192x1, .f32⟩ : BufTy).Contents (Elt F) → (⟨S8192x1, .f32⟩ : BufTy).Contents (Elt F)),
    StableHlo.nullary main_c_19 (constantI S_ 32 0#32) ]
theorem tail3_sub : (tail3 : List (HloOp τ sig (Elt F))).Forall fun op => op.bufs ⊆ tcRefs τ sig :=
  ⟨unary_bufs_sub .., binary_bufs_sub .., nullary_bufs_sub ..⟩
theorem tail3_fresh : (tail3 : List (HloOp τ sig (Elt F))).Forall fun op => op.fresh = ∅ :=
  ⟨rfl, rfl, rfl⟩
theorem tail3_from : (tail3 : List (HloOp τ sig (Elt F))).Forall (WritesFrom 24) :=
  ⟨unary_from (by decide), binary_from (by decide), nullary_from (by decide)⟩

/-- 23 operations of the program, in order (main_call5_cst … main_v101). -/
abbrev tail4 : List (HloOp τ sig (Elt F)) :=
  [ StableHlo.TRef.nullary (.of main_call5_cst : StableHlo.TRef sig ⟨S_, .f32⟩) (constant S_ .f32 0x00000000#32),
    StableHlo.TRef.binary (.of main_v80 : StableHlo.TRef sig ⟨S8192x128, .f32⟩) (.of main_call5_cst : StableHlo.TRef sig ⟨S_, .f32⟩) (.of main_call5_v0 : StableHlo.TRef sig ⟨S8192, .f32⟩) (fun x v => Host.reduceAdd x v reducesTo_S8192x128_S8192_d1 h_S_),
    StableHlo.TRef.unary (.of main_call5_v0 : StableHlo.TRef sig ⟨S8192, .f32⟩) (.of main_call5_v1 : StableHlo.TRef sig ⟨S8192x1, .f32⟩) (broadcastInDim S8192x1 ![0] bcast_S8192_S8192x1_0),
    StableHlo.TRef.nullary (.of main_call5_cst_0 : StableHlo.TRef sig ⟨S_, .f32⟩) (constant S_ .f32 0x43000000#32),
    StableHlo.TRef.unary (.of main_call5_cst_0 : StableHlo.TRef sig ⟨S_, .f32⟩) (.of main_call5_v2 : StableHlo.TRef sig ⟨S8192x1, .f32⟩) (broadcastInDim S8192x1 ![] bcast_S_S8192x1),
    StableHlo.TRef.binary (.of main_call5_v1 : StableHlo.TRef sig ⟨S8192x1, .f32⟩) (.of main_call5_v2 : StableHlo.TRef sig ⟨S8192x1, .f32⟩) (.of main_call5_v3 : StableHlo.TRef sig ⟨S8192x1, .f32⟩) Host.divf,
    StableHlo.TRef.unary (.of main_call5_v3 : StableHlo.TRef sig ⟨S8192x1, .f32⟩) (.of main_call5_v4 : StableHlo.TRef sig ⟨S8192x128, .f32⟩) (broadcastInDim S8192x128 ![0, 1] bcast_S8192x1_S8192x128_0_1),
    StableHlo.TRef.binary (.of main_v80 : StableHlo.TRef sig ⟨S8192x128, .f32⟩) (.of main_call5_v4 : StableHlo.TRef sig ⟨S8192x128, .f32⟩) (.of main_call5_v5 : StableHlo.TRef sig ⟨S8192x128, .f32⟩) subf,
    StableHlo.TRef.binary (.of main_call5_v5 : StableHlo.TRef sig ⟨S8192x128, .f32⟩) (.of main_call5_v5 : StableHlo.TRef sig ⟨S8192x128, .f32⟩) (.of main_call5_v6 : StableHlo.TRef sig ⟨S8192x128, .f32⟩) mulf,
    StableHlo.TRef.unary (.of main_c_19 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x43000000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S8192x128, .f32⟩) (.of main_call5_cst_2 : StableHlo.TRef sig ⟨S_, .f32⟩) (.of main_call5_v9 : StableHlo.TRef sig ⟨S8192, .f32⟩) (fun x v => Host.reduceAdd x v reducesTo_S8192x128_S8192_d1 h_S_),
    StableHlo.TRef.unary (.of main_call5_v9 : StableHlo.TRef sig ⟨S8192, .f32⟩) (.of main_call5_v10 : StableHlo.TRef sig ⟨S8192x1, .f32⟩) (broadcastInDim S8192x1 ![0] bcast_S8192_S8192x1_0),
    StableHlo.TRef.unary (.of main_call5_v8 : StableHlo.TRef sig ⟨S_, .f32⟩) (.of main_call5_v11 : StableHlo.TRef sig ⟨S8192x1, .f32⟩) (broadcastInDim S8192x1 ![] bcast_S_S8192x1),
    StableHlo.TRef.binary (.of main_call5_v10 : StableHlo.TRef sig ⟨S8192x1, .f32⟩) (.of main_call5_v11 : StableHlo.TRef sig ⟨S8192x1, .f32⟩) (.of main_call5_v12 : StableHlo.TRef sig ⟨S8192x1, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v13 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S8192x1, .f32⟩) (broadcastInDim S8192x1 ![] bcast_S_S8192x1),
    StableHlo.TRef.ternary (.of main_call5_v13 : StableHlo.TRef sig ⟨S_, .i1⟩) (.of main_call5_v12 : StableHlo.TRef sig ⟨S8192x1, .f32⟩) (.of main_call5_call0_v1 : StableHlo.TRef sig ⟨S8192x1, .f32⟩) (.of main_v101 : StableHlo.TRef sig ⟨S8192x1, .f32⟩) (fun p a b => select (broadcastInDim S8192x1 ![] bcast_S_S8192x1 p) a b) ]
theorem tail4_sub : (tail4 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem tail4_fresh : (tail4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem tail4_from : (tail4 : List (HloOp τ sig (Elt F))).Forall (WritesFrom 24) :=
  ⟨nullary_from (by decide), binary_from (by decide), unary_from (by decide), nullary_from (by decide), unary_from (by decide), binary_from (by decide), unary_from (by decide), binary_from (by decide), binary_from (by decide), unary_from (by decide), nullary_from (by decide), binary_from (by decide), nullary_from (by decide), binary_from (by decide), unary_from (by decide), unary_from (by decide), binary_from (by decide), nullary_from (by decide), binary_from (by decide), nullary_from (by decide), unary_from (by decide), unary_from (by decide), ternary_from (by decide)⟩

/-- 21 operations of the program, in order (main_v102 … main_v121). -/
abbrev tail5 : List (HloOp τ sig (Elt F)) :=
  [ StableHlo.unary main_v100 main_v102 (broadcastInDim S8192x128 ![0, 1] bcast_S8192x1_S8192x128_0_1 : (⟨S8192x1, .f32⟩ : BufTy).Contents (Elt F) → (⟨S8192x128, .f32⟩ : BufTy).Contents (Elt F)),
    StableHlo.binary main_v80 main_v102 main_v103 (subf : (⟨S8192x128, .f32⟩ : BufTy).Contents (Elt F) → (⟨S8192x128, .f32⟩ : BufTy).Contents (Elt F) → (⟨S8192x128, .f32⟩ : BufTy).Contents (Elt F)),
    StableHlo.nullary main_cst_20 (constant S_ .f32 0x3727C5AC#32),
    StableHlo.unary main_cst_20 main_v104 (broadcastInDim S8192x1 ![] bcast_S_S8192x1 : (⟨S_, .f32⟩ : BufTy).Contents (Elt F) → (⟨S8192x1, .f32⟩ : BufTy).Contents (Elt F)),
    StableHlo.binary main_v101 main_v104 main_v105 (addf : (⟨S8192x1, .f32⟩ : BufTy).Contents (Elt F) → (⟨S8192x1, .f32⟩ : BufTy).Contents (Elt F) → (⟨S8192x1, .f32⟩ : BufTy).Contents (Elt F)),
    StableHlo.unary main_v105 main_v106 (Host.rsqrt : (⟨S8192x1, .f32⟩ : BufTy).Contents (Elt F) → (⟨S8192x1, .f32⟩ : BufTy).Contents (Elt F)),
    StableHlo.unary main_v106 main_v107 (broadcastInDim S8192x128 ![0, 1] bcast_S8192x1_S8192x128_0_1 : (⟨S8192x1, .f32⟩ : BufTy).Contents (Elt F) → (⟨S8192x128, .f32⟩ : BufTy).Contents (Elt F)),
    StableHlo.binary main_v103 main_v107 main_v108 (mulf : (⟨S8192x128, .f32⟩ : BufTy).Contents (Elt F) → (⟨S8192x128, .f32⟩ : BufTy).Contents (Elt F) → (⟨S8192x128, .f32⟩ : BufTy).Contents (Elt F)),
    StableHlo.unary main_arg19 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S8192x128 ![0, 1] bcast_S1x128_S8192x128_0_1 : (⟨S1x128, .f32⟩ : BufTy).Contents (Elt F) → (⟨S8192x128, .f32⟩ : BufTy).Contents (Elt F)),
    StableHlo.binary main_v108 main_v110 main_v111 (mulf : (⟨S8192x128, .f32⟩ : BufTy).Contents (Elt F) → (⟨S8192x128, .f32⟩ : BufTy).Contents (Elt F) → (⟨S8192x128, .f32⟩ : BufTy).Contents (Elt F)),
    StableHlo.unary main_arg20 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S8192x128 ![0, 1] bcast_S1x128_S8192x128_0_1 : (⟨S1x128, .f32⟩ : BufTy).Contents (Elt F) → (⟨S8192x128, .f32⟩ : BufTy).Contents (Elt F)),
    StableHlo.binary main_v111 main_v113 main_v114 (addf : (⟨S8192x128, .f32⟩ : BufTy).Contents (Elt F) → (⟨S8192x128, .f32⟩ : BufTy).Contents (Elt F) → (⟨S8192x128, .f32⟩ : BufTy).Contents (Elt F)),
    StableHlo.unary main_cst_0 main_v115 ((extractStridedSlice S1x128 ![0, 0] · slices_S2x128_S1x128_0_0) : (⟨S2x128, .f32⟩ : BufTy).Contents (Elt F) → (⟨S1x128, .f32⟩ : BufTy).Contents (Elt F)),
    StableHlo.reshape main_v115 main_v116 rfl shapeCasts_S1x128_S128,
    StableHlo.unary main_v116 main_v117 (broadcastInDim S1x128 ![1] bcast_S128_S1x128_1 : (⟨S128, .f32⟩ : BufTy).Contents (Elt F) → (⟨S1x128, .f32⟩ : BufTy).Contents (Elt F)),
    StableHlo.binary main_v96 main_v117 main_v118 ((fun a b => concatenate S1x256 1 [⟨S1x128, a⟩, ⟨S1x128, b⟩] concatenates_S1x128_S1x128_S1x256_d1) : (⟨S1x128, .f32⟩ : BufTy).Contents (Elt F) → (⟨S1x128, .f32⟩ : BufTy).Contents (Elt F) → (⟨S1x256, .f32⟩ : BufTy).Contents (Elt F)),
    StableHlo.binary main_v118 main_arg9 main_v119 ((fun l r => Host.dotGeneral dot_S1x256_S256x256_S1x256_1_0_0_1_n_n none l r) : (⟨S1x256, .f32⟩ : BufTy).Contents (Elt F) → (⟨S256x256, .f32⟩ : BufTy).Contents (Elt F) → (⟨S1x256, .f32⟩ : BufTy).Contents (Elt F)),
    StableHlo.unary main_arg10 main_v120 (broadcastInDim S1x256 ![1] bcast_S256_S1x256_1 : (⟨S256, .f32⟩ : BufTy).Contents (Elt F) → (⟨S1x256, .f32⟩ : BufTy).Contents (Elt F)),
    StableHlo.binary main_v119 main_v120 main_v121 (addf : (⟨S1x256, .f32⟩ : BufTy).Contents (Elt F) → (⟨S1x256, .f32⟩ : BufTy).Contents (Elt F) → (⟨S1x256, .f32⟩ : BufTy).Contents (Elt F)) ]
theorem tail5_sub : (tail5 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., binary_bufs_sub .., binary_bufs_sub .., unary_bufs_sub .., binary_bufs_sub ..⟩
theorem tail5_fresh : (tail5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem tail5_from : (tail5 : List (HloOp τ sig (Elt F))).Forall (WritesFrom 24) :=
  ⟨unary_from (by decide), binary_from (by decide), nullary_from (by decide), unary_from (by decide), binary_from (by decide), unary_from (by decide), unary_from (by decide), binary_from (by decide), unary_from (by decide), unary_from (by decide), binary_from (by decide), unary_from (by decide), unary_from (by decide), binary_from (by decide), unary_from (by decide), reshape_from (by decide), unary_from (by decide), binary_from (by decide), binary_from (by decide), unary_from (by decide), binary_from (by decide)⟩

/-- 3 operations of the program, in order (main_call6_cst … main_v122). -/
abbrev tail6 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S1x256, .f32⟩) (broadcastInDim S1x256 ![] bcast_S_S1x256),
    StableHlo.TRef.binary (.of main_v121 : StableHlo.TRef sig ⟨S1x256, .f32⟩) (.of main_call6_v0 : StableHlo.TRef sig ⟨S1x256, .f32⟩) (.of main_v122 : StableHlo.TRef sig ⟨S1x256, .f32⟩) maximumf ]
theorem tail6_sub : (tail6 : List (HloOp τ sig (Elt F))).Forall fun op => op.bufs ⊆ tcRefs τ sig :=
  ⟨nullary_bufs_sub .., unary_bufs_sub .., binary_bufs_sub ..⟩
theorem tail6_fresh : (tail6 : List (HloOp τ sig (Elt F))).Forall fun op => op.fresh = ∅ :=
  ⟨rfl, rfl, rfl⟩
theorem tail6_from : (tail6 : List (HloOp τ sig (Elt F))).Forall (WritesFrom 24) :=
  ⟨nullary_from (by decide), unary_from (by decide), binary_from (by decide)⟩

end Cert.ReferenceIdeal.RefRun

end
-- ==== Proof.RefOpsTailB.lean ====
/- The reference program's host operations AFTER the product of the incidence matrix with the updated edge
   features (second half), in order, every outlined function's operations written at its call site. -/
import proofs.«125620_j10290741641936_1_alg».proof.Proof.RefBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 13 operations of the program, in order (main_v123 … main_v135). -/
abbrev tail7 : List (HloOp τ sig (Elt F)) :=
  [ StableHlo.binary main_v122 main_arg11 main_v123 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    StableHlo.unary main_arg12 main_v124 (broadcastInDim S1x128 ![1] bcast_S128_S1x128_1 : (⟨S128, .f32⟩ : BufTy).Contents (Elt F) → (⟨S1x128, .f32⟩ : BufTy).Contents (Elt F)),
    StableHlo.binary main_v123 main_v124 main_v125 (addf : (⟨S1x128, .f32⟩ : BufTy).Contents (Elt F) → (⟨S1x128, .f32⟩ : BufTy).Contents (Elt F) → (⟨S1x128, .f32⟩ : BufTy).Contents (Elt F)),
    StableHlo.binary main_v73 main_v125 main_v126 (addf : (⟨S1x128, .f32⟩ : BufTy).Contents (Elt F) → (⟨S1x128, .f32⟩ : BufTy).Contents (Elt F) → (⟨S1x128, .f32⟩ : BufTy).Contents (Elt F)),
    StableHlo.unary main_cst_0 main_v127 ((extractStridedSlice S1x128 ![1, 0] · slices_S2x128_S1x128_1_0) : (⟨S2x128, .f32⟩ : BufTy).Contents (Elt F) → (⟨S1x128, .f32⟩ : BufTy).Contents (Elt F)),
    StableHlo.reshape main_v127 main_v128 rfl shapeCasts_S1x128_S128,
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S8192x128 ![0, 1] bcast_S1x128_S8192x128_0_1 : (⟨S1x128, .f32⟩ : BufTy).Contents (Elt F) → (⟨S8192x128, .f32⟩ : BufTy).Contents (Elt F)),
    StableHlo.binary main_v114 main_v130 main_v131 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    StableHlo.binary main_v131 main_arg9 main_v132 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg10 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S8192x256 ![0, 1] bcast_S1x256_S8192x256_0_1 : (⟨S1x256, .f32⟩ : BufTy).Contents (Elt F) → (⟨S8192x256, .f32⟩ : BufTy).Contents (Elt F)),
    StableHlo.binary main_v132 main_v134 main_v135 (addf : (⟨S8192x256, .f32⟩ : BufTy).Contents (Elt F) → (⟨S8192x256, .f32⟩ : BufTy).Contents (Elt F) → (⟨S8192x256, .f32⟩ : BufTy).Contents (Elt F)) ]
theorem tail7_sub : (tail7 : List (HloOp τ sig (Elt F))).Forall fun op => op.bufs ⊆ tcRefs τ sig :=
  ⟨binary_bufs_sub .., unary_bufs_sub .., binary_bufs_sub .., binary_bufs_sub .., unary_bufs_sub .., reshape_bufs_sub .., unary_bufs_sub .., unary_bufs_sub .., binary_bufs_sub .., binary_bufs_sub .., unary_bufs_sub .., unary_bufs_sub .., binary_bufs_sub ..⟩
theorem tail7_fresh : (tail7 : List (HloOp τ sig (Elt F))).Forall fun op => op.fresh = ∅ :=
  ⟨rfl, rfl, rfl, rfl, rfl, rfl, rfl, rfl, rfl, rfl, rfl, rfl, rfl⟩
theorem tail7_from : (tail7 : List (HloOp τ sig (Elt F))).Forall (WritesFrom 24) :=
  ⟨binary_from (by decide), unary_from (by decide), binary_from (by decide), binary_from (by decide), unary_from (by decide), reshape_from (by decide), unary_from (by decide), unary_from (by decide), binary_from (by decide), binary_from (by decide), unary_from (by decide), unary_from (by decide), binary_from (by decide)⟩

/-- 3 operations of the program, in order (main_call7_cst … main_v136). -/
abbrev tail8 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S8192x256, .f32⟩) (broadcastInDim S8192x256 ![] bcast_S_S8192x256),
    StableHlo.TRef.binary (.of main_v135 : StableHlo.TRef sig ⟨S8192x256, .f32⟩) (.of main_call7_v0 : StableHlo.TRef sig ⟨S8192x256, .f32⟩) (.of main_v136 : StableHlo.TRef sig ⟨S8192x256, .f32⟩) maximumf ]
theorem tail8_sub : (tail8 : List (HloOp τ sig (Elt F))).Forall fun op => op.bufs ⊆ tcRefs τ sig :=
  ⟨nullary_bufs_sub .., unary_bufs_sub .., binary_bufs_sub ..⟩
theorem tail8_fresh : (tail8 : List (HloOp τ sig (Elt F))).Forall fun op => op.fresh = ∅ :=
  ⟨rfl, rfl, rfl⟩
theorem tail8_from : (tail8 : List (HloOp τ sig (Elt F))).Forall (WritesFrom 24) :=
  ⟨nullary_from (by decide), unary_from (by decide), binary_from (by decide)⟩

/-- 14 operations of the program, in order (main_v137 … main_c_23). -/
abbrev tail9 : List (HloOp τ sig (Elt F)) :=
  [ StableHlo.binary main_v136 main_arg11 main_v137 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg12 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S8192x128 ![0, 1] bcast_S1x128_S8192x128_0_1 : (⟨S1x128, .f32⟩ : BufTy).Contents (Elt F) → (⟨S8192x128, .f32⟩ : BufTy).Contents (Elt F)),
    StableHlo.binary main_v137 main_v139 main_v140 (addf : (⟨S8192x128, .f32⟩ : BufTy).Contents (Elt F) → (⟨S8192x128, .f32⟩ : BufTy).Contents (Elt F) → (⟨S8192x128, .f32⟩ : BufTy).Contents (Elt F)),
    StableHlo.binary main_v80 main_v140 main_v141 (addf : (⟨S8192x128, .f32⟩ : BufTy).Contents (Elt F) → (⟨S8192x128, .f32⟩ : BufTy).Contents (Elt F) → (⟨S8192x128, .f32⟩ : BufTy).Contents (Elt F)),
    StableHlo.unary main_v126 main_v142 (broadcastInDim S8192x128 ![0, 1] bcast_S1x128_S8192x128_0_1 : (⟨S1x128, .f32⟩ : BufTy).Contents (Elt F) → (⟨S8192x128, .f32⟩ : BufTy).Contents (Elt F)),
    StableHlo.binary main_v142 main_v141 main_v143 (addf : (⟨S8192x128, .f32⟩ : BufTy).Contents (Elt F) → (⟨S8192x128, .f32⟩ : BufTy).Contents (Elt F) → (⟨S8192x128, .f32⟩ : BufTy).Contents (Elt F)),
    StableHlo.nullary main_cst_21 (constant S_ .f32 0x00000000#32),
    StableHlo.binary main_v143 main_cst_21 main_v144 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.unary main_v144 main_v145 (broadcastInDim S8192x1 ![0] bcast_S8192_S8192x1_0 : (⟨S8192, .f32⟩ : BufTy).Contents (Elt F) → (⟨S8192x1, .f32⟩ : BufTy).Contents (Elt F)),
    StableHlo.nullary main_cst_22 (constant S_ .f32 0x43000000#32),
    StableHlo.unary main_cst_22 main_v146 (broadcastInDim S8192x1 ![] bcast_S_S8192x1 : (⟨S_, .f32⟩ : BufTy).Contents (Elt F) → (⟨S8192x1, .f32⟩ : BufTy).Contents (Elt F)),
    StableHlo.binary main_v145 main_v146 main_v147 (Host.divf : (⟨S8192x1, .f32⟩ : BufTy).Contents (Elt F) → (⟨S8192x1, .f32⟩ : BufTy).Contents (Elt F) → (⟨S8192x1, .f32⟩ : BufTy).Contents (Elt F)),
    StableHlo.nullary main_c_23 (constantI S_ 32 0#32) ]
theorem tail9_sub : (tail9 : List (HloOp τ sig (Elt F))).Forall fun op => op.bufs ⊆ tcRefs τ sig :=
  ⟨binary_bufs_sub .., unary_bufs_sub .., unary_bufs_sub .., binary_bufs_sub .., binary_bufs_sub .., unary_bufs_sub .., binary_bufs_sub .., nullary_bufs_sub .., binary_bufs_sub .., unary_bufs_sub .., nullary_bufs_sub .., unary_bufs_sub .., binary_bufs_sub .., nullary_bufs_sub ..⟩
theorem tail9_fresh : (tail9 : List (HloOp τ sig (Elt F))).Forall fun op => op.fresh = ∅ :=
  ⟨rfl, rfl, rfl, rfl, rfl, rfl, rfl, rfl, rfl, rfl, rfl, rfl, rfl, rfl⟩
theorem tail9_from : (tail9 : List (HloOp τ sig (Elt F))).Forall (WritesFrom 24) :=
  ⟨binary_from (by decide), unary_from (by decide), unary_from (by decide), binary_from (by decide), binary_from (by decide), unary_from (by decide), binary_from (by decide), nullary_from (by decide), binary_from (by decide), unary_from (by decide), nullary_from (by decide), unary_from (by decide), binary_from (by decide), nullary_from (by decide)⟩

/-- 23 operations of the program, in order (main_call8_cst … main_v148). -/
abbrev tail10 : List (HloOp τ sig (Elt F)) :=
  [ StableHlo.TRef.nullary (.of main_call8_cst : StableHlo.TRef sig ⟨S_, .f32⟩) (constant S_ .f32 0x00000000#32),
    StableHlo.TRef.binary (.of main_v143 : StableHlo.TRef sig ⟨S8192x128, .f32⟩) (.of main_call8_cst : StableHlo.TRef sig ⟨S_, .f32⟩) (.of main_call8_v0 : StableHlo.TRef sig ⟨S8192, .f32⟩) (fun x v => Host.reduceAdd x v reducesTo_S8192x128_S8192_d1 h_S_),
    StableHlo.TRef.unary (.of main_call8_v0 : StableHlo.TRef sig ⟨S8192, .f32⟩) (.of main_call8_v1 : StableHlo.TRef sig ⟨S8192x1, .f32⟩) (broadcastInDim S8192x1 ![0] bcast_S8192_S8192x1_0),
    StableHlo.TRef.nullary (.of main_call8_cst_0 : StableHlo.TRef sig ⟨S_, .f32⟩) (constant S_ .f32 0x43000000#32),
    StableHlo.TRef.unary (.of main_call8_cst_0 : StableHlo.TRef sig ⟨S_, .f32⟩) (.of main_call8_v2 : StableHlo.TRef sig ⟨S8192x1, .f32⟩) (broadcastInDim S8192x1 ![] bcast_S_S8192x1),
    StableHlo.TRef.binary (.of main_call8_v1 : StableHlo.TRef sig ⟨S8192x1, .f32⟩) (.of main_call8_v2 : StableHlo.TRef sig ⟨S8192x1, .f32⟩) (.of main_call8_v3 : StableHlo.TRef sig ⟨S8192x1, .f32⟩) Host.divf,
    StableHlo.TRef.unary (.of main_call8_v3 : StableHlo.TRef sig ⟨S8192x1, .f32⟩) (.of main_call8_v4 : StableHlo.TRef sig ⟨S8192x128, .f32⟩) (broadcastInDim S8192x128 ![0, 1] bcast_S8192x1_S8192x128_0_1),
    StableHlo.TRef.binary (.of main_v143 : StableHlo.TRef sig ⟨S8192x128, .f32⟩) (.of main_call8_v4 : StableHlo.TRef sig ⟨S8192x128, .f32⟩) (.of main_call8_v5 : StableHlo.TRef sig ⟨S8192x128, .f32⟩) subf,
    StableHlo.TRef.binary (.of main_call8_v5 : StableHlo.TRef sig ⟨S8192x128, .f32⟩) (.of main_call8_v5 : StableHlo.TRef sig ⟨S8192x128, .f32⟩) (.of main_call8_v6 : StableHlo.TRef sig ⟨S8192x128, .f32⟩) mulf,
    StableHlo.TRef.unary (.of main_c_23 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x43000000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S8192x128, .f32⟩) (.of main_call8_cst_2 : StableHlo.TRef sig ⟨S_, .f32⟩) (.of main_call8_v9 : StableHlo.TRef sig ⟨S8192, .f32⟩) (fun x v => Host.reduceAdd x v reducesTo_S8192x128_S8192_d1 h_S_),
    StableHlo.TRef.unary (.of main_call8_v9 : StableHlo.TRef sig ⟨S8192, .f32⟩) (.of main_call8_v10 : StableHlo.TRef sig ⟨S8192x1, .f32⟩) (broadcastInDim S8192x1 ![0] bcast_S8192_S8192x1_0),
    StableHlo.TRef.unary (.of main_call8_v8 : StableHlo.TRef sig ⟨S_, .f32⟩) (.of main_call8_v11 : StableHlo.TRef sig ⟨S8192x1, .f32⟩) (broadcastInDim S8192x1 ![] bcast_S_S8192x1),
    StableHlo.TRef.binary (.of main_call8_v10 : StableHlo.TRef sig ⟨S8192x1, .f32⟩) (.of main_call8_v11 : StableHlo.TRef sig ⟨S8192x1, .f32⟩) (.of main_call8_v12 : StableHlo.TRef sig ⟨S8192x1, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v13 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S8192x1, .f32⟩) (broadcastInDim S8192x1 ![] bcast_S_S8192x1),
    StableHlo.TRef.ternary (.of main_call8_v13 : StableHlo.TRef sig ⟨S_, .i1⟩) (.of main_call8_v12 : StableHlo.TRef sig ⟨S8192x1, .f32⟩) (.of main_call8_call0_v1 : StableHlo.TRef sig ⟨S8192x1, .f32⟩) (.of main_v148 : StableHlo.TRef sig ⟨S8192x1, .f32⟩) (fun p a b => select (broadcastInDim S8192x1 ![] bcast_S_S8192x1 p) a b) ]
theorem tail10_sub : (tail10 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem tail10_fresh : (tail10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem tail10_from : (tail10 : List (HloOp τ sig (Elt F))).Forall (WritesFrom 24) :=
  ⟨nullary_from (by decide), binary_from (by decide), unary_from (by decide), nullary_from (by decide), unary_from (by decide), binary_from (by decide), unary_from (by decide), binary_from (by decide), binary_from (by decide), unary_from (by decide), nullary_from (by decide), binary_from (by decide), nullary_from (by decide), binary_from (by decide), unary_from (by decide), unary_from (by decide), binary_from (by decide), nullary_from (by decide), binary_from (by decide), nullary_from (by decide), unary_from (by decide), unary_from (by decide), ternary_from (by decide)⟩

/-- 5 operations of the program, in order (main_v149 … main_v152). -/
abbrev tail11 : List (HloOp τ sig (Elt F)) :=
  [ StableHlo.unary main_v147 main_v149 (broadcastInDim S8192x128 ![0, 1] bcast_S8192x1_S8192x128_0_1 : (⟨S8192x1, .f32⟩ : BufTy).Contents (Elt F) → (⟨S8192x128, .f32⟩ : BufTy).Contents (Elt F)),
    StableHlo.binary main_v143 main_v149 main_v150 (subf : (⟨S8192x128, .f32⟩ : BufTy).Contents (Elt F) → (⟨S8192x128, .f32⟩ : BufTy).Contents (Elt F) → (⟨S8192x128, .f32⟩ : BufTy).Contents (Elt F)),
    StableHlo.nullary main_cst_24 (constant S_ .f32 0x3727C5AC#32),
    StableHlo.unary main_cst_24 main_v151 (broadcastInDim S8192x1 ![] bcast_S_S8192x1 : (⟨S_, .f32⟩ : BufTy).Contents (Elt F) → (⟨S8192x1, .f32⟩ : BufTy).Contents (Elt F)),
    StableHlo.binary main_v148 main_v151 main_v152 (addf : (⟨S8192x1, .f32⟩ : BufTy).Contents (Elt F) → (⟨S8192x1, .f32⟩ : BufTy).Contents (Elt F) → (⟨S8192x1, .f32⟩ : BufTy).Contents (Elt F)) ]
theorem tail11_sub : (tail11 : List (HloOp τ sig (Elt F))).Forall fun op => op.bufs ⊆ tcRefs τ sig :=
  ⟨unary_bufs_sub .., binary_bufs_sub .., nullary_bufs_sub .., unary_bufs_sub .., binary_bufs_sub ..⟩
theorem tail11_fresh : (tail11 : List (HloOp τ sig (Elt F))).Forall fun op => op.fresh = ∅ :=
  ⟨rfl, rfl, rfl, rfl, rfl⟩
theorem tail11_from : (tail11 : List (HloOp τ sig (Elt F))).Forall (WritesFrom 24) :=
  ⟨unary_from (by decide), binary_from (by decide), nullary_from (by decide), unary_from (by decide), binary_from (by decide)⟩

/-- 13 operations of the program, in order (main_v153 … main_v165). -/
abbrev tail12 : List (HloOp τ sig (Elt F)) :=
  [ StableHlo.unary main_v152 main_v153 (Host.rsqrt : (⟨S8192x1, .f32⟩ : BufTy).Contents (Elt F) → (⟨S8192x1, .f32⟩ : BufTy).Contents (Elt F)),
    StableHlo.unary main_v153 main_v154 (broadcastInDim S8192x128 ![0, 1] bcast_S8192x1_S8192x128_0_1 : (⟨S8192x1, .f32⟩ : BufTy).Contents (Elt F) → (⟨S8192x128, .f32⟩ : BufTy).Contents (Elt F)),
    StableHlo.binary main_v150 main_v154 main_v155 (mulf : (⟨S8192x128, .f32⟩ : BufTy).Contents (Elt F) → (⟨S8192x128, .f32⟩ : BufTy).Contents (Elt F) → (⟨S8192x128, .f32⟩ : BufTy).Contents (Elt F)),
    StableHlo.unary main_arg21 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S8192x128 ![0, 1] bcast_S1x128_S8192x128_0_1 : (⟨S1x128, .f32⟩ : BufTy).Contents (Elt F) → (⟨S8192x128, .f32⟩ : BufTy).Contents (Elt F)),
    StableHlo.binary main_v155 main_v157 main_v158 (mulf : (⟨S8192x128, .f32⟩ : BufTy).Contents (Elt F) → (⟨S8192x128, .f32⟩ : BufTy).Contents (Elt F) → (⟨S8192x128, .f32⟩ : BufTy).Contents (Elt F)),
    StableHlo.unary main_arg22 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S8192x128 ![0, 1] bcast_S1x128_S8192x128_0_1 : (⟨S1x128, .f32⟩ : BufTy).Contents (Elt F) → (⟨S8192x128, .f32⟩ : BufTy).Contents (Elt F)),
    StableHlo.binary main_v158 main_v160 main_v161 (addf : (⟨S8192x128, .f32⟩ : BufTy).Contents (Elt F) → (⟨S8192x128, .f32⟩ : BufTy).Contents (Elt F) → (⟨S8192x128, .f32⟩ : BufTy).Contents (Elt F)),
    StableHlo.binary main_v161 main_arg13 main_v162 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    StableHlo.unary main_arg14 main_v163 (broadcastInDim S1x256 ![1] bcast_S256_S1x256_1 : (⟨S256, .f32⟩ : BufTy).Contents (Elt F) → (⟨S1x256, .f32⟩ : BufTy).Contents (Elt F)),
    StableHlo.unary main_v163 main_v164 (broadcastInDim S8192x256 ![0, 1] bcast_S1x256_S8192x256_0_1 : (⟨S1x256, .f32⟩ : BufTy).Contents (Elt F) → (⟨S8192x256, .f32⟩ : BufTy).Contents (Elt F)),
    StableHlo.binary main_v162 main_v164 main_v165 (addf : (⟨S8192x256, .f32⟩ : BufTy).Contents (Elt F) → (⟨S8192x256, .f32⟩ : BufTy).Contents (Elt F) → (⟨S8192x256, .f32⟩ : BufTy).Contents (Elt F)) ]
theorem tail12_sub : (tail12 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub ..⟩
theorem tail12_fresh : (tail12 : List (HloOp τ sig (Elt F))).Forall fun op => op.fresh = ∅ :=
  ⟨rfl, rfl, rfl, rfl, rfl, rfl, rfl, rfl, rfl, rfl, rfl, rfl, rfl⟩
theorem tail12_from : (tail12 : List (HloOp τ sig (Elt F))).Forall (WritesFrom 24) :=
  ⟨unary_from (by decide), unary_from (by decide), binary_from (by decide), unary_from (by decide), unary_from (by decide), binary_from (by decide), unary_from (by decide), unary_from (by decide), binary_from (by decide), binary_from (by decide), unary_from (by decide), unary_from (by decide), binary_from (by decide)⟩

/-- 3 operations of the program, in order (main_call9_cst … main_v166). -/
abbrev tail13 : List (HloOp τ sig (Elt F)) :=
  [ StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S8192x256, .f32⟩) (broadcastInDim S8192x256 ![] bcast_S_S8192x256),
    StableHlo.TRef.binary (.of main_v165 : StableHlo.TRef sig ⟨S8192x256, .f32⟩) (.of main_call9_v0 : StableHlo.TRef sig ⟨S8192x256, .f32⟩) (.of main_v166 : StableHlo.TRef sig ⟨S8192x256, .f32⟩) maximumf ]
theorem tail13_sub : (tail13 : List (HloOp τ sig (Elt F))).Forall fun op => op.bufs ⊆ tcRefs τ sig :=
  ⟨nullary_bufs_sub .., unary_bufs_sub .., binary_bufs_sub ..⟩
theorem tail13_fresh : (tail13 : List (HloOp τ sig (Elt F))).Forall fun op => op.fresh = ∅ :=
  ⟨rfl, rfl, rfl⟩
theorem tail13_from : (tail13 : List (HloOp τ sig (Elt F))).Forall (WritesFrom 24) :=
  ⟨nullary_from (by decide), unary_from (by decide), binary_from (by decide)⟩

/-- 7 operations of the program, in order (main_v167 … main_v173). -/
abbrev tail14 : List (HloOp τ sig (Elt F)) :=
  [ StableHlo.binary main_v166 main_arg15 main_v167 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg16 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S8192x128 ![0, 1] bcast_S1x128_S8192x128_0_1 : (⟨S1x128, .f32⟩ : BufTy).Contents (Elt F) → (⟨S8192x128, .f32⟩ : BufTy).Contents (Elt F)),
    StableHlo.binary main_v167 main_v169 main_v170 (addf : (⟨S8192x128, .f32⟩ : BufTy).Contents (Elt F) → (⟨S8192x128, .f32⟩ : BufTy).Contents (Elt F) → (⟨S8192x128, .f32⟩ : BufTy).Contents (Elt F)),
    StableHlo.binary main_v143 main_v170 main_v171 (addf : (⟨S8192x128, .f32⟩ : BufTy).Contents (Elt F) → (⟨S8192x128, .f32⟩ : BufTy).Contents (Elt F) → (⟨S8192x128, .f32⟩ : BufTy).Contents (Elt F)),
    StableHlo.unary main_arg23 main_v172 (broadcastInDim S8192x128 ![0, 1] bcast_S1x128_S8192x128_0_1 : (⟨S1x128, .f32⟩ : BufTy).Contents (Elt F) → (⟨S8192x128, .f32⟩ : BufTy).Contents (Elt F)),
    StableHlo.binary main_v171 main_v172 main_v173 (addf : (⟨S8192x128, .f32⟩ : BufTy).Contents (Elt F) → (⟨S8192x128, .f32⟩ : BufTy).Contents (Elt F) → (⟨S8192x128, .f32⟩ : BufTy).Contents (Elt F)) ]
theorem tail14_sub : (tail14 : List (HloOp τ sig (Elt F))).Forall fun op => op.bufs ⊆ tcRefs τ sig :=
  ⟨binary_bufs_sub .., unary_bufs_sub .., unary_bufs_sub .., binary_bufs_sub .., binary_bufs_sub .., unary_bufs_sub .., binary_bufs_sub ..⟩
theorem tail14_fresh : (tail14 : List (HloOp τ sig (Elt F))).Forall fun op => op.fresh = ∅ :=
  ⟨rfl, rfl, rfl, rfl, rfl, rfl, rfl⟩
theorem tail14_from : (tail14 : List (HloOp τ sig (Elt F))).Forall (WritesFrom 24) :=
  ⟨binary_from (by decide), unary_from (by decide), unary_from (by decide), binary_from (by decide), binary_from (by decide), unary_from (by decide), binary_from (by decide)⟩

end Cert.ReferenceIdeal.RefRun

end
-- ==== Proof.RefRun.lean ====
/- The reference program's run. Its @main is four windows of
   statements calling seven outlined functions; here it is ONE straight line of 321 host operations — the 136
   before the product of the incidence matrix with the updated edge features (`preOps`), that product (`dotOp`),
   the 184 after it (`tailOps`) — each outlined function's operations standing at its call site over the call's
   own buffers. Each window is the chain of its stretches by unfolding; the chain of all stretches is the line of
   their concatenation (`chain_seq`); every operation touches TensorCore references only, determines its result
   and writes past the 24 argument buffers, so the line runs (`run_seq`) and leaves the arguments as they were. -/
import proofs.«125620_j10290741641936_1_alg».proof.Proof.RefOpsPre
import proofs.«125620_j10290741641936_1_alg».proof.Proof.RefOpsTailA
import proofs.«125620_j10290741641936_1_alg».proof.Proof.RefOpsTailB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Every operation before the product of the incidence matrix with the updated edge features, in order. -/
abbrev preOps : List (HloOp τ sig (Elt F)) :=
  pre0 ++ pre1 ++ pre2 ++ pre3 ++ pre4 ++ pre5 ++ pre6 ++ pre7 ++ pre8 ++ pre9

/-- Every operation after that product, in order. -/
abbrev tailOps : List (HloOp τ sig (Elt F)) :=
  tail0 ++ tail1 ++ tail2 ++ tail3 ++ tail4 ++ tail5 ++ tail6 ++ tail7 ++ tail8 ++ tail9 ++ tail10 ++ tail11 ++ tail12 ++ tail13 ++ tail14

/-- @main's 321 operations, in order. -/
abbrev ops : List (HloOp τ sig (Elt F)) := preOps ++ dotOp :: tailOps

/-! ## @main is that line -/

/-- Window 0 of @main (statements 1 … 60) is the chain of its stretches, the last in tail position: the two sides
    unfold to the same sequence of steps. -/
theorem main_part0_chain (c : Dev nD) : main_part0 (F := F) c = (Pipeline.chainK
  [ StableHlo.seq pre0, StableHlo.seq pre1, StableHlo.seq pre2, StableHlo.seq pre3 ]
  (StableHlo.seq pre4) : Prog (TpuEff nD τ sig (Elt F) (Pipeline.Sig Λ₀ (Fin 0) fun p => (pcfgs (F := F) p).Adm) .tc) PUnit) := by
  chain_rfl

/-- Window 1 (statements 61 … 120): it holds the product, a stretch of its own. -/
theorem main_part1_chain (c : Dev nD) : main_part1 (F := F) c = (Pipeline.chainK
  [ StableHlo.seq pre5, StableHlo.seq pre6, StableHlo.seq pre7, StableHlo.seq pre8, StableHlo.seq pre9, StableHlo.seq [dotOp], StableHlo.seq tail0, StableHlo.seq tail1 ]
  (StableHlo.seq tail2) : Prog (TpuEff nD τ sig (Elt F) (Pipeline.Sig Λ₀ (Fin 0) fun p => (pcfgs (F := F) p).Adm) .tc) PUnit) := by
  chain_rfl

/-- Window 2 (statements 121 … 180). -/
theorem main_part2_chain (c : Dev nD) : main_part2 (F := F) c = (Pipeline.chainK
  [ StableHlo.seq tail3, StableHlo.seq tail4, StableHlo.seq tail5, StableHlo.seq tail6, StableHlo.seq tail7, StableHlo.seq tail8, StableHlo.seq tail9, StableHlo.seq tail10 ]
  (StableHlo.seq tail11) : Prog (TpuEff nD τ sig (Elt F) (Pipeline.Sig Λ₀ (Fin 0) fun p => (pcfgs (F := F) p).Adm) .tc) PUnit) := by
  chain_rfl

/-- The last window (statements 181 … 202), closed by the return. -/
theorem main_part3_chain (c : Dev nD) : main_part3 (F := F) c = (Pipeline.chain
  [ StableHlo.seq tail12, StableHlo.seq tail13, StableHlo.seq tail14 ] : Prog (TpuEff nD τ sig (Elt F) (Pipeline.Sig Λ₀ (Fin 0) fun p => (pcfgs (F := F) p).Adm) .tc) PUnit) := by
  chain_rfl

/-- @main is the chain of all its stretches: the windows' equations, joined at each window boundary
    (`Pipeline.chainK_bind_chain`). -/
theorem main_chain (c : Dev nD) : main (F := F) c = (Pipeline.chain (List.map (fun l => StableHlo.seq l)
  [ pre0, pre1, pre2, pre3, pre4, pre5, pre6, pre7, pre8, pre9, [dotOp], tail0, tail1, tail2, tail3, tail4, tail5, tail6, tail7, tail8, tail9, tail10, tail11, tail12, tail13, tail14 ]) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  chain_rfl

/-- The stretches laid end to end are `ops`: both sides are the same 321 operations in the same order, the
    concatenations differently bracketed. -/
theorem flatten_eq : List.flatten [ pre0, pre1, pre2, pre3, pre4, pre5, pre6, pre7, pre8, pre9, [dotOp], tail0, tail1, tail2, tail3, tail4, tail5, tail6, tail7, tail8, tail9, tail10, tail11, tail12, tail13, tail14 ] = (ops : List (HloOp τ sig (Elt F))) := by
  chain_rfl

/-- @main is the straight line of its operations. -/
theorem main_eq (c : Dev nD) : main (F := F) c = StableHlo.seq ops :=
  (main_chain c).trans ((chain_seq _).trans (congrArg (fun l => StableHlo.seq l) flatten_eq))

/-! ## What holds of every operation -/

private theorem mem {p : HloOp τ sig (Elt F) → Prop} {l : List (HloOp τ sig (Elt F))} (h : l.Forall p) : ∀ op ∈ l, p op :=
  List.forall_iff_forall_mem.mp h

/-- What holds of every operation of each stretch before the product holds of every operation of `preOps`. -/
theorem preOps_all {p : HloOp τ sig (Elt F) → Prop} (h0 : (pre0 : List (HloOp τ sig (Elt F))).Forall p) (h1 : (pre1 : List (HloOp τ sig (Elt F))).Forall p) (h2 : (pre2 : List (HloOp τ sig (Elt F))).Forall p) (h3 : (pre3 : List (HloOp τ sig (Elt F))).Forall p) (h4 : (pre4 : List (HloOp τ sig (Elt F))).Forall p) (h5 : (pre5 : List (HloOp τ sig (Elt F))).Forall p) (h6 : (pre6 : List (HloOp τ sig (Elt F))).Forall p) (h7 : (pre7 : List (HloOp τ sig (Elt F))).Forall p) (h8 : (pre8 : List (HloOp τ sig (Elt F))).Forall p) (h9 : (pre9 : List (HloOp τ sig (Elt F))).Forall p) :
    ∀ op ∈ (preOps : List (HloOp τ sig (Elt F))), p op :=
  forall_mem_append (forall_mem_append (forall_mem_append (forall_mem_append (forall_mem_append (forall_mem_append (forall_mem_append (forall_mem_append (forall_mem_append (mem h0) (mem h1)) (mem h2)) (mem h3)) (mem h4)) (mem h5)) (mem h6)) (mem h7)) (mem h8)) (mem h9)

/-- The same for the stretches after the product and `tailOps`. -/
theorem tailOps_all {p : HloOp τ sig (Elt F) → Prop} (h0 : (tail0 : List (HloOp τ sig (Elt F))).Forall p) (h1 : (tail1 : List (HloOp τ sig (Elt F))).Forall p) (h2 : (tail2 : List (HloOp τ sig (Elt F))).Forall p) (h3 : (tail3 : List (HloOp τ sig (Elt F))).Forall p) (h4 : (tail4 : List (HloOp τ sig (Elt F))).Forall p) (h5 : (tail5 : List (HloOp τ sig (Elt F))).Forall p) (h6 : (tail6 : List (HloOp τ sig (Elt F))).Forall p) (h7 : (tail7 : List (HloOp τ sig (Elt F))).Forall p) (h8 : (tail8 : List (HloOp τ sig (Elt F))).Forall p) (h9 : (tail9 : List (HloOp τ sig (Elt F))).Forall p) (h10 : (tail10 : List (HloOp τ sig (Elt F))).Forall p) (h11 : (tail11 : List (HloOp τ sig (Elt F))).Forall p) (h12 : (tail12 : List (HloOp τ sig (Elt F))).Forall p) (h13 : (tail13 : List (HloOp τ sig (Elt F))).Forall p) (h14 : (tail14 : List (HloOp τ sig (Elt F))).Forall p) :
    ∀ op ∈ (tailOps : List (HloOp τ sig (Elt F))), p op :=
  forall_mem_append (forall_mem_append (forall_mem_append (forall_mem_append (forall_mem_append (forall_mem_append (forall_mem_append (forall_mem_append (forall_mem_append (forall_mem_append (forall_mem_append (forall_mem_append (forall_mem_append (forall_mem_append (mem h0) (mem h1)) (mem h2)) (mem h3)) (mem h4)) (mem h5)) (mem h6)) (mem h7)) (mem h8)) (mem h9)) (mem h10)) (mem h11)) (mem h12)) (mem h13)) (mem h14)

/-- And for the whole line. -/
theorem ops_all {p : HloOp τ sig (Elt F) → Prop} (hpre : ∀ op ∈ (preOps : List (HloOp τ sig (Elt F))), p op) (hdot : p dotOp)
    (htail : ∀ op ∈ (tailOps : List (HloOp τ sig (Elt F))), p op) : ∀ op ∈ (ops : List (HloOp τ sig (Elt F))), p op :=
  forall_mem_append hpre (forall_mem_cons' hdot htail)

/-- Each operation touches TensorCore references only. -/
theorem ops_sub : (ops : List (HloOp τ sig (Elt F))).Forall fun op => op.bufs ⊆ StableHlo.tcRefs τ sig :=
  List.forall_iff_forall_mem.mpr (ops_all (p := fun op => op.bufs ⊆ StableHlo.tcRefs τ sig)
    (preOps_all pre0_sub pre1_sub pre2_sub pre3_sub pre4_sub pre5_sub pre6_sub pre7_sub pre8_sub pre9_sub) dotOp_sub
    (tailOps_all tail0_sub tail1_sub tail2_sub tail3_sub tail4_sub tail5_sub tail6_sub tail7_sub tail8_sub tail9_sub tail10_sub tail11_sub tail12_sub tail13_sub tail14_sub))

/-- Each operation determines its result. -/
theorem ops_fresh : ∀ op ∈ (ops : List (HloOp τ sig (Elt F))), op.fresh = ∅ :=
  ops_all (p := fun op => op.fresh = ∅)
    (preOps_all pre0_fresh pre1_fresh pre2_fresh pre3_fresh pre4_fresh pre5_fresh pre6_fresh pre7_fresh pre8_fresh pre9_fresh) dotOp_fresh
    (tailOps_all tail0_fresh tail1_fresh tail2_fresh tail3_fresh tail4_fresh tail5_fresh tail6_fresh tail7_fresh tail8_fresh tail9_fresh tail10_fresh tail11_fresh tail12_fresh tail13_fresh tail14_fresh)

/-- Each operation writes past the 24 argument buffers. -/
theorem ops_from : ∀ op ∈ (ops : List (HloOp τ sig (Elt F))), WritesFrom 24 op :=
  ops_all (p := WritesFrom 24)
    (preOps_all pre0_from pre1_from pre2_from pre3_from pre4_from pre5_from pre6_from pre7_from pre8_from pre9_from) dotOp_from
    (tailOps_all tail0_from tail1_from tail2_from tail3_from tail4_from tail5_from tail6_from tail7_from tail8_from tail9_from tail10_from tail11_from tail12_from tail13_from tail14_from)

/-! ## The run -/

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ (fun _ => ops_fresh)

/-! ## The arguments are kept: no operation writes one of the first 24 references -/

theorem kept_arg0 (V : Valuation τ sig (Elt F)) :
    StableHlo.after ops V (main_arg0 : DevRef τ sig) = V (main_arg0 : DevRef τ sig) :=
  after_of_writesFrom ops V ops_from main_arg0 (by decide)
theorem kept_arg1 (V : Valuation τ sig (Elt F)) :
    StableHlo.after ops V (main_arg1 : DevRef τ sig) = V (main_arg1 : DevRef τ sig) :=
  after_of_writesFrom ops V ops_from main_arg1 (by decide)
theorem kept_arg2 (V : Valuation τ sig (Elt F)) :
    StableHlo.after ops V (main_arg2 : DevRef τ sig) = V (main_arg2 : DevRef τ sig) :=
  after_of_writesFrom ops V ops_from main_arg2 (by decide)
theorem kept_arg3 (V : Valuation τ sig (Elt F)) :
    StableHlo.after ops V (main_arg3 : DevRef τ sig) = V (main_arg3 : DevRef τ sig) :=
  after_of_writesFrom ops V ops_from main_arg3 (by decide)
theorem kept_arg4 (V : Valuation τ sig (Elt F)) :
    StableHlo.after ops V (main_arg4 : DevRef τ sig) = V (main_arg4 : DevRef τ sig) :=
  after_of_writesFrom ops V ops_from main_arg4 (by decide)
theorem kept_arg5 (V : Valuation τ sig (Elt F)) :
    StableHlo.after ops V (main_arg5 : DevRef τ sig) = V (main_arg5 : DevRef τ sig) :=
  after_of_writesFrom ops V ops_from main_arg5 (by decide)
theorem kept_arg6 (V : Valuation τ sig (Elt F)) :
    StableHlo.after ops V (main_arg6 : DevRef τ sig) = V (main_arg6 : DevRef τ sig) :=
  after_of_writesFrom ops V ops_from main_arg6 (by decide)
theorem kept_arg7 (V : Valuation τ sig (Elt F)) :
    StableHlo.after ops V (main_arg7 : DevRef τ sig) = V (main_arg7 : DevRef τ sig) :=
  after_of_writesFrom ops V ops_from main_arg7 (by decide)
theorem kept_arg8 (V : Valuation τ sig (Elt F)) :
    StableHlo.after ops V (main_arg8 : DevRef τ sig) = V (main_arg8 : DevRef τ sig) :=
  after_of_writesFrom ops V ops_from main_arg8 (by decide)
theorem kept_arg9 (V : Valuation τ sig (Elt F)) :
    StableHlo.after ops V (main_arg9 : DevRef τ sig) = V (main_arg9 : DevRef τ sig) :=
  after_of_writesFrom ops V ops_from main_arg9 (by decide)
theorem kept_arg10 (V : Valuation τ sig (Elt F)) :
    StableHlo.after ops V (main_arg10 : DevRef τ sig) = V (main_arg10 : DevRef τ sig) :=
  after_of_writesFrom ops V ops_from main_arg10 (by decide)
theorem kept_arg11 (V : Valuation τ sig (Elt F)) :
    StableHlo.after ops V (main_arg11 : DevRef τ sig) = V (main_arg11 : DevRef τ sig) :=
  after_of_writesFrom ops V ops_from main_arg11 (by decide)
theorem kept_arg12 (V : Valuation τ sig (Elt F)) :
    StableHlo.after ops V (main_arg12 : DevRef τ sig) = V (main_arg12 : DevRef τ sig) :=
  after_of_writesFrom ops V ops_from main_arg12 (by decide)
theorem kept_arg13 (V : Valuation τ sig (Elt F)) :
    StableHlo.after ops V (main_arg13 : DevRef τ sig) = V (main_arg13 : DevRef τ sig) :=
  after_of_writesFrom ops V ops_from main_arg13 (by decide)
theorem kept_arg14 (V : Valuation τ sig (Elt F)) :
    StableHlo.after ops V (main_arg14 : DevRef τ sig) = V (main_arg14 : DevRef τ sig) :=
  after_of_writesFrom ops V ops_from main_arg14 (by decide)
theorem kept_arg15 (V : Valuation τ sig (Elt F)) :
    StableHlo.after ops V (main_arg15 : DevRef τ sig) = V (main_arg15 : DevRef τ sig) :=
  after_of_writesFrom ops V ops_from main_arg15 (by decide)
theorem kept_arg16 (V : Valuation τ sig (Elt F)) :
    StableHlo.after ops V (main_arg16 : DevRef τ sig) = V (main_arg16 : DevRef τ sig) :=
  after_of_writesFrom ops V ops_from main_arg16 (by decide)
theorem kept_arg17 (V : Valuation τ sig (Elt F)) :
    StableHlo.after ops V (main_arg17 : DevRef τ sig) = V (main_arg17 : DevRef τ sig) :=
  after_of_writesFrom ops V ops_from main_arg17 (by decide)
theorem kept_arg18 (V : Valuation τ sig (Elt F)) :
    StableHlo.after ops V (main_arg18 : DevRef τ sig) = V (main_arg18 : DevRef τ sig) :=
  after_of_writesFrom ops V ops_from main_arg18 (by decide)
theorem kept_arg19 (V : Valuation τ sig (Elt F)) :
    StableHlo.after ops V (main_arg19 : DevRef τ sig) = V (main_arg19 : DevRef τ sig) :=
  after_of_writesFrom ops V ops_from main_arg19 (by decide)
theorem kept_arg20 (V : Valuation τ sig (Elt F)) :
    StableHlo.after ops V (main_arg20 : DevRef τ sig) = V (main_arg20 : DevRef τ sig) :=
  after_of_writesFrom ops V ops_from main_arg20 (by decide)
theorem kept_arg21 (V : Valuation τ sig (Elt F)) :
    StableHlo.after ops V (main_arg21 : DevRef τ sig) = V (main_arg21 : DevRef τ sig) :=
  after_of_writesFrom ops V ops_from main_arg21 (by decide)
theorem kept_arg22 (V : Valuation τ sig (Elt F)) :
    StableHlo.after ops V (main_arg22 : DevRef τ sig) = V (main_arg22 : DevRef τ sig) :=
  after_of_writesFrom ops V ops_from main_arg22 (by decide)
theorem kept_arg23 (V : Valuation τ sig (Elt F)) :
    StableHlo.after ops V (main_arg23 : DevRef τ sig) = V (main_arg23 : DevRef τ sig) :=
  after_of_writesFrom ops V ops_from main_arg23 (by decide)

end Cert.ReferenceIdeal.RefRun

end
-- ==== Proof.RefFrame.lean ====
/- The reference program's frame: from any memory with zero counters every weakly fair execution of its @main
   terminates without a fault, and each of the 24 argument arrays ends as it began — the run read back at the
   argument buffers, which no operation writes. -/
import proofs.«125620_j10290741641936_1_alg».proof.Defs
import proofs.«125620_j10290741641936_1_alg».proof.Proof.Gen.Pre_finite_inputs
import proofs.«125620_j10290741641936_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The reference runs and keeps its arguments (at the ideal instance; the precondition is not needed). -/
theorem frame_ri : Cert.frame_ReferenceIdeal := fun m g _ =>
  (θ_run (defs (F := Ideal)) _ _).mono (fun _ h c =>
    ⟨(h c main_arg0).trans (kept_arg0 _),
     (h c main_arg1).trans (kept_arg1 _),
     (h c main_arg2).trans (kept_arg2 _),
     (h c main_arg3).trans (kept_arg3 _),
     (h c main_arg4).trans (kept_arg4 _),
     (h c main_arg5).trans (kept_arg5 _),
     (h c main_arg6).trans (kept_arg6 _),
     (h c main_arg7).trans (kept_arg7 _),
     (h c main_arg8).trans (kept_arg8 _),
     (h c main_arg9).trans (kept_arg9 _),
     (h c main_arg10).trans (kept_arg10 _),
     (h c main_arg11).trans (kept_arg11 _),
     (h c main_arg12).trans (kept_arg12 _),
     (h c main_arg13).trans (kept_arg13 _),
     (h c main_arg14).trans (kept_arg14 _),
     (h c main_arg15).trans (kept_arg15 _),
     (h c main_arg16).trans (kept_arg16 _),
     (h c main_arg17).trans (kept_arg17 _),
     (h c main_arg18).trans (kept_arg18 _),
     (h c main_arg19).trans (kept_arg19 _),
     (h c main_arg20).trans (kept_arg20 _),
     (h c main_arg21).trans (kept_arg21 _),
     (h c main_arg22).trans (kept_arg22 _),
     (h c main_arg23).trans (kept_arg23 _)⟩)
    (run_main (F := Ideal) m g)

end Cert.ReferenceIdeal.RefRun

end
-- ==== Proof.ValPieces.lean ====
/-
  What the found pieces are, as values. At every step the accumulator ends at the step's payload: the
  accumulator's earlier contents plus the product of the two input blocks (at a first step the earlier
  contents are the zero block the step itself stored). At a last step the output block's staging buffer
  ends at the same payload, copied from the accumulator.
-/
import proofs.«125620_j10290741641936_1_alg».proof.Proof.BodyFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- A middle step leaves the accumulator at its payload over the earlier contents. -/
theorem sout0_B_0_eq (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x2048 .f32) (x1 : Vec F S2048x128 .f32) (xs0 : Vec F S1024x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S1024x2048) hz2, View.ld_unit_zero (S := S2048x128) hz2, View.ld_unit_zero (S := S1024x128) hz2]

/-- So does a last step. -/
theorem sout0_C_0_eq (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1024x2048) hz2, View.ld_unit_zero (S := S2048x128) hz2, View.ld_unit_zero (S := S1024x128) hz2]

/-- A last step copies the accumulator it has just stored: the output block's buffer ends at the same payload. -/
theorem out0_C_2_eq (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2, View.readCov_unit_zero (S := S1024x128) _ hz2]
  simp only [View.readAt_eq_ld, harg2.read_unread, harg3.read_unread, harg5.read_unread, View.ld_unit_zero (S := S1024x2048) hz2, View.ld_unit_zero (S := S2048x128) hz2, View.ld_unit_zero (S := S1024x128) hz2]

/-- A first step stores the zero block, reads it back, and leaves the payload over it. -/
theorem sout0_A_0_eq (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x2048 .f32) (x1 : Vec F S2048x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x128) hz2, View.readCov_unit_zero (S := S1024x128) _ hz2]
  simp only [View.readAt_eq_ld, harg2.read_unread, harg3.read_unread, View.ld_unit_zero (S := S1024x2048) hz2, View.ld_unit_zero (S := S2048x128) hz2, View.ld_unit_zero (S := S1024x128) hz2]

end Cert.KernelIdeal.Hand

end
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.LibBlockFold.lean ====
/-
  An accumulator carried over the steps of one block row.

  Let `acc m` be what an accumulator holds after step `m`, and `part m` what step `m` adds. If the first step
  of a row (`m = base`) leaves `0 + part base` and every later step `base + (s + 1)` of the row leaves what the
  step before left plus its own part, then after step `base + s` the accumulator is the sum of the parts of the
  steps `base … base + s`. Induction on `s`; holds in any additive commutative monoid, so for extended reals
  with no finiteness.
-/
import Idealize.ShloMosaic.Lib.ValueIdx

namespace Cert.BlockFold

open scoped BigOperators

theorem fold_blocks {α : Type} [AddCommMonoid α] (n : Nat) (acc part : Nat → α) (base : Nat)
    (h0 : acc base = 0 + part base)
    (hs : ∀ s, s + 1 < n → acc (base + (s + 1)) = acc (base + s) + part (base + (s + 1))) :
    ∀ s, s < n → acc (base + s) = ∑ s' ∈ Finset.range (s + 1), part (base + s') := by
  intro s
  induction s with
  | zero =>
    intro _
    rw [Nat.add_zero, h0, zero_add, Finset.sum_range_one, Nat.add_zero]
  | succ s ih =>
    intro h
    rw [hs s h, ih (Nat.lt_of_succ_lt h), Finset.sum_range_succ (fun s' => part (base + s')) (s + 1)]

end Cert.BlockFold
-- ==== Proof.AccSpec.lean ====
/-
  The mathematics of the accumulated product, over the extended reals and over literal index types, with
  no program in sight. Entry (r, q) of the product of an [8192, 16384] matrix with a [16384, 128] matrix is
  the sum over e of left (r, e) * right (e, q). Cut the 16384 contraction indices into 8 blocks of 2048:
  the entry is the sum over the 8 blocks of the blocks' partial sums (no finiteness is needed: only
  associativity and commutativity of addition). An accumulator that starts a row-block at 0 plus the first
  partial sum and adds one partial sum per later step holds, after the eighth step, the whole entry.
-/
import proofs.«125620_j10290741641936_1_alg».proof.Proof.LibBlockSumN
import proofs.«125620_j10290741641936_1_alg».proof.Proof.LibBlockFold
import Idealize.ShloMosaic.Lib.ValueIdx

noncomputable section

namespace Cert.AccSpec

open Idealize.ShloMosaic Idealize.ShloMosaic.ValueIdx
open scoped BigOperators

variable (inc : (⟨2, ![8192, 16384]⟩ : Shape).Idx → EReal) (xe : (⟨2, ![16384, 128]⟩ : Shape).Idx → EReal)

/-- Entry (r, q) of the whole product. -/
def whole (r : Fin 8192) (q : Fin 128) : EReal := ∑ e : Fin 16384, inc (ix2 r e) * xe (ix2 e q)

/-- Contraction index j of block s (any natural s; blocks past the eighth are empty). -/
def cidx (s : Nat) (j : Fin 2048) : Fin 16384 :=
  if h : s < 8 then ⟨s * 2048 + j.val, by have := j.isLt; omega⟩ else ⟨0, by omega⟩

/-- The partial sum of block s at entry (r, q). -/
def part (r : Fin 8192) (q : Fin 128) (s : Nat) : EReal :=
  ∑ j : Fin 2048, inc (ix2 r (cidx s j)) * xe (ix2 (cidx s j) q)

/-- The whole entry is the sum of the eight blocks' partial sums. -/
theorem whole_eq_parts (r : Fin 8192) (q : Fin 128) :
    whole inc xe r q = ∑ s ∈ Finset.range 8, part inc xe r q s := by
  unfold whole
  rw [Cert.BlockSumN.sum_blocks_of_eq 8 2048 (by norm_num) (fun e : Fin 16384 => inc (ix2 r e) * xe (ix2 e q)),
    Finset.sum_range]
  refine Finset.sum_congr rfl fun t _ => ?_
  unfold part
  refine Finset.sum_congr rfl fun j _ => ?_
  have hc : cidx t.val j = ⟨t.val * 2048 + j.val, (by norm_num : (16384 : Nat) = 8 * 2048) ▸ Cert.BlockSumN.blk_lt t j⟩ := by
    unfold cidx; rw [dif_pos t.isLt]
  rw [hc]

/-- An accumulator over the steps base, base + 1, …, base + 7 of one row-block: it starts at 0 plus the first
    partial sum and adds one partial sum per later step; after the eighth step it holds the whole entry. -/
theorem acc_whole (r : Fin 8192) (q : Fin 128) (acc : Nat → EReal) (base : Nat)
    (h0 : acc base = 0 + part inc xe r q 0)
    (hs : ∀ s, s + 1 < 8 → acc (base + (s + 1)) = acc (base + s) + part inc xe r q (s + 1)) :
    acc (base + 7) = whole inc xe r q := by
  have h := Cert.BlockFold.fold_blocks 8 acc (fun n => part inc xe r q (n - base)) base
    (by simpa using h0) (fun s hs' => by simpa [Nat.add_sub_cancel_left] using hs s hs') 7 (by norm_num)
  rw [h, whole_eq_parts]
  refine Finset.sum_congr rfl fun s _ => ?_
  simp [Nat.add_sub_cancel_left]

end Cert.AccSpec

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«125620_j10290741641936_1_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.ValAcc.lean ====
/-
  The accumulated product, read off the proof data at the exact-real instance. A step's payload at an entry
  is the accumulator's earlier contents plus the sum over the 2048 contraction positions of the step's two input
  blocks; the blocks are rectangles of the two arrays; so along one row-block the accumulator is the running sum
  of the eight partial contractions, and after the eighth step it holds the whole contraction over 16384.
-/
import proofs.«125620_j10290741641936_1_alg».proof.Proof.ValPieces
import proofs.«125620_j10290741641936_1_alg».proof.Proof.AccSpec
import proofs.«125620_j10290741641936_1_alg».proof.Proof.LibDotApply
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The zero block a first step stores, at an entry. -/
theorem pay1_apply (p : Fin 1024) (q : Fin 128) : (k0_pay1 (F := Ideal) : FVec Ideal S1024x128 .f32) (ix2 p q) = 0 := by
  unfold k0_pay1
  simp only [shapeCast_self]
  exact Ideal.ofBits_zero_f32

/-- A step's payload at an entry: the earlier contents plus the product of row p of the left block with
    column q of the right block (the change of float format on the way into the matrix unit is the identity). -/
theorem pay2_apply (x0 : FVec Ideal S1024x2048 .f32) (x1 : FVec Ideal S2048x128 .f32) (acc : FVec Ideal S1024x128 .f32)
    (p : Fin 1024) (q : Fin 128) :
    (k0_pay2 (F := Ideal) x0 x1 acc : FVec Ideal S1024x128 .f32) (ix2 p q) = acc (ix2 p q) + ∑ j : Fin 2048, x0 (ix2 p j) * x1 (ix2 j q) := by
  unfold k0_pay2
  simp only [shapeCast_self]
  rw [addf_apply]
  refine congrArg (acc (ix2 p q) + ·) ?_
  exact Cert.LibDotApply.matmul_zero_apply dot_S1024x2048_S2048x128_S1024x128_1_0_0_1_n_n ⟨rfl, rfl, rfl, rfl, rfl, rfl⟩ none _ _ p q

/-- The closed forms of the two input windows' block indices over the grid. -/
theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)

/-- The two input blocks at point t, typed as matrices of extended reals. -/
abbrev B0 (c : Dev nD) (t : Fin cfg0.N) : FVec Ideal S1024x2048 .f32 := iblk m c 0 t
abbrev B1 (c : Dev nD) (t : Fin cfg0.N) : FVec Ideal S2048x128 .f32 := iblk m c 1 t

/-- The left operand's block at point t, at an entry: row (t / 8) * 1024 + p, column (t % 8) * 2048 + j of the array. -/
theorem iblk0_apply (c : Dev nD) (t : Fin cfg0.N) (p : Fin 1024) (j : Fin 2048) (r : Fin 8192) (e : Fin 16384)
    (hr : r.val = (t.val / 8) * 1024 + p.val) (he : e.val = (t.val % 8) * 2048 + j.val) :
    B0 m c t (ix2 p j) = (V m c main_arg2 : FVec Ideal S8192x16384 .f32) (ix2 r e) := by
  unfold B0 iblk
  rw [View.read_apply]
  show V m c main_arg2 _ = V m c main_arg2 _
  congr 1
  funext a
  apply Fin.ext
  match a with
  | ⟨0, _⟩ => show win0_0.index t 0 * 1024 + 1 * p.val = r.val; rw [(idx0 t).1, hr]; omega
  | ⟨1, _⟩ => show win0_0.index t 1 * 2048 + 1 * j.val = e.val; rw [(idx0 t).2, he]; omega

/-- The right operand's block at point t, at an entry: row (t % 8) * 2048 + j of the array, same column. -/
theorem iblk1_apply (c : Dev nD) (t : Fin cfg0.N) (j : Fin 2048) (q : Fin 128) (e : Fin 16384)
    (he : e.val = (t.val % 8) * 2048 + j.val) :
    B1 m c t (ix2 j q) = (V m c main_v68 : FVec Ideal S16384x128 .f32) (ix2 e q) := by
  unfold B1 iblk
  rw [View.read_apply]
  show V m c main_v68 _ = V m c main_v68 _
  congr 1
  funext a
  apply Fin.ext
  match a with
  | ⟨0, _⟩ => show win0_1.index t 0 * 2048 + 1 * j.val = e.val; rw [(idx1 t).1, he]; omega
  | ⟨1, _⟩ => show win0_1.index t 1 * 128 + 1 * q.val = q.val; rw [(idx1 t).2]; omega

/-- The two arrays the region reads, as it finds them. -/
abbrev INC (c : Dev nD) : (⟨2, ![8192, 16384]⟩ : Shape).Idx → EReal := (V m c main_arg2 : FVec Ideal S8192x16384 .f32)
abbrev XE (c : Dev nD) : (⟨2, ![16384, 128]⟩ : Shape).Idx → EReal := (V m c main_v68 : FVec Ideal S16384x128 .f32)

/-- The product a point adds at entry (p, q) of its row-block is the partial sum of contraction block t % 8 at
    row (t / 8) * 1024 + p of the whole product. -/
theorem step_part (c : Dev nD) (t : Fin cfg0.N) (p : Fin 1024) (q : Fin 128) (r : Fin 8192)
    (hr : r.val = (t.val / 8) * 1024 + p.val) :
    ∑ j : Fin 2048, B0 m c t (ix2 p j) * B1 m c t (ix2 j q)
      = Cert.AccSpec.part (INC m c) (XE m c) r q (t.val % 8) := by
  unfold Cert.AccSpec.part
  refine Finset.sum_congr rfl fun j _ => ?_
  have he : (Cert.AccSpec.cidx (t.val % 8) j).val = (t.val % 8) * 2048 + j.val := by
    unfold Cert.AccSpec.cidx; rw [dif_pos (Nat.mod_lt _ (by norm_num))]
  rw [iblk0_apply m c t p j r _ hr he, iblk1_apply m c t j q _ he]

/-- The accumulator at entry (p, q) after point n, as a function of a natural (0 past the grid). -/
def accN (c : Dev nD) (p : Fin 1024) (q : Fin 128) (n : Nat) : EReal :=
  if h : n < cfg0.N then ((outsAt0 m c n h).2 : FVec Ideal S1024x128 .f32) (ix2 p q) else 0

theorem accN_eq (c : Dev nD) (p : Fin 1024) (q : Fin 128) (t : Fin cfg0.N) :
    accN m c p q t.val = ((outsAt0 m c t.val t.isLt).2 : FVec Ideal S1024x128 .f32) (ix2 p q) := by
  unfold accN; rw [dif_pos t.isLt]

/-- At a first step the accumulator ends at 0 plus the step's partial sum. -/
theorem acc_first (c : Dev nD) (t : Fin cfg0.N) (h0 : t.val % 8 = 0) (p : Fin 1024) (q : Fin 128) (r : Fin 8192)
    (hr : r.val = (t.val / 8) * 1024 + p.val) :
    accN m c p q t.val = 0 + Cert.AccSpec.part (INC m c) (XE m c) r q 0 := by
  rw [accN_eq, outsAt0_A m c t h0 (by omega)]
  dsimp only
  rw [sout0_A_0_eq]
  exact (pay2_apply (B0 m c t) (B1 m c t) _ p q).trans (by rw [pay1_apply, step_part m c t p q r hr, h0])

/-- At a later step it ends at what the point before left plus the step's partial sum. -/
theorem acc_next (c : Dev nD) (t : Fin cfg0.N) (h0 : ¬t.val % 8 = 0) (p : Fin 1024) (q : Fin 128) (r : Fin 8192)
    (hr : r.val = (t.val / 8) * 1024 + p.val) :
    accN m c p q t.val = accN m c p q (t.val - 1) + Cert.AccSpec.part (INC m c) (XE m c) r q (t.val % 8) := by
  have hlt : t.val - 1 < cfg0.N := Nat.lt_of_le_of_lt (Nat.sub_le _ _) t.isLt
  have hprev : accN m c p q (t.val - 1) = ((outsAt0 m c (t.val - 1) hlt).2 : FVec Ideal S1024x128 .f32) (ix2 p q) := by
    unfold accN; rw [dif_pos hlt]
  rw [accN_eq, hprev]
  by_cases h1 : t.val % 8 = 7
  · rw [outsAt0_C m c t h0 h1]
    dsimp only
    rw [sout0_C_0_eq]
    exact (pay2_apply (B0 m c t) (B1 m c t) _ p q).trans (by rw [step_part m c t p q r hr])
  · rw [outsAt0_B m c t h0 h1]
    dsimp only
    rw [sout0_B_0_eq]
    exact (pay2_apply (B0 m c t) (B1 m c t) _ p q).trans (by rw [step_part m c t p q r hr])

/-- After the eighth step of row-block i the accumulator holds the whole product's entry. -/
theorem acc_last (c : Dev nD) (i : Fin 8) (p : Fin 1024) (q : Fin 128) (r : Fin 8192) (hr : r.val = i.val * 1024 + p.val) :
    accN m c p q (8 * i.val + 7) = Cert.AccSpec.whole (INC m c) (XE m c) r q := by
  have hN : cfg0.N = 64 := N_0
  have hi := i.isLt
  refine Cert.AccSpec.acc_whole (INC m c) (XE m c) r q (accN m c p q) (8 * i.val) ?_ ?_
  · have ht : 8 * i.val < cfg0.N := by omega
    have := acc_first m c ⟨8 * i.val, ht⟩ (by show (8 * i.val) % 8 = 0; omega) p q r (by show r.val = (8 * i.val) / 8 * 1024 + p.val; rw [hr]; omega)
    exact this
  · intro s hs
    have ht : 8 * i.val + (s + 1) < cfg0.N := by omega
    have := acc_next m c ⟨8 * i.val + (s + 1), ht⟩ (by show ¬(8 * i.val + (s + 1)) % 8 = 0; omega) p q r
      (by show r.val = (8 * i.val + (s + 1)) / 8 * 1024 + p.val; rw [hr]; congr 2; omega)
    have e1 : (8 * i.val + (s + 1)) - 1 = 8 * i.val + s := by omega
    have e2 : (8 * i.val + (s + 1)) % 8 = s + 1 := by omega
    simp only [e1, e2] at this
    exact this

end Cert.KernelIdeal.HandVal

end
-- ==== Proof.ValFinal.lean ====
/-
  From the per-point contents to the array. The output window writes its block back at the last step of each
  row-block (t % 8 = 7), where its staging buffer holds a copy of the accumulator, that is, the whole
  contraction at rows (t / 8) * 1024 … of the product. The eight written blocks tile the 8192 rows, so after the
  run the output array is the product of the two arrays the region read, entry by entry.
-/
import proofs.«125620_j10290741641936_1_alg».proof.Proof.ValAcc

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The product of the two arrays the region reads, entry by entry. -/
abbrev G (c : Dev nD) : FVec Ideal S8192x128 .f32 := fun j => Cert.AccSpec.whole (INC m c) (XE m c) (j 0) (j 1)

/-- At a last step the output block's buffer holds what the accumulator holds. -/
theorem out_eq_acc (c : Dev nD) (t : Fin cfg0.N) (h7 : t.val % 8 = 7) :
    (outsAt0 m c t.val t.isLt).1 = (outsAt0 m c t.val t.isLt).2 := by
  rw [outsAt0_C m c t (by omega) h7]
  dsimp only
  rw [out0_C_2_eq, sout0_C_0_eq]

/-- At a last step, entry (p, q) of the accumulator is entry (r, q) of the product, r the array row of the
    block's row p. -/
theorem acc_entry (c : Dev nD) (t : Fin cfg0.N) (h7 : t.val % 8 = 7) (p : Fin 1024) (q : Fin 128) (r : Fin 8192) (q' : Fin 128)
    (hr : r.val = (t.val / 8) * 1024 + p.val) (hq : q'.val = q.val) :
    ((outsAt0 m c t.val t.isLt).2 : FVec Ideal S1024x128 .f32) (ix2 p q) = Cert.AccSpec.whole (INC m c) (XE m c) r q' := by
  have hN : cfg0.N = 64 := N_0
  have hlt := t.isLt
  rw [← accN_eq m c p q t]
  have ht : t.val = 8 * (t.val / 8) + 7 := by omega
  have hi : t.val / 8 < 8 := by omega
  obtain rfl : q = q' := Fin.ext hq.symm
  exact (congrArg (accN m c p q) ht).trans (acc_last m c ⟨t.val / 8, hi⟩ p q r hr)

theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  show (cfg0.win 2).cut (grid0.coords t) ((dats m 0 c).after 2 t) = _
  rw [after0_2, out_eq_acc m c t h7]
  funext y
  have hp : (y 0).val < 1024 := Nat.lt_of_lt_of_le (y 0).isLt ((cfg0.win 2).xsize_le (grid0.coords t) 0)
  have hq : (y 1).val < 128 := Nat.lt_of_lt_of_le (y 1).isLt ((cfg0.win 2).xsize_le (grid0.coords t) 1)
  have hx : (cfg0.win 2).xinj (grid0.coords t) y = (ix2 (⟨(y 0).val, hp⟩ : Fin 1024) (⟨(y 1).val, hq⟩ : Fin 128) : S1024x128.Idx) :=
    funext fun a => by match a with | ⟨0, _⟩ => rfl | ⟨1, _⟩ => rfl
  have e1 : (cfg0.win 2).cut (grid0.coords t) (outsAt0 m c t.val t.isLt).2 y = ((outsAt0 m c t.val t.isLt).2 : FVec Ideal S1024x128 .f32) ((cfg0.win 2).xinj (grid0.coords t) y) := rfl
  refine e1.trans ?_
  rw [hx]
  have e2 := acc_entry m c t h7 ⟨(y 0).val, hp⟩ ⟨(y 1).val, hq⟩ ((((cfg0.win 2).blk t).view.emb y) 0) ((((cfg0.win 2).blk t).view.emb y) 1)
    (by show win0_2.index t 0 * 1024 + 1 * (y 0).val = (t.val / 8) * 1024 + (y 0).val
        rw [(idx2 t).1]; omega)
    (by show win0_2.index t 1 * 128 + 1 * (y 1).val = (y 1).val
        rw [(idx2 t).2]; omega)
  refine e2.trans ?_
  rw [View.read_apply, cast_eq]

/-- An index of the output array is in point t's block iff each coordinate is in the block's range. -/
theorem mem_blk (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v74).slice (win0_2.rect t)).set ↔ _
  rw [View.set_slice_whole, Rect.mem_set_unit]
  exact Iff.rfl

/-- Every entry of the output array is in the block written at the last step of its row-block. -/
theorem cover (i : S8192x128.Idx) : ∃ t : Fin cfg0.N, (cfg0.win 2).flush t = true ∧ i ∈ ((cfg0.win 2).blk t).view.set := by
  have hN : cfg0.N = 64 := N_0
  have h0 : (i 0).val < 8192 := (i 0).isLt
  have h1 : (i 1).val < 128 := (i 1).isLt
  have ht : 8 * ((i 0).val / 1024) + 7 < cfg0.N := by omega
  refine ⟨⟨8 * ((i 0).val / 1024) + 7, ht⟩, (flush0_2 _).mpr (by show (8 * ((i 0).val / 1024) + 7) % 8 = 7; omega), ?_⟩
  rw [mem_blk]
  intro a
  match a with
  | ⟨0, _⟩ =>
    show win0_2.index ⟨8 * ((i 0).val / 1024) + 7, ht⟩ 0 * 1024 ≤ (i 0).val ∧ (i 0).val < win0_2.index ⟨8 * ((i 0).val / 1024) + 7, ht⟩ 0 * 1024 + 1024
    rw [(idx2 ⟨8 * ((i 0).val / 1024) + 7, ht⟩).1]
    show (8 * ((i 0).val / 1024) + 7) / 8 * 1024 ≤ (i 0).val ∧ (i 0).val < (8 * ((i 0).val / 1024) + 7) / 8 * 1024 + 1024
    omega
  | ⟨1, _⟩ =>
    show win0_2.index ⟨8 * ((i 0).val / 1024) + 7, ht⟩ 1 * 128 ≤ (i 1).val ∧ (i 1).val < win0_2.index ⟨8 * ((i 0).val / 1024) + 7, ht⟩ 1 * 128 + 128
    rw [(idx2 ⟨8 * ((i 0).val / 1024) + 7, ht⟩).2]
    omega

/-- The output array after the run is the product. -/
theorem final (c : Dev nD) : (dats m 0 c).arrAt 2 cfg0.N = G m c :=
  (dats m 0 c).arrAt_eq_of_cover 2 (G m c) (flushed_eq m c) cover

end Cert.KernelIdeal.HandVal

end
-- ==== Proof.BridgeK.lean ====
/-
  The valuation the host operations after the region start from, on the kernel's side: the region's output
  array at the whole product of the two arrays it read, every other buffer as the region found it.
-/
import proofs.«125620_j10290741641936_1_alg».proof.Proof.ValFinal
import proofs.«125620_j10290741641936_1_alg».proof.Proof.HandFrame

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- What the later host operations start from on core c. -/
abbrev Wk (c : Dev nD) : Valuation τ sig (Elt Ideal) :=
  Pipeline.withArrays spec0 c (V0 m c) (fun w => (dats m 0 c).arrAt w cfg0.N)

/-- The program's result buffer after the run is the later operations' fold over that valuation. -/
theorem afterTail_eq (c : Dev nD) (b : Ref sig .tc) :
    Pipeline.afterTail₀ cfgs (dats m) 0 (V0 m) tailOpss c b = StableHlo.after (List.flatten tailOpss) (Wk m c) (Proc.devRef .tc b) := rfl

/-- At the region's output array it holds the product. -/
theorem Wk_out (c : Dev nD) : Wk m c (Proc.devRef .tc main_v74) = G m c :=
  (Pipeline.withArrays_arr spec0 launch0.win.arr_inj c (V0 m c) (fun w => (dats m 0 c).arrAt w cfg0.N) 2).trans (final m c)

/-- The same, with the two arrays the region read named by whatever they are equal to. -/
theorem Wk_out_of (c : Dev nD) (A : (⟨2, ![8192, 16384]⟩ : Shape).Idx → EReal) (B : (⟨2, ![16384, 128]⟩ : Shape).Idx → EReal)
    (hA : INC m c = A) (hB : XE m c = B) :
    Wk m c (Proc.devRef .tc main_v74) = fun j => Cert.AccSpec.whole A B (j 0) (j 1) := by
  subst hA hB
  exact Wk_out m c

/-- At any buffer that is no array of the pipeline it holds what the region found there. -/
theorem Wk_other (c : Dev nD) (b : Ref sig .tc) (hb : ∀ w, Pipeline.arrRef spec0 w ≠ b) :
    Wk m c (Proc.devRef .tc b) = V0 m c (Proc.devRef .tc b) :=
  Pipeline.withArrays_of_ne spec0 c (V0 m c) (fun w => (dats m 0 c).arrAt w cfg0.N) b hb

end Cert.KernelIdeal.HandVal

end
-- ==== Proof.DotWhole.lean ====
/-
  The reference's one big product. Over the extended reals the host's dot_general of the [8192, 16384]
  incidence matrix with the [16384, 128] edge features, contracting the 16384 axis with no batch axes, is at
  entry (r, q) the sum over e of left (r, e) * right (e, q): the same whole contraction the kernel's eight
  accumulated blocks add up to.
-/
import proofs.«125620_j10290741641936_1_alg».proof.ReferenceIdeal
import proofs.«125620_j10290741641936_1_alg».proof.Proof.LibDotApply
import proofs.«125620_j10290741641936_1_alg».proof.Proof.AccSpec

noncomputable section

namespace Cert.ReferenceIdeal.RefVal

open Cert.ReferenceIdeal Idealize.ShloMosaic Idealize.ShloMosaic.ValueIdx

variable [Facts]

theorem dot_whole (L : FVec Ideal S8192x16384 .f32) (R : FVec Ideal S16384x128 .f32) :
    (Host.dotGeneral dot_S8192x16384_S16384x128_S8192x128_1_0_0_1_n_n none L R : FVec Ideal S8192x128 .f32)
      = fun j => Cert.AccSpec.whole L R (j 0) (j 1) := by
  funext j
  obtain ⟨r, q, rfl⟩ : ∃ (r : Fin 8192) (q : Fin 128), j = ix2 r q := ⟨j 0, j 1, eq_ix2 j⟩
  exact Cert.LibDotApply.dotGeneral_apply dot_S8192x16384_S16384x128_S8192x128_1_0_0_1_n_n ⟨rfl, rfl, rfl, rfl, rfl, rfl⟩ none .single L R r q

end Cert.ReferenceIdeal.RefVal

end
-- ==== Proof.BridgeR.lean ====
/-
  The valuation the reference's later host operations start from: the buffers as the operations before the
  product leave them, with the product's result buffer at the whole contraction of the incidence matrix with
  the updated edge features.
-/
import proofs.«125620_j10290741641936_1_alg».proof.Proof.RefRun
import proofs.«125620_j10290741641936_1_alg».proof.Proof.DotWhole

noncomputable section

namespace Cert.ReferenceIdeal.RefVal

open Cert.ReferenceIdeal Cert.ReferenceIdeal.Gen Cert.ReferenceIdeal.RefRun
open Idealize.ShloMosaic Idealize.ShloMosaic.TcCoe Idealize.SL.Sem Idealize.ShloMosaic.StableHlo

variable [Facts]

/-- The buffers after the product, from contents V. -/
abbrev Wr (V : Valuation τ sig (Elt Ideal)) : Valuation τ sig (Elt Ideal) :=
  (dotOp (F := Ideal)).result (after (preOps (F := Ideal)) V)

/-- The whole line is the later operations run from there. -/
theorem after_ops (V : Valuation τ sig (Elt Ideal)) (b : DevRef τ sig) :
    after (ops (F := Ideal)) V b = after (tailOps (F := Ideal)) (Wr V) b := by
  show after (preOps ++ dotOp :: tailOps) V b = _
  rw [after_append, after_cons]

/-- At the product's result buffer: the whole contraction. -/
theorem Wr_out (V : Valuation τ sig (Elt Ideal)) :
    Wr V (main_v74 : DevRef τ sig)
      = fun j => Cert.AccSpec.whole (after (preOps (F := Ideal)) V (main_arg2 : DevRef τ sig)) (after (preOps (F := Ideal)) V (main_v68 : DevRef τ sig)) (j 0) (j 1) :=
  (binary_result main_arg2 main_v68 main_v74 _ _ _ _ (after (preOps (F := Ideal)) V)).trans (dot_whole _ _)

/-- At any other buffer: what the earlier operations left. -/
theorem Wr_other (V : Valuation τ sig (Elt Ideal)) (b : Ref sig .tc) (h : b ≠ main_v74) :
    Wr V (Proc.devRef .tc b) = after (preOps (F := Ideal)) V (Proc.devRef .tc b) :=
  binary_result_ne (h := h) ..

end Cert.ReferenceIdeal.RefVal

end
-- ==== Proof.CorrBase.lean ====
/- What the two programs' host chains are compared with. The kernel program and the reference are the same host
   code around the product of the incidence matrix with the updated edge features: operation for operation they
   apply the same functions to like-named buffers. The two modules define their constant tables and contraction
   and gather records separately, equal by unfolding; joining two arrays respects equality of each; the kernel
   program's operations before the product write past the 24 argument buffers, as the reference's do. -/
import proofs.«125620_j10290741641936_1_alg».proof.Proof.HandBase
import proofs.«125620_j10290741641936_1_alg».proof.Proof.RefRun

noncomputable section

namespace Cert.Proof.Corr

open Idealize.ShloMosaic Idealize.ShloMosaic.TcCoe Idealize.SL.Sem Idealize.ShloMosaic.StableHlo
open Cert.ReferenceIdeal.RefRun (after_append WritesFrom nullary_from unary_from binary_from ternary_from reshape_from
  forall_mem_cons' forall_mem_append after_of_writesFrom)

variable {F : FTy → Type} [FloatOps F]

/-! ## The two modules' tables and records are the same -/

theorem lit0_eq : Cert.KernelIdeal.lit0 = Cert.ReferenceIdeal.lit0 := rfl
theorem lit1_eq : Cert.KernelIdeal.lit1 = Cert.ReferenceIdeal.lit1 := rfl
theorem gather_eq : Cert.KernelIdeal.gather_S9x128_S16384x1_S16384x128_1_0_n_n_0_1_1128 = Cert.ReferenceIdeal.gather_S9x128_S16384x1_S16384x128_1_0_n_n_0_1_1128 := rfl
theorem dot0_eq : Cert.KernelIdeal.dot_S8192x256_S256x256_S8192x256_1_0_0_1_n_n = Cert.ReferenceIdeal.dot_S8192x256_S256x256_S8192x256_1_0_0_1_n_n := rfl
theorem dot1_eq : Cert.KernelIdeal.dot_S8192x256_S256x128_S8192x128_1_0_0_1_n_n = Cert.ReferenceIdeal.dot_S8192x256_S256x128_S8192x128_1_0_0_1_n_n := rfl
theorem dot2_eq : Cert.KernelIdeal.dot_S16384x256_S256x256_S16384x256_1_0_0_1_n_n = Cert.ReferenceIdeal.dot_S16384x256_S256x256_S16384x256_1_0_0_1_n_n := rfl
theorem dot3_eq : Cert.KernelIdeal.dot_S16384x256_S256x128_S16384x128_1_0_0_1_n_n = Cert.ReferenceIdeal.dot_S16384x256_S256x128_S16384x128_1_0_0_1_n_n := rfl
theorem dot5_eq : Cert.KernelIdeal.dot_S1x256_S256x256_S1x256_1_0_0_1_n_n = Cert.ReferenceIdeal.dot_S1x256_S256x256_S1x256_1_0_0_1_n_n := rfl
theorem dot6_eq : Cert.KernelIdeal.dot_S1x256_S256x128_S1x128_1_0_0_1_n_n = Cert.ReferenceIdeal.dot_S1x256_S256x128_S1x128_1_0_0_1_n_n := rfl
theorem dot7_eq : Cert.KernelIdeal.dot_S8192x128_S128x256_S8192x256_1_0_0_1_n_n = Cert.ReferenceIdeal.dot_S8192x128_S128x256_S8192x256_1_0_0_1_n_n := rfl

/-- Joining two arrays along an axis respects equality of each array. -/
theorem concat2_congr {α : Type} {t : Shape} {a : Fin t.rank} {s₁ s₂ : Shape} {x x' : s₁.Idx → α} {y y' : s₂.Idx → α}
    {h : Shape.Concatenates (([⟨s₁, x⟩, ⟨s₂, y⟩] : List ((s : Shape) × (s.Idx → α))).map (·.1)) t a}
    (hx : x = x') (hy : y = y') :
    concatenate t a [⟨s₁, x⟩, ⟨s₂, y⟩] h = concatenate t a [⟨s₁, x'⟩, ⟨s₂, y'⟩] (hx ▸ hy ▸ h) := by
  subst hx; subst hy; rfl

/-- What holds of every element of every list of `L` holds of every element of `L.flatten`. -/
theorem forall_mem_flatten {α : Type} {p : α → Prop} {L : List (List α)} (h : ∀ l ∈ L, ∀ a ∈ l, p a) :
    ∀ a ∈ L.flatten, p a :=
  fun a ha => let ⟨l, hl, hal⟩ := List.mem_flatten.mp ha; h l hl a hal

/-! ## Agreement on the arguments -/

/-- The two programs' 24 argument arrays hold the same contents. -/
structure ArgsEq (Vk : Valuation Cert.KernelIdeal.τ Cert.KernelIdeal.sig (Elt F)) (Vr : Valuation Cert.ReferenceIdeal.τ Cert.ReferenceIdeal.sig (Elt F)) : Prop where
  a0 : Vk (Cert.KernelIdeal.main_arg0 : DevRef Cert.KernelIdeal.τ Cert.KernelIdeal.sig) = Vr (Cert.ReferenceIdeal.main_arg0 : DevRef Cert.ReferenceIdeal.τ Cert.ReferenceIdeal.sig)
  a1 : Vk (Cert.KernelIdeal.main_arg1 : DevRef Cert.KernelIdeal.τ Cert.KernelIdeal.sig) = Vr (Cert.ReferenceIdeal.main_arg1 : DevRef Cert.ReferenceIdeal.τ Cert.ReferenceIdeal.sig)
  a2 : Vk (Cert.KernelIdeal.main_arg2 : DevRef Cert.KernelIdeal.τ Cert.KernelIdeal.sig) = Vr (Cert.ReferenceIdeal.main_arg2 : DevRef Cert.ReferenceIdeal.τ Cert.ReferenceIdeal.sig)
  a3 : Vk (Cert.KernelIdeal.main_arg3 : DevRef Cert.KernelIdeal.τ Cert.KernelIdeal.sig) = Vr (Cert.ReferenceIdeal.main_arg3 : DevRef Cert.ReferenceIdeal.τ Cert.ReferenceIdeal.sig)
  a4 : Vk (Cert.KernelIdeal.main_arg4 : DevRef Cert.KernelIdeal.τ Cert.KernelIdeal.sig) = Vr (Cert.ReferenceIdeal.main_arg4 : DevRef Cert.ReferenceIdeal.τ Cert.ReferenceIdeal.sig)
  a5 : Vk (Cert.KernelIdeal.main_arg5 : DevRef Cert.KernelIdeal.τ Cert.KernelIdeal.sig) = Vr (Cert.ReferenceIdeal.main_arg5 : DevRef Cert.ReferenceIdeal.τ Cert.ReferenceIdeal.sig)
  a6 : Vk (Cert.KernelIdeal.main_arg6 : DevRef Cert.KernelIdeal.τ Cert.KernelIdeal.sig) = Vr (Cert.ReferenceIdeal.main_arg6 : DevRef Cert.ReferenceIdeal.τ Cert.ReferenceIdeal.sig)
  a7 : Vk (Cert.KernelIdeal.main_arg7 : DevRef Cert.KernelIdeal.τ Cert.KernelIdeal.sig) = Vr (Cert.ReferenceIdeal.main_arg7 : DevRef Cert.ReferenceIdeal.τ Cert.ReferenceIdeal.sig)
  a8 : Vk (Cert.KernelIdeal.main_arg8 : DevRef Cert.KernelIdeal.τ Cert.KernelIdeal.sig) = Vr (Cert.ReferenceIdeal.main_arg8 : DevRef Cert.ReferenceIdeal.τ Cert.ReferenceIdeal.sig)
  a9 : Vk (Cert.KernelIdeal.main_arg9 : DevRef Cert.KernelIdeal.τ Cert.KernelIdeal.sig) = Vr (Cert.ReferenceIdeal.main_arg9 : DevRef Cert.ReferenceIdeal.τ Cert.ReferenceIdeal.sig)
  a10 : Vk (Cert.KernelIdeal.main_arg10 : DevRef Cert.KernelIdeal.τ Cert.KernelIdeal.sig) = Vr (Cert.ReferenceIdeal.main_arg10 : DevRef Cert.ReferenceIdeal.τ Cert.ReferenceIdeal.sig)
  a11 : Vk (Cert.KernelIdeal.main_arg11 : DevRef Cert.KernelIdeal.τ Cert.KernelIdeal.sig) = Vr (Cert.ReferenceIdeal.main_arg11 : DevRef Cert.ReferenceIdeal.τ Cert.ReferenceIdeal.sig)
  a12 : Vk (Cert.KernelIdeal.main_arg12 : DevRef Cert.KernelIdeal.τ Cert.KernelIdeal.sig) = Vr (Cert.ReferenceIdeal.main_arg12 : DevRef Cert.ReferenceIdeal.τ Cert.ReferenceIdeal.sig)
  a13 : Vk (Cert.KernelIdeal.main_arg13 : DevRef Cert.KernelIdeal.τ Cert.KernelIdeal.sig) = Vr (Cert.ReferenceIdeal.main_arg13 : DevRef Cert.ReferenceIdeal.τ Cert.ReferenceIdeal.sig)
  a14 : Vk (Cert.KernelIdeal.main_arg14 : DevRef Cert.KernelIdeal.τ Cert.KernelIdeal.sig) = Vr (Cert.ReferenceIdeal.main_arg14 : DevRef Cert.ReferenceIdeal.τ Cert.ReferenceIdeal.sig)
  a15 : Vk (Cert.KernelIdeal.main_arg15 : DevRef Cert.KernelIdeal.τ Cert.KernelIdeal.sig) = Vr (Cert.ReferenceIdeal.main_arg15 : DevRef Cert.ReferenceIdeal.τ Cert.ReferenceIdeal.sig)
  a16 : Vk (Cert.KernelIdeal.main_arg16 : DevRef Cert.KernelIdeal.τ Cert.KernelIdeal.sig) = Vr (Cert.ReferenceIdeal.main_arg16 : DevRef Cert.ReferenceIdeal.τ Cert.ReferenceIdeal.sig)
  a17 : Vk (Cert.KernelIdeal.main_arg17 : DevRef Cert.KernelIdeal.τ Cert.KernelIdeal.sig) = Vr (Cert.ReferenceIdeal.main_arg17 : DevRef Cert.ReferenceIdeal.τ Cert.ReferenceIdeal.sig)
  a18 : Vk (Cert.KernelIdeal.main_arg18 : DevRef Cert.KernelIdeal.τ Cert.KernelIdeal.sig) = Vr (Cert.ReferenceIdeal.main_arg18 : DevRef Cert.ReferenceIdeal.τ Cert.ReferenceIdeal.sig)
  a19 : Vk (Cert.KernelIdeal.main_arg19 : DevRef Cert.KernelIdeal.τ Cert.KernelIdeal.sig) = Vr (Cert.ReferenceIdeal.main_arg19 : DevRef Cert.ReferenceIdeal.τ Cert.ReferenceIdeal.sig)
  a20 : Vk (Cert.KernelIdeal.main_arg20 : DevRef Cert.KernelIdeal.τ Cert.KernelIdeal.sig) = Vr (Cert.ReferenceIdeal.main_arg20 : DevRef Cert.ReferenceIdeal.τ Cert.ReferenceIdeal.sig)
  a21 : Vk (Cert.KernelIdeal.main_arg21 : DevRef Cert.KernelIdeal.τ Cert.KernelIdeal.sig) = Vr (Cert.ReferenceIdeal.main_arg21 : DevRef Cert.ReferenceIdeal.τ Cert.ReferenceIdeal.sig)
  a22 : Vk (Cert.KernelIdeal.main_arg22 : DevRef Cert.KernelIdeal.τ Cert.KernelIdeal.sig) = Vr (Cert.ReferenceIdeal.main_arg22 : DevRef Cert.ReferenceIdeal.τ Cert.ReferenceIdeal.sig)
  a23 : Vk (Cert.KernelIdeal.main_arg23 : DevRef Cert.KernelIdeal.τ Cert.KernelIdeal.sig) = Vr (Cert.ReferenceIdeal.main_arg23 : DevRef Cert.ReferenceIdeal.τ Cert.ReferenceIdeal.sig)

/-! ## No operation before the product writes an argument -/

theorem hostOps0_from : (Cert.KernelIdeal.Gen.hostOps0 : List (HloOp Cert.KernelIdeal.τ Cert.KernelIdeal.sig (Elt F))).Forall (WritesFrom 24) :=
  ⟨nullary_from (by decide), nullary_from (by decide), unary_from (by decide), reshape_from (by decide), unary_from (by decide), nullary_from (by decide), unary_from (by decide), binary_from (by decide), nullary_from (by decide), unary_from (by decide), binary_from (by decide), ternary_from (by decide), unary_from (by decide), binary_from (by decide), nullary_from (by decide), binary_from (by decide), unary_from (by decide), nullary_from (by decide), unary_from (by decide), binary_from (by decide), nullary_from (by decide)⟩
theorem hostOps0_1_from : (Cert.KernelIdeal.Gen.hostOps0_1 : List (HloOp Cert.KernelIdeal.τ Cert.KernelIdeal.sig (Elt F))).Forall (WritesFrom 24) :=
  ⟨nullary_from (by decide), binary_from (by decide), unary_from (by decide), nullary_from (by decide), unary_from (by decide), binary_from (by decide), unary_from (by decide), binary_from (by decide), binary_from (by decide), unary_from (by decide), nullary_from (by decide), binary_from (by decide), nullary_from (by decide), binary_from (by decide), unary_from (by decide), unary_from (by decide), binary_from (by decide), nullary_from (by decide), binary_from (by decide), nullary_from (by decide), unary_from (by decide), unary_from (by decide), ternary_from (by decide)⟩
theorem hostOps0_2_from : (Cert.KernelIdeal.Gen.hostOps0_2 : List (HloOp Cert.KernelIdeal.τ Cert.KernelIdeal.sig (Elt F))).Forall (WritesFrom 24) :=
  ⟨unary_from (by decide), binary_from (by decide), nullary_from (by decide), unary_from (by decide), binary_from (by decide), unary_from (by decide), unary_from (by decide), binary_from (by decide), unary_from (by decide), unary_from (by decide), binary_from (by decide), unary_from (by decide), unary_from (by decide), binary_from (by decide), nullary_from (by decide), binary_from (by decide), unary_from (by decide), nullary_from (by decide), unary_from (by decide), binary_from (by decide), nullary_from (by decide)⟩
theorem hostOps0_3_from : (Cert.KernelIdeal.Gen.hostOps0_3 : List (HloOp Cert.KernelIdeal.τ Cert.KernelIdeal.sig (Elt F))).Forall (WritesFrom 24) :=
  ⟨nullary_from (by decide), binary_from (by decide), unary_from (by decide), nullary_from (by decide), unary_from (by decide), binary_from (by decide), unary_from (by decide), binary_from (by decide), binary_from (by decide), unary_from (by decide), nullary_from (by decide), binary_from (by decide), nullary_from (by decide), binary_from (by decide), unary_from (by decide), unary_from (by decide), binary_from (by decide), nullary_from (by decide), binary_from (by decide), nullary_from (by decide), unary_from (by decide), unary_from (by decide), ternary_from (by decide)⟩
theorem hostOps0_4_from : (Cert.KernelIdeal.Gen.hostOps0_4 : List (HloOp Cert.KernelIdeal.τ Cert.KernelIdeal.sig (Elt F))).Forall (WritesFrom 24) :=
  ⟨unary_from (by decide), binary_from (by decide), nullary_from (by decide), unary_from (by decide), binary_from (by decide), unary_from (by decide), unary_from (by decide), binary_from (by decide), unary_from (by decide), unary_from (by decide), binary_from (by decide), unary_from (by decide), unary_from (by decide), binary_from (by decide), unary_from (by decide), binary_from (by decide), binary_from (by decide), unary_from (by decide), unary_from (by decide), binary_from (by decide)⟩
theorem hostOps0_5_from : (Cert.KernelIdeal.Gen.hostOps0_5 : List (HloOp Cert.KernelIdeal.τ Cert.KernelIdeal.sig (Elt F))).Forall (WritesFrom 24) :=
  ⟨nullary_from (by decide), unary_from (by decide), binary_from (by decide)⟩
theorem hostOps0_6_from : (Cert.KernelIdeal.Gen.hostOps0_6 : List (HloOp Cert.KernelIdeal.τ Cert.KernelIdeal.sig (Elt F))).Forall (WritesFrom 24) :=
  ⟨binary_from (by decide), unary_from (by decide), unary_from (by decide), binary_from (by decide), binary_from (by decide), binary_from (by decide), binary_from (by decide), unary_from (by decide), unary_from (by decide), binary_from (by decide)⟩
theorem hostOps0_7_from : (Cert.KernelIdeal.Gen.hostOps0_7 : List (HloOp Cert.KernelIdeal.τ Cert.KernelIdeal.sig (Elt F))).Forall (WritesFrom 24) :=
  ⟨nullary_from (by decide), unary_from (by decide), binary_from (by decide)⟩
theorem hostOps0_8_from : (Cert.KernelIdeal.Gen.hostOps0_8 : List (HloOp Cert.KernelIdeal.τ Cert.KernelIdeal.sig (Elt F))).Forall (WritesFrom 24) :=
  ⟨binary_from (by decide), unary_from (by decide), unary_from (by decide), binary_from (by decide), binary_from (by decide), binary_from (by decide), nullary_from (by decide), binary_from (by decide), unary_from (by decide), nullary_from (by decide), unary_from (by decide), binary_from (by decide)⟩

/-- Every operation of the kernel program before the product writes past the 24 argument buffers. -/
theorem kpre_from : ∀ op ∈ List.flatten (Cert.KernelIdeal.Hand.preOpss : List (List (HloOp Cert.KernelIdeal.τ Cert.KernelIdeal.sig (Elt F)))), WritesFrom 24 op :=
  forall_mem_flatten (forall_mem_cons' (List.forall_iff_forall_mem.mp hostOps0_from) (forall_mem_cons' (List.forall_iff_forall_mem.mp hostOps0_1_from) (forall_mem_cons' (List.forall_iff_forall_mem.mp hostOps0_2_from) (forall_mem_cons' (List.forall_iff_forall_mem.mp hostOps0_3_from) (forall_mem_cons' (List.forall_iff_forall_mem.mp hostOps0_4_from) (forall_mem_cons' (List.forall_iff_forall_mem.mp hostOps0_5_from) (forall_mem_cons' (List.forall_iff_forall_mem.mp hostOps0_6_from) (forall_mem_cons' (List.forall_iff_forall_mem.mp hostOps0_7_from) (forall_mem_cons' (List.forall_iff_forall_mem.mp hostOps0_8_from) (fun _ h => nomatch h))))))))))

/-- And so does every operation of the reference before it. -/
theorem rpre_from : ∀ op ∈ (Cert.ReferenceIdeal.RefRun.preOps : List (HloOp Cert.ReferenceIdeal.τ Cert.ReferenceIdeal.sig (Elt F))), WritesFrom 24 op :=
  Cert.ReferenceIdeal.RefRun.preOps_all Cert.ReferenceIdeal.RefRun.pre0_from Cert.ReferenceIdeal.RefRun.pre1_from Cert.ReferenceIdeal.RefRun.pre2_from Cert.ReferenceIdeal.RefRun.pre3_from Cert.ReferenceIdeal.RefRun.pre4_from Cert.ReferenceIdeal.RefRun.pre5_from Cert.ReferenceIdeal.RefRun.pre6_from Cert.ReferenceIdeal.RefRun.pre7_from Cert.ReferenceIdeal.RefRun.pre8_from Cert.ReferenceIdeal.RefRun.pre9_from

/-- The arguments agree after the two programs' operations before the product if they agreed before them. -/
theorem pre_args {Vk : Valuation Cert.KernelIdeal.τ Cert.KernelIdeal.sig (Elt F)} {Vr : Valuation Cert.ReferenceIdeal.τ Cert.ReferenceIdeal.sig (Elt F)} (h : ArgsEq Vk Vr) :
    ArgsEq (after (List.flatten Cert.KernelIdeal.Hand.preOpss) Vk) (after Cert.ReferenceIdeal.RefRun.preOps Vr) :=
  ⟨(after_of_writesFrom _ Vk kpre_from Cert.KernelIdeal.main_arg0 (by decide)).trans (h.a0.trans (after_of_writesFrom _ Vr rpre_from Cert.ReferenceIdeal.main_arg0 (by decide)).symm),
   (after_of_writesFrom _ Vk kpre_from Cert.KernelIdeal.main_arg1 (by decide)).trans (h.a1.trans (after_of_writesFrom _ Vr rpre_from Cert.ReferenceIdeal.main_arg1 (by decide)).symm),
   (after_of_writesFrom _ Vk kpre_from Cert.KernelIdeal.main_arg2 (by decide)).trans (h.a2.trans (after_of_writesFrom _ Vr rpre_from Cert.ReferenceIdeal.main_arg2 (by decide)).symm),
   (after_of_writesFrom _ Vk kpre_from Cert.KernelIdeal.main_arg3 (by decide)).trans (h.a3.trans (after_of_writesFrom _ Vr rpre_from Cert.ReferenceIdeal.main_arg3 (by decide)).symm),
   (after_of_writesFrom _ Vk kpre_from Cert.KernelIdeal.main_arg4 (by decide)).trans (h.a4.trans (after_of_writesFrom _ Vr rpre_from Cert.ReferenceIdeal.main_arg4 (by decide)).symm),
   (after_of_writesFrom _ Vk kpre_from Cert.KernelIdeal.main_arg5 (by decide)).trans (h.a5.trans (after_of_writesFrom _ Vr rpre_from Cert.ReferenceIdeal.main_arg5 (by decide)).symm),
   (after_of_writesFrom _ Vk kpre_from Cert.KernelIdeal.main_arg6 (by decide)).trans (h.a6.trans (after_of_writesFrom _ Vr rpre_from Cert.ReferenceIdeal.main_arg6 (by decide)).symm),
   (after_of_writesFrom _ Vk kpre_from Cert.KernelIdeal.main_arg7 (by decide)).trans (h.a7.trans (after_of_writesFrom _ Vr rpre_from Cert.ReferenceIdeal.main_arg7 (by decide)).symm),
   (after_of_writesFrom _ Vk kpre_from Cert.KernelIdeal.main_arg8 (by decide)).trans (h.a8.trans (after_of_writesFrom _ Vr rpre_from Cert.ReferenceIdeal.main_arg8 (by decide)).symm),
   (after_of_writesFrom _ Vk kpre_from Cert.KernelIdeal.main_arg9 (by decide)).trans (h.a9.trans (after_of_writesFrom _ Vr rpre_from Cert.ReferenceIdeal.main_arg9 (by decide)).symm),
   (after_of_writesFrom _ Vk kpre_from Cert.KernelIdeal.main_arg10 (by decide)).trans (h.a10.trans (after_of_writesFrom _ Vr rpre_from Cert.ReferenceIdeal.main_arg10 (by decide)).symm),
   (after_of_writesFrom _ Vk kpre_from Cert.KernelIdeal.main_arg11 (by decide)).trans (h.a11.trans (after_of_writesFrom _ Vr rpre_from Cert.ReferenceIdeal.main_arg11 (by decide)).symm),
   (after_of_writesFrom _ Vk kpre_from Cert.KernelIdeal.main_arg12 (by decide)).trans (h.a12.trans (after_of_writesFrom _ Vr rpre_from Cert.ReferenceIdeal.main_arg12 (by decide)).symm),
   (after_of_writesFrom _ Vk kpre_from Cert.KernelIdeal.main_arg13 (by decide)).trans (h.a13.trans (after_of_writesFrom _ Vr rpre_from Cert.ReferenceIdeal.main_arg13 (by decide)).symm),
   (after_of_writesFrom _ Vk kpre_from Cert.KernelIdeal.main_arg14 (by decide)).trans (h.a14.trans (after_of_writesFrom _ Vr rpre_from Cert.ReferenceIdeal.main_arg14 (by decide)).symm),
   (after_of_writesFrom _ Vk kpre_from Cert.KernelIdeal.main_arg15 (by decide)).trans (h.a15.trans (after_of_writesFrom _ Vr rpre_from Cert.ReferenceIdeal.main_arg15 (by decide)).symm),
   (after_of_writesFrom _ Vk kpre_from Cert.KernelIdeal.main_arg16 (by decide)).trans (h.a16.trans (after_of_writesFrom _ Vr rpre_from Cert.ReferenceIdeal.main_arg16 (by decide)).symm),
   (after_of_writesFrom _ Vk kpre_from Cert.KernelIdeal.main_arg17 (by decide)).trans (h.a17.trans (after_of_writesFrom _ Vr rpre_from Cert.ReferenceIdeal.main_arg17 (by decide)).symm),
   (after_of_writesFrom _ Vk kpre_from Cert.KernelIdeal.main_arg18 (by decide)).trans (h.a18.trans (after_of_writesFrom _ Vr rpre_from Cert.ReferenceIdeal.main_arg18 (by decide)).symm),
   (after_of_writesFrom _ Vk kpre_from Cert.KernelIdeal.main_arg19 (by decide)).trans (h.a19.trans (after_of_writesFrom _ Vr rpre_from Cert.ReferenceIdeal.main_arg19 (by decide)).symm),
   (after_of_writesFrom _ Vk kpre_from Cert.KernelIdeal.main_arg20 (by decide)).trans (h.a20.trans (after_of_writesFrom _ Vr rpre_from Cert.ReferenceIdeal.main_arg20 (by decide)).symm),
   (after_of_writesFrom _ Vk kpre_from Cert.KernelIdeal.main_arg21 (by decide)).trans (h.a21.trans (after_of_writesFrom _ Vr rpre_from Cert.ReferenceIdeal.main_arg21 (by decide)).symm),
   (after_of_writesFrom _ Vk kpre_from Cert.KernelIdeal.main_arg22 (by decide)).trans (h.a22.trans (after_of_writesFrom _ Vr rpre_from Cert.ReferenceIdeal.main_arg22 (by decide)).symm),
   (after_of_writesFrom _ Vk kpre_from Cert.KernelIdeal.main_arg23 (by decide)).trans (h.a23.trans (after_of_writesFrom _ Vr rpre_from Cert.ReferenceIdeal.main_arg23 (by decide)).symm)⟩

end Cert.Proof.Corr

end
-- ==== Proof.CorrPre.lean ====
/- The two programs' operations BEFORE the product of the incidence matrix with the updated edge features leave
   like-named buffers with the same contents, from valuations that agree on the arguments: each side's fold read
   at a buffer is the composed term of its operations' functions over the arguments (every operation's result
   at its own buffer, every other buffer kept), and the two programs apply the same functions in the same
   order. Stated at the buffers read at or after the product: the updated edge features (`main_v68`), the updated
   node features (`main_v57`), the mean of both (`main_v73`), a constant table (`main_cst_0`), and the arguments. -/
import proofs.«125620_j10290741641936_1_alg».proof.Proof.CorrBase

noncomputable section

namespace Cert.Proof.Corr

open Idealize.ShloMosaic Idealize.ShloMosaic.TcCoe Idealize.SL.Sem Idealize.ShloMosaic.StableHlo
open Cert.ReferenceIdeal.RefRun (after_append)

variable {F : FTy → Type} [FloatOps F]

attribute [local congr] concat2_congr

set_option maxHeartbeats 100000000 in
/-- The updated edge features. -/
theorem pre_corr_v68 {Vk : Valuation Cert.KernelIdeal.τ Cert.KernelIdeal.sig (Elt F)} {Vr : Valuation Cert.ReferenceIdeal.τ Cert.ReferenceIdeal.sig (Elt F)} (h : ArgsEq Vk Vr) :
    after (List.flatten Cert.KernelIdeal.Hand.preOpss) Vk (Cert.KernelIdeal.main_v68 : DevRef Cert.KernelIdeal.τ Cert.KernelIdeal.sig)
      = after Cert.ReferenceIdeal.RefRun.preOps Vr (Cert.ReferenceIdeal.main_v68 : DevRef Cert.ReferenceIdeal.τ Cert.ReferenceIdeal.sig) := by
  obtain ⟨h0, h1, h2, h3, h4, h5, h6, h7, h8, h9, h10, h11, h12, h13, h14, h15, h16, h17, h18, h19, h20, h21, h22, h23⟩ := h
  simp (disch := decide) only [Cert.KernelIdeal.Hand.preOpss, List.flatten_cons, List.flatten_nil, after_append, after_cons, after_nil,
      nullary_result', unary_result', binary_result', ternary_result', reshape_result',
      nullary_result_ne', unary_result_ne', binary_result_ne', ternary_result_ne', reshape_result_ne']
  try simp only [h0, h1, h2, h3, h4, h5, h6, h7, h8, h9, h10, h11, h12, h13, h14, h15, h16, h17, h18, h19, h20, h21, h22, h23, lit0_eq, lit1_eq, gather_eq, dot0_eq, dot1_eq, dot2_eq, dot3_eq, dot5_eq, dot6_eq, dot7_eq]
  all_goals rfl

set_option maxHeartbeats 100000000 in
/-- The updated node features. -/
theorem pre_corr_v57 {Vk : Valuation Cert.KernelIdeal.τ Cert.KernelIdeal.sig (Elt F)} {Vr : Valuation Cert.ReferenceIdeal.τ Cert.ReferenceIdeal.sig (Elt F)} (h : ArgsEq Vk Vr) :
    after (List.flatten Cert.KernelIdeal.Hand.preOpss) Vk (Cert.KernelIdeal.main_v57 : DevRef Cert.KernelIdeal.τ Cert.KernelIdeal.sig)
      = after Cert.ReferenceIdeal.RefRun.preOps Vr (Cert.ReferenceIdeal.main_v57 : DevRef Cert.ReferenceIdeal.τ Cert.ReferenceIdeal.sig) := by
  obtain ⟨h0, h1, h2, h3, h4, h5, h6, h7, h8, h9, h10, h11, h12, h13, h14, h15, h16, h17, h18, h19, h20, h21, h22, h23⟩ := h
  simp (disch := decide) only [Cert.KernelIdeal.Hand.preOpss, List.flatten_cons, List.flatten_nil, after_append, after_cons, after_nil,
      nullary_result', unary_result', binary_result', ternary_result', reshape_result',
      nullary_result_ne', unary_result_ne', binary_result_ne', ternary_result_ne', reshape_result_ne']
  try simp only [h0, h1, h2, h3, h4, h5, h6, h7, h8, h9, h10, h11, h12, h13, h14, h15, h16, h17, h18, h19, h20, h21, h22, h23, lit0_eq, lit1_eq, gather_eq, dot0_eq, dot1_eq, dot2_eq, dot3_eq, dot5_eq, dot6_eq, dot7_eq]
  all_goals rfl

set_option maxHeartbeats 100000000 in
/-- The mean over nodes and edges of the updated features. -/
theorem pre_corr_v73 {Vk : Valuation Cert.KernelIdeal.τ Cert.KernelIdeal.sig (Elt F)} {Vr : Valuation Cert.ReferenceIdeal.τ Cert.ReferenceIdeal.sig (Elt F)} (h : ArgsEq Vk Vr) :
    after (List.flatten Cert.KernelIdeal.Hand.preOpss) Vk (Cert.KernelIdeal.main_v73 : DevRef Cert.KernelIdeal.τ Cert.KernelIdeal.sig)
      = after Cert.ReferenceIdeal.RefRun.preOps Vr (Cert.ReferenceIdeal.main_v73 : DevRef Cert.ReferenceIdeal.τ Cert.ReferenceIdeal.sig) := by
  obtain ⟨h0, h1, h2, h3, h4, h5, h6, h7, h8, h9, h10, h11, h12, h13, h14, h15, h16, h17, h18, h19, h20, h21, h22, h23⟩ := h
  simp (disch := decide) only [Cert.KernelIdeal.Hand.preOpss, List.flatten_cons, List.flatten_nil, after_append, after_cons, after_nil,
      nullary_result', unary_result', binary_result', ternary_result', reshape_result',
      nullary_result_ne', unary_result_ne', binary_result_ne', ternary_result_ne', reshape_result_ne']
  try simp only [h0, h1, h2, h3, h4, h5, h6, h7, h8, h9, h10, h11, h12, h13, h14, h15, h16, h17, h18, h19, h20, h21, h22, h23, lit0_eq, lit1_eq, gather_eq, dot0_eq, dot1_eq, dot2_eq, dot3_eq, dot5_eq, dot6_eq, dot7_eq]
  all_goals rfl

set_option maxHeartbeats 100000000 in
/-- The second constant table. -/
theorem pre_corr_cst_0 {Vk : Valuation Cert.KernelIdeal.τ Cert.KernelIdeal.sig (Elt F)} {Vr : Valuation Cert.ReferenceIdeal.τ Cert.ReferenceIdeal.sig (Elt F)} (h : ArgsEq Vk Vr) :
    after (List.flatten Cert.KernelIdeal.Hand.preOpss) Vk (Cert.KernelIdeal.main_cst_0 : DevRef Cert.KernelIdeal.τ Cert.KernelIdeal.sig)
      = after Cert.ReferenceIdeal.RefRun.preOps Vr (Cert.ReferenceIdeal.main_cst_0 : DevRef Cert.ReferenceIdeal.τ Cert.ReferenceIdeal.sig) := by
  obtain ⟨h0, h1, h2, h3, h4, h5, h6, h7, h8, h9, h10, h11, h12, h13, h14, h15, h16, h17, h18, h19, h20, h21, h22, h23⟩ := h
  simp (disch := decide) only [Cert.KernelIdeal.Hand.preOpss, List.flatten_cons, List.flatten_nil, after_append, after_cons, after_nil,
      nullary_result', unary_result', binary_result', ternary_result', reshape_result',
      nullary_result_ne', unary_result_ne', binary_result_ne', ternary_result_ne', reshape_result_ne']
  try simp only [h0, h1, h2, h3, h4, h5, h6, h7, h8, h9, h10, h11, h12, h13, h14, h15, h16, h17, h18, h19, h20, h21, h22, h23, lit0_eq, lit1_eq, gather_eq, dot0_eq, dot1_eq, dot2_eq, dot3_eq, dot5_eq, dot6_eq, dot7_eq]
  all_goals rfl

/-- Before the product: the buffers read at or after it agree, the arguments among them. -/
theorem pre_corr {Vk : Valuation Cert.KernelIdeal.τ Cert.KernelIdeal.sig (Elt F)} {Vr : Valuation Cert.ReferenceIdeal.τ Cert.ReferenceIdeal.sig (Elt F)} (h : ArgsEq Vk Vr) :
    after (List.flatten Cert.KernelIdeal.Hand.preOpss) Vk (Cert.KernelIdeal.main_v68 : DevRef Cert.KernelIdeal.τ Cert.KernelIdeal.sig) = after Cert.ReferenceIdeal.RefRun.preOps Vr (Cert.ReferenceIdeal.main_v68 : DevRef Cert.ReferenceIdeal.τ Cert.ReferenceIdeal.sig)
    ∧ after (List.flatten Cert.KernelIdeal.Hand.preOpss) Vk (Cert.KernelIdeal.main_v57 : DevRef Cert.KernelIdeal.τ Cert.KernelIdeal.sig) = after Cert.ReferenceIdeal.RefRun.preOps Vr (Cert.ReferenceIdeal.main_v57 : DevRef Cert.ReferenceIdeal.τ Cert.ReferenceIdeal.sig)
    ∧ after (List.flatten Cert.KernelIdeal.Hand.preOpss) Vk (Cert.KernelIdeal.main_v73 : DevRef Cert.KernelIdeal.τ Cert.KernelIdeal.sig) = after Cert.ReferenceIdeal.RefRun.preOps Vr (Cert.ReferenceIdeal.main_v73 : DevRef Cert.ReferenceIdeal.τ Cert.ReferenceIdeal.sig)
    ∧ after (List.flatten Cert.KernelIdeal.Hand.preOpss) Vk (Cert.KernelIdeal.main_cst_0 : DevRef Cert.KernelIdeal.τ Cert.KernelIdeal.sig) = after Cert.ReferenceIdeal.RefRun.preOps Vr (Cert.ReferenceIdeal.main_cst_0 : DevRef Cert.ReferenceIdeal.τ Cert.ReferenceIdeal.sig)
    ∧ ArgsEq (after (List.flatten Cert.KernelIdeal.Hand.preOpss) Vk) (after Cert.ReferenceIdeal.RefRun.preOps Vr) :=
  ⟨pre_corr_v68 h, pre_corr_v57 h, pre_corr_v73 h, pre_corr_cst_0 h, pre_args h⟩

end Cert.Proof.Corr

end
-- ==== Proof.CorrTail.lean ====
/- The two programs' operations AFTER the product of the incidence matrix with the updated edge features compute
   the same final result from valuations that agree on what those operations read and do not write first: the
   arguments, the updated node features (`main_v57`), the mean (`main_v73`), a constant table (`main_cst_0`) and
   the product itself (`main_v74`). Each side's fold read at the result buffer is the composed term of its
   operations' functions over those buffers, and the two programs apply the same functions in the same order. -/
import proofs.«125620_j10290741641936_1_alg».proof.Proof.CorrBase

noncomputable section

namespace Cert.Proof.Corr

open Idealize.ShloMosaic Idealize.ShloMosaic.TcCoe Idealize.SL.Sem Idealize.ShloMosaic.StableHlo
open Cert.ReferenceIdeal.RefRun (after_append)

variable {F : FTy → Type} [FloatOps F]

attribute [local congr] concat2_congr

set_option maxHeartbeats 400000000 in
/-- After the product: the final results agree. -/
theorem tail_corr {Wk : Valuation Cert.KernelIdeal.τ Cert.KernelIdeal.sig (Elt F)} {Wr : Valuation Cert.ReferenceIdeal.τ Cert.ReferenceIdeal.sig (Elt F)} (hargs : ArgsEq Wk Wr)
    (h57 : Wk (Cert.KernelIdeal.main_v57 : DevRef Cert.KernelIdeal.τ Cert.KernelIdeal.sig) = Wr (Cert.ReferenceIdeal.main_v57 : DevRef Cert.ReferenceIdeal.τ Cert.ReferenceIdeal.sig))
    (h73 : Wk (Cert.KernelIdeal.main_v73 : DevRef Cert.KernelIdeal.τ Cert.KernelIdeal.sig) = Wr (Cert.ReferenceIdeal.main_v73 : DevRef Cert.ReferenceIdeal.τ Cert.ReferenceIdeal.sig))
    (hcst0 : Wk (Cert.KernelIdeal.main_cst_0 : DevRef Cert.KernelIdeal.τ Cert.KernelIdeal.sig) = Wr (Cert.ReferenceIdeal.main_cst_0 : DevRef Cert.ReferenceIdeal.τ Cert.ReferenceIdeal.sig))
    (h74 : Wk (Cert.KernelIdeal.main_v74 : DevRef Cert.KernelIdeal.τ Cert.KernelIdeal.sig) = Wr (Cert.ReferenceIdeal.main_v74 : DevRef Cert.ReferenceIdeal.τ Cert.ReferenceIdeal.sig)) :
    after (List.flatten Cert.KernelIdeal.Hand.tailOpss) Wk (Cert.KernelIdeal.main_v173 : DevRef Cert.KernelIdeal.τ Cert.KernelIdeal.sig)
      = after Cert.ReferenceIdeal.RefRun.tailOps Wr (Cert.ReferenceIdeal.main_v173 : DevRef Cert.ReferenceIdeal.τ Cert.ReferenceIdeal.sig) := by
  obtain ⟨h0, h1, h2, h3, h4, h5, h6, h7, h8, h9, h10, h11, h12, h13, h14, h15, h16, h17, h18, h19, h20, h21, h22, h23⟩ := hargs
  simp (disch := decide) only [Cert.KernelIdeal.Hand.tailOpss, List.flatten_cons, List.flatten_nil, after_append, after_cons, after_nil,
      nullary_result', unary_result', binary_result', ternary_result', reshape_result',
      nullary_result_ne', unary_result_ne', binary_result_ne', ternary_result_ne', reshape_result_ne']
  try simp only [h0, h1, h2, h3, h4, h5, h6, h7, h8, h9, h10, h11, h12, h13, h14, h15, h16, h17, h18, h19, h20, h21, h22, h23, h57, h73, hcst0, h74, lit0_eq, lit1_eq, gather_eq, dot0_eq, dot1_eq, dot2_eq, dot3_eq, dot5_eq, dot6_eq, dot7_eq]
  all_goals rfl

end Cert.Proof.Corr

end
-- ==== Proof.Algebraic.lean ====
/-
  The two idealized programs end with equal results. The kernel program's result buffer is the fold of the
  184 later host operations over the buffers as the region left them; the reference's is the fold of the same
  184 operations over the buffers as its one big product left them. The two starting valuations agree wherever
  the later operations read: on the arguments (kept by everything before), on the three intermediate buffers
  computed before the product (the same operations of the same arguments on both sides), and on the product
  itself — on the kernel's side eight accumulated partial contractions per row-block, on the reference's side
  one contraction over all 16384 edges, equal over the extended reals by regrouping one sum (no finiteness is
  used: the precondition is never opened).
-/
import proofs.«125620_j10290741641936_1_alg».proof.Defs
import proofs.«125620_j10290741641936_1_alg».proof.Proof.BridgeK
import proofs.«125620_j10290741641936_1_alg».proof.Proof.BridgeR
import proofs.«125620_j10290741641936_1_alg».proof.Proof.CorrPre
import proofs.«125620_j10290741641936_1_alg».proof.Proof.CorrTail

noncomputable section

namespace Cert.Proof.Alg

open Idealize.ShloMosaic Idealize.ShloMosaic.TcCoe Idealize.SL.Sem Idealize.ShloMosaic.StableHlo
open Cert.Proof.Corr

variable [Cert.KernelIdeal.Facts] [Cert.ReferenceIdeal.Facts]

/-- The kernel program's result after the run is the reference's whole fold at its result buffer, when the two
    launch memories agree on the arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hargs : ArgsEq (F := Ideal) (fun b => m (c, b)) (StableHlo.launchContents m' c)) :
    Pipeline.afterTail₀ Cert.KernelIdeal.cfgs (Cert.KernelIdeal.Hand.dats m) 0 (Cert.KernelIdeal.Hand.V0 m) Cert.KernelIdeal.Hand.tailOpss c Cert.KernelIdeal.main_v173
      = after (Cert.ReferenceIdeal.RefRun.ops (F := Ideal)) (StableHlo.launchContents m' c) (Cert.ReferenceIdeal.main_v173 : DevRef Cert.ReferenceIdeal.τ Cert.ReferenceIdeal.sig) := by
  rw [Cert.KernelIdeal.HandVal.afterTail_eq, Cert.ReferenceIdeal.RefVal.after_ops]
  obtain ⟨h68, h57, h73, hcst, hpa⟩ := pre_corr hargs
  refine tail_corr ⟨
    (Cert.KernelIdeal.HandVal.Wk_other m c Cert.KernelIdeal.main_arg0 (by decide)).trans (hpa.a0.trans (Cert.ReferenceIdeal.RefVal.Wr_other _ Cert.ReferenceIdeal.main_arg0 (by decide)).symm),
    (Cert.KernelIdeal.HandVal.Wk_other m c Cert.KernelIdeal.main_arg1 (by decide)).trans (hpa.a1.trans (Cert.ReferenceIdeal.RefVal.Wr_other _ Cert.ReferenceIdeal.main_arg1 (by decide)).symm),
    ((Pipeline.withArrays_arr Cert.KernelIdeal.spec0 Cert.KernelIdeal.Gen.launch0.win.arr_inj c (Cert.KernelIdeal.Hand.V0 m c) (fun w => (Cert.KernelIdeal.Hand.dats m 0 c).arrAt w Cert.KernelIdeal.cfg0.N) 0).trans
      (((Cert.KernelIdeal.Hand.dats m 0 c).arrAt_in 0 rfl _).trans (Cert.KernelIdeal.Hand.A_eq m c 0))).trans (hpa.a2.trans (Cert.ReferenceIdeal.RefVal.Wr_other _ Cert.ReferenceIdeal.main_arg2 (by decide)).symm),
    (Cert.KernelIdeal.HandVal.Wk_other m c Cert.KernelIdeal.main_arg3 (by decide)).trans (hpa.a3.trans (Cert.ReferenceIdeal.RefVal.Wr_other _ Cert.ReferenceIdeal.main_arg3 (by decide)).symm),
    (Cert.KernelIdeal.HandVal.Wk_other m c Cert.KernelIdeal.main_arg4 (by decide)).trans (hpa.a4.trans (Cert.ReferenceIdeal.RefVal.Wr_other _ Cert.ReferenceIdeal.main_arg4 (by decide)).symm),
    (Cert.KernelIdeal.HandVal.Wk_other m c Cert.KernelIdeal.main_arg5 (by decide)).trans (hpa.a5.trans (Cert.ReferenceIdeal.RefVal.Wr_other _ Cert.ReferenceIdeal.main_arg5 (by decide)).symm),
    (Cert.KernelIdeal.HandVal.Wk_other m c Cert.KernelIdeal.main_arg6 (by decide)).trans (hpa.a6.trans (Cert.ReferenceIdeal.RefVal.Wr_other _ Cert.ReferenceIdeal.main_arg6 (by decide)).symm),
    (Cert.KernelIdeal.HandVal.Wk_other m c Cert.KernelIdeal.main_arg7 (by decide)).trans (hpa.a7.trans (Cert.ReferenceIdeal.RefVal.Wr_other _ Cert.ReferenceIdeal.main_arg7 (by decide)).symm),
    (Cert.KernelIdeal.HandVal.Wk_other m c Cert.KernelIdeal.main_arg8 (by decide)).trans (hpa.a8.trans (Cert.ReferenceIdeal.RefVal.Wr_other _ Cert.ReferenceIdeal.main_arg8 (by decide)).symm),
    (Cert.KernelIdeal.HandVal.Wk_other m c Cert.KernelIdeal.main_arg9 (by decide)).trans (hpa.a9.trans (Cert.ReferenceIdeal.RefVal.Wr_other _ Cert.ReferenceIdeal.main_arg9 (by decide)).symm),
    (Cert.KernelIdeal.HandVal.Wk_other m c Cert.KernelIdeal.main_arg10 (by decide)).trans (hpa.a10.trans (Cert.ReferenceIdeal.RefVal.Wr_other _ Cert.ReferenceIdeal.main_arg10 (by decide)).symm),
    (Cert.KernelIdeal.HandVal.Wk_other m c Cert.KernelIdeal.main_arg11 (by decide)).trans (hpa.a11.trans (Cert.ReferenceIdeal.RefVal.Wr_other _ Cert.ReferenceIdeal.main_arg11 (by decide)).symm),
    (Cert.KernelIdeal.HandVal.Wk_other m c Cert.KernelIdeal.main_arg12 (by decide)).trans (hpa.a12.trans (Cert.ReferenceIdeal.RefVal.Wr_other _ Cert.ReferenceIdeal.main_arg12 (by decide)).symm),
    (Cert.KernelIdeal.HandVal.Wk_other m c Cert.KernelIdeal.main_arg13 (by decide)).trans (hpa.a13.trans (Cert.ReferenceIdeal.RefVal.Wr_other _ Cert.ReferenceIdeal.main_arg13 (by decide)).symm),
    (Cert.KernelIdeal.HandVal.Wk_other m c Cert.KernelIdeal.main_arg14 (by decide)).trans (hpa.a14.trans (Cert.ReferenceIdeal.RefVal.Wr_other _ Cert.ReferenceIdeal.main_arg14 (by decide)).symm),
    (Cert.KernelIdeal.HandVal.Wk_other m c Cert.KernelIdeal.main_arg15 (by decide)).trans (hpa.a15.trans (Cert.ReferenceIdeal.RefVal.Wr_other _ Cert.ReferenceIdeal.main_arg15 (by decide)).symm),
    (Cert.KernelIdeal.HandVal.Wk_other m c Cert.KernelIdeal.main_arg16 (by decide)).trans (hpa.a16.trans (Cert.ReferenceIdeal.RefVal.Wr_other _ Cert.ReferenceIdeal.main_arg16 (by decide)).symm),
    (Cert.KernelIdeal.HandVal.Wk_other m c Cert.KernelIdeal.main_arg17 (by decide)).trans (hpa.a17.trans (Cert.ReferenceIdeal.RefVal.Wr_other _ Cert.ReferenceIdeal.main_arg17 (by decide)).symm),
    (Cert.KernelIdeal.HandVal.Wk_other m c Cert.KernelIdeal.main_arg18 (by decide)).trans (hpa.a18.trans (Cert.ReferenceIdeal.RefVal.Wr_other _ Cert.ReferenceIdeal.main_arg18 (by decide)).symm),
    (Cert.KernelIdeal.HandVal.Wk_other m c Cert.KernelIdeal.main_arg19 (by decide)).trans (hpa.a19.trans (Cert.ReferenceIdeal.RefVal.Wr_other _ Cert.ReferenceIdeal.main_arg19 (by decide)).symm),
    (Cert.KernelIdeal.HandVal.Wk_other m c Cert.KernelIdeal.main_arg20 (by decide)).trans (hpa.a20.trans (Cert.ReferenceIdeal.RefVal.Wr_other _ Cert.ReferenceIdeal.main_arg20 (by decide)).symm),
    (Cert.KernelIdeal.HandVal.Wk_other m c Cert.KernelIdeal.main_arg21 (by decide)).trans (hpa.a21.trans (Cert.ReferenceIdeal.RefVal.Wr_other _ Cert.ReferenceIdeal.main_arg21 (by decide)).symm),
    (Cert.KernelIdeal.HandVal.Wk_other m c Cert.KernelIdeal.main_arg22 (by decide)).trans (hpa.a22.trans (Cert.ReferenceIdeal.RefVal.Wr_other _ Cert.ReferenceIdeal.main_arg22 (by decide)).symm),
    (Cert.KernelIdeal.HandVal.Wk_other m c Cert.KernelIdeal.main_arg23 (by decide)).trans (hpa.a23.trans (Cert.ReferenceIdeal.RefVal.Wr_other _ Cert.ReferenceIdeal.main_arg23 (by decide)).symm)⟩ ?_ ?_ ?_ ?_
  · exact (Cert.KernelIdeal.HandVal.Wk_other m c Cert.KernelIdeal.main_v57 (by decide)).trans (h57.trans (Cert.ReferenceIdeal.RefVal.Wr_other _ Cert.ReferenceIdeal.main_v57 (by decide)).symm)
  · exact (Cert.KernelIdeal.HandVal.Wk_other m c Cert.KernelIdeal.main_v73 (by decide)).trans (h73.trans (Cert.ReferenceIdeal.RefVal.Wr_other _ Cert.ReferenceIdeal.main_v73 (by decide)).symm)
  · exact (Cert.KernelIdeal.HandVal.Wk_other m c Cert.KernelIdeal.main_cst_0 (by decide)).trans (hcst.trans (Cert.ReferenceIdeal.RefVal.Wr_other _ Cert.ReferenceIdeal.main_cst_0 (by decide)).symm)
  · exact (Cert.KernelIdeal.HandVal.Wk_out_of m c _ _ hpa.a2 h68).trans (Cert.ReferenceIdeal.RefVal.Wr_out _).symm

/-- The algebraic conjunct. -/
theorem algebraic [Cert.Pre_finite_inputs.Facts] : Cert.algebraic_KernelIdeal_ReferenceIdeal := by
  intro m g m' g' _ hagree
  refine ⟨fun c => Pipeline.afterTail₀ Cert.KernelIdeal.cfgs (Cert.KernelIdeal.Hand.dats m) 0 (Cert.KernelIdeal.Hand.V0 m) Cert.KernelIdeal.Hand.tailOpss c Cert.KernelIdeal.main_v173,
    Cert.KernelIdeal.Hand.result_of m g (Cert.KernelIdeal.Hand.dats m) (Cert.KernelIdeal.Hand.A_eq m) (Cert.KernelIdeal.Hand.run_main m g), ?_⟩
  refine (θ_run Cert.ReferenceIdeal.defs _ _).mono (fun r h c => ?_) (Cert.ReferenceIdeal.RefRun.run_main (F := Ideal) m' g')
  obtain ⟨e0, e1, e2, e3, e4, e5, e6, e7, e8, e9, e10, e11, e12, e13, e14, e15, e16, e17, e18, e19, e20, e21, e22, e23⟩ := hagree c
  exact ⟨(h c Cert.ReferenceIdeal.main_v173).trans (result_eq m m' c ⟨e0.symm, e1.symm, e2.symm, e3.symm, e4.symm, e5.symm, e6.symm, e7.symm, e8.symm, e9.symm, e10.symm, e11.symm, e12.symm, e13.symm, e14.symm, e15.symm, e16.symm, e17.symm, e18.symm, e19.symm, e20.symm, e21.symm, e22.symm, e23.symm⟩).symm,
      (h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _),
      (h c Cert.ReferenceIdeal.main_arg5).trans (Cert.ReferenceIdeal.RefRun.kept_arg5 _),
      (h c Cert.ReferenceIdeal.main_arg6).trans (Cert.ReferenceIdeal.RefRun.kept_arg6 _),
      (h c Cert.ReferenceIdeal.main_arg7).trans (Cert.ReferenceIdeal.RefRun.kept_arg7 _),
      (h c Cert.ReferenceIdeal.main_arg8).trans (Cert.ReferenceIdeal.RefRun.kept_arg8 _),
      (h c Cert.ReferenceIdeal.main_arg9).trans (Cert.ReferenceIdeal.RefRun.kept_arg9 _),
      (h c Cert.ReferenceIdeal.main_arg10).trans (Cert.ReferenceIdeal.RefRun.kept_arg10 _),
      (h c Cert.ReferenceIdeal.main_arg11).trans (Cert.ReferenceIdeal.RefRun.kept_arg11 _),
      (h c Cert.ReferenceIdeal.main_arg12).trans (Cert.ReferenceIdeal.RefRun.kept_arg12 _),
      (h c Cert.ReferenceIdeal.main_arg13).trans (Cert.ReferenceIdeal.RefRun.kept_arg13 _),
      (h c Cert.ReferenceIdeal.main_arg14).trans (Cert.ReferenceIdeal.RefRun.kept_arg14 _),
      (h c Cert.ReferenceIdeal.main_arg15).trans (Cert.ReferenceIdeal.RefRun.kept_arg15 _),
      (h c Cert.ReferenceIdeal.main_arg16).trans (Cert.ReferenceIdeal.RefRun.kept_arg16 _),
      (h c Cert.ReferenceIdeal.main_arg17).trans (Cert.ReferenceIdeal.RefRun.kept_arg17 _),
      (h c Cert.ReferenceIdeal.main_arg18).trans (Cert.ReferenceIdeal.RefRun.kept_arg18 _),
      (h c Cert.ReferenceIdeal.main_arg19).trans (Cert.ReferenceIdeal.RefRun.kept_arg19 _),
      (h c Cert.ReferenceIdeal.main_arg20).trans (Cert.ReferenceIdeal.RefRun.kept_arg20 _),
      (h c Cert.ReferenceIdeal.main_arg21).trans (Cert.ReferenceIdeal.RefRun.kept_arg21 _),
      (h c Cert.ReferenceIdeal.main_arg22).trans (Cert.ReferenceIdeal.RefRun.kept_arg22 _),
      (h c Cert.ReferenceIdeal.main_arg23).trans (Cert.ReferenceIdeal.RefRun.kept_arg23 _)⟩

end Cert.Proof.Alg

end
-- ==== Proof.lean ====
/-
  The certificate. Five conjuncts under the programs' stated side conditions:
  the three frames — the kernel program at the word-level and at the exact-real instance run to the end through
  their host operations, the 64 grid points of the one region (at each the body's triple: zero the accumulator
  at a row-block's first step, add a 1024 x 2048 by 2048 x 128 product at every step, copy the accumulator out at
  the last) and the later host operations, leaving the arguments as they were; the reference is one straight
  line of host operations —; the idealization rewrote nothing; and the two idealized programs end with equal
  results, the accumulated blocks being one regrouped sum.
-/
import proofs.«125620_j10290741641936_1_alg».proof.Defs
import proofs.«125620_j10290741641936_1_alg».proof.Proof.Gen.Kernel
import proofs.«125620_j10290741641936_1_alg».proof.Proof.Gen.KernelIdeal
import proofs.«125620_j10290741641936_1_alg».proof.Proof.Gen.ReferenceIdeal
import proofs.«125620_j10290741641936_1_alg».proof.Proof.Gen.Pre_finite_inputs
import proofs.«125620_j10290741641936_1_alg».proof.Proof.HandFrame
import proofs.«125620_j10290741641936_1_alg».proof.Proof.HandFrameBits
import proofs.«125620_j10290741641936_1_alg».proof.Proof.RefFrame
import proofs.«125620_j10290741641936_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_of m ρ (Cert.Kernel.Hand.dats m) (Cert.Kernel.Hand.A_eq m) (Cert.Kernel.Hand.run_main m ρ),
    fun m ρ _ => Cert.KernelIdeal.Hand.frame_of m ρ (Cert.KernelIdeal.Hand.dats m) (Cert.KernelIdeal.Hand.A_eq m) (Cert.KernelIdeal.Hand.run_main m ρ),
    Cert.ReferenceIdeal.RefRun.frame_ri,
    trivial,
    Cert.Proof.Alg.algebraic⟩

end Cert.Proof

end
